-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S257x1024 : Shape := ⟨2, ![257, 1024]⟩
abbrev S1024x3 : Shape := ⟨2, ![1024, 3]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S257x1024 : S_.BroadcastsInDim S257x1024 (![] : Fin 0 → Fin S257x1024.rank)
  reducesTo_S257x1024_S_d0_1 : S257x1024.ReducesTo [0, 1] S_
  bcast_S_S1024x3 : S_.BroadcastsInDim S1024x3 (![] : Fin 0 → Fin S1024x3.rank)
  reducesTo_S1024x3_S_d0_1 : S1024x3.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x2048x1024 .f32) (main_arg1 : FVec F S257x1024 .f32) (main_arg2 : FVec F S1024x3 .f32) (main_arg3 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S257x1024 .f32 := Host.absf main_arg1
  let main_cst_0 : FVec F S_ .f32 := constant S_ .f32 0x7F800000#32
  let main_v5 : FVec F S257x1024 .f32 := broadcastInDim S257x1024 ![] bcast_S_S257x1024 main_cst_0
  let main_v6 : IVec S257x1024 1 := cmpf .olt main_v4 main_v5
  let main_c_1 : IVec S_ 1 := constantI S_ 1 1#1
  let main_v7 : IVec S_ 1 := (fun x v => Host.reduce IntOp.andi x v reducesTo_S257x1024_S_d0_1 h_S_) main_v6 main_c_1
  let main_v8 : IVec S_ 1 := andi main_v3 main_v7
  let main_v9 : FVec F S1024x3 .f32 := Host.absf main_arg2
  let main_cst_2 : FVec F S_ .f32 := constant S_ .f32 0x7F800000#32
  let main_v10 : FVec F S1024x3 .f32 := broadcastInDim S1024x3 ![] bcast_S_S1024x3 main_cst_2
  let main_v11 : IVec S1024x3 1 := cmpf .olt main_v9 main_v10
  let main_c_3 : IVec S_ 1 := constantI S_ 1 1#1
  let main_v12 : IVec S_ 1 := (fun x v => Host.reduce IntOp.andi x v reducesTo_S1024x3_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x2048x1024 : Shape := ⟨3, ![8, 2048, 1024]⟩
abbrev S257x1024 : Shape := ⟨2, ![257, 1024]⟩
abbrev S1024x3 : Shape := ⟨2, ![1024, 3]⟩
abbrev S1024 : Shape := ⟨1, ![1024]⟩
abbrev S_ : Shape := ⟨0, ![]⟩
abbrev S384x1024 : Shape := ⟨2, ![384, 1024]⟩
abbrev S3x1024 : Shape := ⟨2, ![3, 1024]⟩
abbrev S1x1024 : Shape := ⟨2, ![1, 1024]⟩
abbrev S2048x1024 : Shape := ⟨2, ![2048, 1024]⟩
abbrev S384x256 : Shape := ⟨2, ![384, 256]⟩
abbrev S2048x256 : Shape := ⟨2, ![2048, 256]⟩
abbrev S2048x384 : Shape := ⟨2, ![2048, 384]⟩
abbrev S1x2048x256 : Shape := ⟨3, ![1, 2048, 256]⟩
abbrev S3x256 : Shape := ⟨2, ![3, 256]⟩
abbrev S1x256 : Shape := ⟨2, ![1, 256]⟩

abbrev nBuf : Space → Nat
  | .hbm => 12
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S257x1024, .f32⟩
  | .hbm, ⟨2, _⟩ => ⟨S1024x3, .f32⟩
  | .hbm, ⟨3, _⟩ => ⟨S1024, .f32⟩
  | .hbm, ⟨4, _⟩ => ⟨S_, .i32⟩
  | .hbm, ⟨5, _⟩ => ⟨S_, .f32⟩
  | .hbm, ⟨6, _⟩ => ⟨S384x1024, .f32⟩
  | .hbm, ⟨7, _⟩ => ⟨S3x1024, .f32⟩
  | .hbm, ⟨8, _⟩ => ⟨S3x1024, .f32⟩
  | .hbm, ⟨9, _⟩ => ⟨S1x1024, .f32⟩
  | .hbm, ⟨10, _⟩ => ⟨S2048x1024, .f32⟩
  | .hbm, ⟨11, _⟩ => ⟨S8x2048x1024, .f32⟩
  | .local _ .vmem, ⟨0, _⟩ => ⟨S384x256, .f32⟩
  | .local _ .vmem, ⟨1, _⟩ => ⟨S384x256, .f32⟩
  | .local _ .vmem, ⟨2, _⟩ => ⟨S2048x256, .f32⟩
  | .local _ .vmem, ⟨3, _⟩ => ⟨S2048x256, .f32⟩
  | .local _ .vmem, ⟨4, _⟩ => ⟨S2048x384, .bf16⟩
  | .local _ .vmem, ⟨5, _⟩ => ⟨S1x2048x256, .f32⟩
  | .local _ .vmem, ⟨6, _⟩ => ⟨S1x2048x256, .f32⟩
  | .local _ .vmem, ⟨7, _⟩ => ⟨S2048x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x2048x256, .f32⟩
  | .local _ .vmem, ⟨12, _⟩ => ⟨S1x2048x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2048x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S3x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S3x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

abbrev stage1_5 : Fin 2 → Memref sig .tc .vmem S1x2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  pads_S257x1024_S384x1024_01270_000 : S257x1024.Pads (![0, 0] : Fin 2 → Nat) ![127, 0] ![0, 0] S384x1024
  h_S_ : 0 < S_.numel
  slices_S257x1024_S3x1024_127_0 : S257x1024.Slices ![127, 0] S3x1024
  transposes_S1024x3_S3x1024_1_0 : S1024x3.Transposes [1, 0] S3x1024
  bcast_S1024_S1x1024_1 : S1024.BroadcastsInDim S1x1024 (![1] : Fin 1 → Fin S1x1024.rank)
  iota_S2048x384_d1_w32 : S2048x384.Iotas .tc 32 [1]
  iota_S2048x384_d0_w32 : S2048x384.Iotas .tc 32 [0]
  bitsLt_bf16_f32 : FTy.bits .bf16 < FTy.bits .f32
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  packedbf16_S2048x384_S2048x384_0_0 : (Rect.unit (s := S2048x384) ![0, 0] S2048x384.size inb_S2048x384_S2048x384_0_0).PackedRows (EltTy.packing .bf16)
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S2048x256_S2048x256_0_0 : ∀ a, (![0, 0] : Fin 2 → Nat) a + S2048x256.size a ≤ S2048x256.size a
  h_S2048x256 : 0 < S2048x256.numel
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  rotates_S2048x256_d0 : S2048x256.Rotates 0 none
  iota_S2048x256_d0_w32 : S2048x256.Iotas .tc 32 [0]
  natLt_1_32 : 1 < 32
  inb_S3x256_S1x256_0_0 : ∀ a, (![0, 0] : Fin 2 → Nat) a + S1x256.size a ≤ S3x256.size a
  h_S1x256 : 0 < S1x256.numel
  shapeCasts_S1x256_S1x256 : S1x256.ShapeCasts S1x256
  inb_S3x256_S1x256_1_0 : ∀ a, (![1, 0] : Fin 2 → Nat) a + S1x256.size a ≤ S3x256.size a
  inb_S3x256_S1x256_2_0 : ∀ a, (![2, 0] : Fin 2 → Nat) a + S1x256.size a ≤ S3x256.size a
  inb_S1x256_S1x256_0_0 : ∀ a, (![0, 0] : Fin 2 → Nat) a + S1x256.size a ≤ S1x256.size a
  broadcasts_S1x256_S2048x256 : S1x256.Broadcasts S2048x256
  shapeCasts_S2048x256_S2048x256 : S2048x256.ShapeCasts S2048x256
  shapeCasts_S2048x256_S1x2048x256 : S2048x256.ShapeCasts S1x2048x256
  dot_S2048x384_S384x256_S2048x256_1_0_0_1_n_n_wf : DotDims.WF S2048x384 S384x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S384x256.size a ≤ S384x1024.size a
  hwx0_0 : ∀ i : grid0.Coords, EltTy.bits .f32 = 32 ∨ (Rect.block (s := S384x1024) S384x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x1024.size a
  hwx0_1 : ∀ i : grid0.Coords, EltTy.bits .f32 = 32 ∨ (Rect.block (s := S2048x1024) S2048x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S8x2048x1024.size a
  hwx1_0 : ∀ i : grid1.Coords, EltTy.bits .f32 = 32 ∨ (Rect.block (s := S8x2048x1024) S1x2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S2048x1024.size a
  hwx1_1 : ∀ i : grid1.Coords, EltTy.bits .f32 = 32 ∨ (Rect.block (s := S2048x1024) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x256.size a ≤ S3x1024.size a
  hwx1_2 : ∀ i : grid1.Coords, EltTy.bits .f32 = 32 ∨ (Rect.block (s := S3x1024) S3x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x256.size a ≤ S3x1024.size a
  hwx1_3 : ∀ i : grid1.Coords, EltTy.bits .f32 = 32 ∨ (Rect.block (s := S3x1024) S3x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x1024.size a
  hwx1_4 : ∀ i : grid1.Coords, EltTy.bits .f32 = 32 ∨ (Rect.block (s := S1x1024) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048x256.size a ≤ S8x2048x1024.size a
  hwx1_5 : ∀ i : grid1.Coords, EltTy.bits .f32 = 32 ∨ (Rect.block (s := S8x2048x1024) S1x2048x256.size (cc1_transform_5 i) (hinb1_5 i)).WholeWords (EltTy.packing .f32)

variable [Facts₀]

def dot_S2048x384_S384x256_S2048x256_1_0_0_1_n_n : DotDims S2048x384 S384x256 S2048x256 where
  lhsContracting := [1]
  rhsContracting := [0]
  lhsNonContracting := [0]
  rhsNonContracting := [1]
  lhsBatch := []
  rhsBatch := []
  wf := dot_S2048x384_S384x256_S2048x256_1_0_0_1_n_n_wf

abbrev win0_0 : Pipeline.Window sig grid0 :=
  Pipeline.Window.ofSpec (Memref.whole main_v0) S384x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S3x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S3x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x2048x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S257x1024 : Shape := ⟨2, ![257, 1024]⟩
abbrev S1024x3 : Shape := ⟨2, ![1024, 3]⟩
abbrev S1024 : Shape := ⟨1, ![1024]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2048x257 : Shape := ⟨2, ![2048, 257]⟩
abbrev S2048x2048x1 : Shape := ⟨3, ![2048, 2048, 1]⟩
abbrev S2048x2048x2 : Shape := ⟨3, ![2048, 2048, 2]⟩
abbrev S2048x1024 : Shape := ⟨2, ![2048, 1024]⟩
abbrev S8x2050x1024 : Shape := ⟨3, ![8, 2050, 1024]⟩
abbrev S1x1x1024 : Shape := ⟨3, ![1, 1, 1024]⟩
abbrev S1x2048x1 : Shape := ⟨3, ![1, 2048, 1]⟩
abbrev S1x1024 : Shape := ⟨2, ![1, 1024]⟩
abbrev S1x2048x1024 : Shape := ⟨3, ![1, 2048, 1024]⟩
abbrev S1024x1 : Shape := ⟨2, ![1024, 1]⟩

abbrev nBuf : Space → Nat
  | .hbm => 156
  | .vmem => 0
  | .smem => 0
  | _ => 0

abbrev hbmTy0_0 (i : Nat) : BufTy := match i % 128 with
  | 0 => ⟨S8x2048x1024, .f32⟩
  | 1 => ⟨S257x1024, .f32⟩
  | 2 => ⟨S1024x3, .f32⟩
  | 3 => ⟨S1024, .f32⟩
  | 4 => ⟨S2048, .i32⟩
  | 5 => ⟨S1x2048, .i32⟩
  | 6 => ⟨S2048x1, .i32⟩
  | 7 => ⟨S2048x2048, .i32⟩
  | 8 => ⟨S2048x2048, .i32⟩
  | 9 => ⟨S2048x2048, .i32⟩
  | 10 => ⟨S_, .i32⟩
  | 11 => ⟨S_, .i32⟩
  | 12 => ⟨S_, .i32⟩
  | 13 => ⟨S2048x2048, .i32⟩
  | 14 => ⟨S2048x2048, .i32⟩
  | 15 => ⟨S_, .i32⟩
  | 16 => ⟨S2048x2048, .i32⟩
  | 17 => ⟨S2048x2048, .i32⟩
  | 18 => ⟨S_, .i32⟩
  | 19 => ⟨S2048x2048, .i32⟩
  | 20 => ⟨S2048x2048, .i32⟩
  | 21 => ⟨S1x2048, .i32⟩
  | 22 => ⟨S2048x2048, .i32⟩
  | 23 => ⟨S_, .f32⟩
  | 24 => ⟨S2048x257, .f32⟩
  | 25 => ⟨S_, .i32⟩
  | 26 => ⟨S2048x2048, .i32⟩
  | 27 => ⟨S2048x2048, .i1⟩
  | 28 => ⟨S_, .i32⟩
  | 29 => ⟨S2048x2048, .i32⟩
  | 30 => ⟨S2048x2048, .i32⟩
  | 31 => ⟨S2048x2048, .i32⟩
  | 32 => ⟨S_, .i32⟩
  | 33 => ⟨S2048x2048, .i32⟩
  | 34 => ⟨S2048x2048, .i1⟩
  | 35 => ⟨S_, .i32⟩
  | 36 => ⟨S2048x2048, .i32⟩
  | 37 => ⟨S2048x2048, .i32⟩
  | 38 => ⟨S2048x2048, .i32⟩
  | 39 => ⟨S2048x2048x1, .i32⟩
  | 40 => ⟨S2048x2048x1, .i32⟩
  | 41 => ⟨S2048x2048x2, .i32⟩
  | 42 => ⟨S_, .f32⟩
  | 43 => ⟨S2048x2048, .f32⟩
  | 44 => ⟨S2048x257, .f32⟩
  | 45 => ⟨S2048x1024, .f32⟩
  | 46 => ⟨S_, .i32⟩
  | 47 => ⟨S_, .f32⟩
  | 48 => ⟨S8x2050x1024, .f32⟩
  | 49 => ⟨S1x1x1024, .f32⟩
  | 50 => ⟨S_, .i32⟩
  | 51 => ⟨S2048, .i32⟩
  | 52 => ⟨S2048, .i32⟩
  | 53 => ⟨S_, .i32⟩
  | 54 => ⟨S2048, .i32⟩
  | 55 => ⟨S2048, .i1⟩
  | 56 => ⟨S_, .i32⟩
  | 57 => ⟨S2048, .i32⟩
  | 58 => ⟨S2048, .i32⟩
  | 59 => ⟨S_, .i32⟩
  | 60 => ⟨S2048, .i32⟩
  | 61 => ⟨S2048, .i1⟩
  | 62 => ⟨S2048, .i1⟩
  | 63 => ⟨S2048, .f32⟩
  | 64 => ⟨S8x2048x1024, .f32⟩
  | 65 => ⟨S1x2048x1, .f32⟩
  | 66 => ⟨S1x1024, .f32⟩
  | 67 => ⟨S1024, .f32⟩
  | 68 => ⟨S1x1x1024, .f32⟩
  | 69 => ⟨S1x2048x1024, .f32⟩
  | 70 => ⟨S1x2048x1024, .f32⟩
  | 71 => ⟨S1x2048x1024, .f32⟩
  | 72 => ⟨S8x2048x1024, .f32⟩
  | 73 => ⟨S8x2048x1024, .f32⟩
  | 74 => ⟨S1024x1, .f32⟩
  | 75 => ⟨S1024, .f32⟩
  | 76 => ⟨S1x1x1024, .f32⟩
  | 77 => ⟨S8x2048x1024, .f32⟩
  | 78 => ⟨S8x2048x1024, .f32⟩
  | 79 => ⟨S8x2048x1024, .f32⟩
  | 80 => ⟨S8x2048x1024, .f32⟩
  | 81 => ⟨S_, .i32⟩
  | 82 => ⟨S2048, .i32⟩
  | 83 => ⟨S2048, .i32⟩
  | 84 => ⟨S_, .i32⟩
  | 85 => ⟨S2048, .i32⟩
  | 86 => ⟨S2048, .i1⟩
  | 87 => ⟨S_, .i32⟩
  | 88 => ⟨S2048, .i32⟩
  | 89 => ⟨S2048, .i32⟩
  | 90 => ⟨S_, .i32⟩
  | 91 => ⟨S2048, .i32⟩
  | 92 => ⟨S2048, .i1⟩
  | 93 => ⟨S2048, .i1⟩
  | 94 => ⟨S2048, .f32⟩
  | 95 => ⟨S8x2048x1024, .f32⟩
  | 96 => ⟨S1x2048x1, .f32⟩
  | 97 => ⟨S1x1024, .f32⟩
  | 98 => ⟨S1024, .f32⟩
  | 99 => ⟨S1x1x1024, .f32⟩
  | 100 => ⟨S1x2048x1024, .f32⟩
  | 101 => ⟨S1x2048x1024, .f32⟩
  | 102 => ⟨S1x2048x1024, .f32⟩
  | 103 => ⟨S8x2048x1024, .f32⟩
  | 104 => ⟨S8x2048x1024, .f32⟩
  | 105 => ⟨S1024x1, .f32⟩
  | 106 => ⟨S1024, .f32⟩
  | 107 => ⟨S1x1x1024, .f32⟩
  | 108 => ⟨S8x2048x1024, .f32⟩
  | 109 => ⟨S8x2048x1024, .f32⟩
  | 110 => ⟨S8x2048x1024, .f32⟩
  | 111 => ⟨S_, .i32⟩
  | 112 => ⟨S2048, .i32⟩
  | 113 => ⟨S2048, .i32⟩
  | 114 => ⟨S_, .i32⟩
  | 115 => ⟨S2048, .i32⟩
  | 116 => ⟨S2048, .i1⟩
  | 117 => ⟨S_, .i32⟩
  | 118 => ⟨S2048, .i32⟩
  | 119 => ⟨S2048, .i32⟩
  | 120 => ⟨S_, .i32⟩
  | 121 => ⟨S2048, .i32⟩
  | 122 => ⟨S2048, .i1⟩
  | 123 => ⟨S2048, .i1⟩
  | 124 => ⟨S2048, .f32⟩
  | 125 => ⟨S8x2048x1024, .f32⟩
  | 126 => ⟨S1x2048x1, .f32⟩
  | 127 => ⟨S1x1024, .f32⟩
  | _ => ⟨S8x2048x1024, .f32⟩

abbrev hbmTy0_1 (i : Nat) : BufTy := match i % 128 with
  | 0 => ⟨S1024, .f32⟩
  | 1 => ⟨S1x1x1024, .f32⟩
  | 2 => ⟨S1x2048x1024, .f32⟩
  | 3 => ⟨S1x2048x1024, .f32⟩
  | 4 => ⟨S1x2048x1024, .f32⟩
  | 5 => ⟨S8x2048x1024, .f32⟩
  | 6 => ⟨S8x2048x1024, .f32⟩
  | 7 => ⟨S1024x1, .f32⟩
  | 8 => ⟨S1024, .f32⟩
  | 9 => ⟨S1x1x1024, .f32⟩
  | 10 => ⟨S8x2048x1024, .f32⟩
  | 11 => ⟨S8x2048x1024, .f32⟩
  | 12 => ⟨S8x2048x1024, .f32⟩
  | 13 => ⟨S_, .f32⟩
  | 14 => ⟨S8x2048x1024, .f32⟩
  | 15 => ⟨S8x2048x1024, .f32⟩
  | 16 => ⟨S8x2048x1024, .f32⟩
  | 17 => ⟨S1x2048x1024, .f32⟩
  | 18 => ⟨S8x2048x1024, .f32⟩
  | 19 => ⟨S8x2048x1024, .f32⟩
  | 20 => ⟨S1x1024, .f32⟩
  | 21 => ⟨S1024, .f32⟩
  | 22 => ⟨S1x1x1024, .f32⟩
  | 23 => ⟨S8x2048x1024, .f32⟩
  | 24 => ⟨S8x2048x1024, .f32⟩
  | 25 => ⟨S_, .f32⟩
  | 26 => ⟨S8x2048x1024, .f32⟩
  | 27 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_call1_v0 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_c_9 : Ref sig .tc := ⟨.hbm, 53, rfl⟩
abbrev main_v32 : Ref sig .tc := ⟨.hbm, 54, rfl⟩
abbrev main_v33 : Ref sig .tc := ⟨.hbm, 55, rfl⟩
abbrev main_c_10 : Ref sig .tc := ⟨.hbm, 56, rfl⟩
abbrev main_v34 : Ref sig .tc := ⟨.hbm, 57, rfl⟩
abbrev main_v35 : Ref sig .tc := ⟨.hbm, 58, rfl⟩
abbrev main_c_11 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_16 : Ref sig .tc := ⟨.hbm, 111, rfl⟩
abbrev main_v83 : Ref sig .tc := ⟨.hbm, 112, rfl⟩
abbrev main_v84 : Ref sig .tc := ⟨.hbm, 113, rfl⟩
abbrev main_c_17 : Ref sig .tc := ⟨.hbm, 114, rfl⟩
abbrev main_v85 : Ref sig .tc := ⟨.hbm, 115, rfl⟩
abbrev main_v86 : Ref sig .tc := ⟨.hbm, 116, rfl⟩
abbrev main_c_18 : Ref sig .tc := ⟨.hbm, 117, rfl⟩
abbrev main_v87 : Ref sig .tc := ⟨.hbm, 118, rfl⟩
abbrev main_v88 : Ref sig .tc := ⟨.hbm, 119, rfl⟩
abbrev main_c_19 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_20 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_21 : Ref sig .tc := ⟨.hbm, 153, rfl⟩
abbrev main_v120 : Ref sig .tc := ⟨.hbm, 154, rfl⟩
abbrev main_v121 : Ref sig .tc := ⟨.hbm, 155, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S_S2048x257 : S_.BroadcastsInDim S2048x257 (![] : Fin 0 → Fin S2048x257.rank)
  bcast_S2048x2048_S2048x2048x1_0_1 : S2048x2048.BroadcastsInDim S2048x2048x1 (![0, 1] : Fin 2 → Fin S2048x2048x1.rank)
  concatenates_S2048x2048x1_S2048x2048x1_S2048x2048x2_d2 : Shape.Concatenates [S2048x2048x1, S2048x2048x1] S2048x2048x2 2
  pads_S8x2048x1024_S8x2050x1024_000_110_000 : S8x2048x1024.Pads (![0, 1, 0] : Fin 3 → Nat) ![0, 1, 0] ![0, 0, 0] S8x2050x1024
  h_S_ : 0 < S_.numel
  bcast_S1024_S1x1x1024_2 : S1024.BroadcastsInDim S1x1x1024 (![2] : Fin 1 → Fin S1x1x1024.rank)
  bcast_S_S2048 : S_.BroadcastsInDim S2048 (![] : Fin 0 → Fin S2048.rank)
  slices_S8x2050x1024_S8x2048x1024_0_0_0 : S8x2050x1024.Slices ![0, 0, 0] S8x2048x1024
  bcast_S2048_S1x2048x1_1 : S2048.BroadcastsInDim S1x2048x1 (![1] : Fin 1 → Fin S1x2048x1.rank)
  slices_S257x1024_S1x1024_127_0 : S257x1024.Slices ![127, 0] S1x1024
  shapeCasts_S1x1024_S1024 : S1x1024.ShapeCasts S1024
  bcast_S1x2048x1_S1x2048x1024_0_1_2 : S1x2048x1.BroadcastsInDim S1x2048x1024 (![0, 1, 2] : Fin 3 → Fin S1x2048x1024.rank)
  bcast_S1x1x1024_S1x2048x1024_0_1_2 : S1x1x1024.BroadcastsInDim S1x2048x1024 (![0, 1, 2] : Fin 3 → Fin S1x2048x1024.rank)
  bcast_S1x2048x1024_S8x2048x1024_0_1_2 : S1x2048x1024.BroadcastsInDim S8x2048x1024 (![0, 1, 2] : Fin 3 → Fin S8x2048x1024.rank)
  slices_S1024x3_S1024x1_0_0 : S1024x3.Slices ![0, 0] S1024x1
  shapeCasts_S1024x1_S1024 : S1024x1.ShapeCasts S1024
  bcast_S1x1x1024_S8x2048x1024_0_1_2 : S1x1x1024.BroadcastsInDim S8x2048x1024 (![0, 1, 2] : Fin 3 → Fin S8x2048x1024.rank)
  slices_S8x2050x1024_S8x2048x1024_0_1_0 : S8x2050x1024.Slices ![0, 1, 0] S8x2048x1024
  slices_S257x1024_S1x1024_128_0 : S257x1024.Slices ![128, 0] S1x1024
  slices_S1024x3_S1024x1_0_1 : S1024x3.Slices ![0, 1] S1024x1
  slices_S8x2050x1024_S8x2048x1024_0_2_0 : S8x2050x1024.Slices ![0, 2, 0] S8x2048x1024
  slices_S257x1024_S1x1024_129_0 : S257x1024.Slices ![129, 0] S1x1024
  slices_S1024x3_S1024x1_0_2 : S1024x3.Slices ![0, 2] S1024x1
  bcast_S_S8x2048x1024 : S_.BroadcastsInDim S8x2048x1024 (![] : Fin 0 → Fin S8x2048x1024.rank)
  bcast_S2048x1024_S1x2048x1024_1_2 : S2048x1024.BroadcastsInDim S1x2048x1024 (![1, 2] : Fin 2 → Fin S1x2048x1024.rank)
  scatter_S2048x257_S2048x2048x2_S2048x2048_n_01_01_2_wf : ScatterDims.WF S2048x257 S2048x2048x2 S2048x2048 [] [0, 1] [0, 1] 2
  dot_S2048x257_S257x1024_S2048x1024_1_0_0_1_n_n_wf : DotDims.WF S2048x257 S257x1024 S2048x1024 [1] [0] [0] [1] [] []

variable [Facts₀]

def scatter_S2048x257_S2048x2048x2_S2048x2048_n_01_01_2 : ScatterDims S2048x257 S2048x2048x2 S2048x2048 where
  updateWindowDims := []
  insertedWindowDims := [0, 1]
  scatterDimsToOperandDims := [0, 1]
  indexVectorDim := 2
  wf := scatter_S2048x257_S2048x2048x2_S2048x2048_n_01_01_2_wf
def dot_S2048x257_S257x1024_S2048x1024_1_0_0_1_n_n : DotDims S2048x257 S257x1024 S2048x1024 where
  lhsContracting := [1]
  rhsContracting := [0]
  lhsNonContracting := [0]
  rhsNonContracting := [1]
  lhsBatch := []
  rhsBatch := []
  wf := dot_S2048x257_S257x1024_S2048x1024_1_0_0_1_n_n_wf

class Facts : Prop extends Facts₀ where

variable [Facts]
-- ==== Proof.BitsRegion0.lean ====
/-
  The first kernel region (the embedding-sum kernel), at a parameter `V` — the buffer contents when the region is
  entered.  Its grid has four points, one per channel tile.  At the FIRST point the body fills a scratch buffer with
  the [2048, 384] matrix of counts (a function of nothing but the indices); at every point it then loads the tile of
  the zero-padded table and the scratch, and stores their matrix product as the tile of the result.  So the scratch
  is carried between points: before the first point it holds anything, and after every point it holds the counts the
  first point stored — the region's invariant says so —, and the output's staging buffer holds after the body the
  product of the point's table tile with the scratch's contents.
-/
import proofs.«136840_j25666724560954_1_alg».proof.Proof.Gen.Kernel.Launch
import proofs.«136840_j25666724560954_1_alg».proof.Proof.Gen.Kernel.Skeleton
import proofs.«136840_j25666724560954_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The branch on the first point -/

/-- The condition of the body's one branch, from the grid coordinate: "this is tile 0". -/
abbrev cond0 (i : grid0.Coords) : Prop := (Scalar.cmpi .ne (Scalar.extui (Scalar.cmpi .eq (BitVec.ofNat 32 (i 0).val) 0#32)) 0#32) = 1#1
/-- It holds at the first point only — decided over the four points. -/
theorem hcond0 : ∀ t : Fin cfg0.N, cond0 (grid0.coords t) ↔ t.val = 0 :=
  (by decide +kernel : ∀ t : Fin grid0.N, cond0 (grid0.coords t) ↔ t.val = 0)

/-- Each window's current staging memref at point `t`, and the scratch operand. -/
abbrev ms0_0 (t : Fin cfg0.N) : Memref sig .tc .vmem S384x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev scM0 : Memref sig .tc .vmem S2048x384 .bf16 := Memref.whole cc0_scratch0
/-- Views through which the contents of the output's staging buffer and of the scratch are stated. -/
abbrev VO0 : View sig .tc .vmem S2048x256 .f32 := (Memref.whole cc0_stg1_0 : Memref sig .tc .vmem S2048x256 .f32).view
abbrev VS0 : View sig .tc .vmem S2048x384 .bf16 := scM0.view

/-- A scoped buffer of the core at some contents. -/
abbrev someBuf (c : Dev nD) (b : Ref sig .tc) : sProp 𝕄 :=
  iprop(∃ f : Buf (Elt F) ((c : Thread nD τ).loc b), ((c : Thread nD τ).loc b) ↦{fullShare} f)
/-- The scoped buffers this region never touches: the other region's staging buffers. -/
abbrev others0 (c : Dev nD) : sProp 𝕄 :=
  iprop(someBuf (F := F) c cc1_stg0_0 ∗ someBuf (F := F) c cc1_stg0_1 ∗ someBuf (F := F) c cc1_stg1_0 ∗ someBuf (F := F) c cc1_stg2_0 ∗ someBuf (F := F) c cc1_stg3_0
    ∗ someBuf (F := F) c cc1_stg4_0 ∗ someBuf (F := F) c cc1_stg5_0 ∗ someBuf (F := F) c cc1_stg5_1)

/-- What the launch hands a region of the class: the scratch at anything, the untouched scoped buffers, the
    generator register at some state. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA; rw [scopedRest0_eq]; simp only [scM0, owns_whole]; try rfl

/-- The rectangles the body reads and writes: every buffer whole. -/
abbrev rT0 : Rect S384x256 := Rect.unit (s := S384x256) ![0, 0] S384x256.size inb_S384x256_S384x256_0_0
abbrev rS0 : Rect S2048x384 := Rect.unit (s := S2048x384) ![0, 0] S2048x384.size inb_S2048x384_S2048x384_0_0
abbrev rO0 : Rect S2048x256 := Rect.unit (s := S2048x256) ![0, 0] S2048x256.size inb_S2048x256_S2048x256_0_0

/-! ## The body at a later point: the scratch is an input -/

/-- The output's staging buffer after the body at a point that is not the first: its one store, the product of the
    table tile with the scratch's contents. -/
def out0_B (x0 : Vec F S384x256 .f32) (xs : Vec F S2048x384 .bf16) : Vec F S2048x256 .f32 :=
  View.canon [⟨rO0, k0_pay2 (View.ld x0 rT0) (View.ld xs rS0)⟩]

theorem cover0_B (p0 : Vec F S2048x256 .f32) (y : S2048x256.Idx) :
    ∃ pc ∈ ([⟨rO0, p0⟩] : List (View.Piece (Elt F) S2048x256 .f32)), y ∈ pc.1.set :=
  View.cover_of_tiled [⟨rO0, p0⟩] S2048x256.size (by rfl) y

set_option maxHeartbeats 4000000 in
/-- Where the branch is not taken the body reads the table tile and the scratch and stores their product. -/
theorem sound_kernel0_B (c : Dev nD) (E : Set ℕ) (i : grid0.Coords) (hc0 : ¬cond0 i)
    (arg1 : Memref sig .tc .vmem S384x256 .f32) (harg1 : arg1.IsWhole) (arg2 : Memref sig .tc .vmem S2048x256 .f32) (harg2 : arg2.IsWhole)
    (arg3 : Memref sig .tc .vmem S2048x384 .bf16) (harg3 : arg3.IsWhole)
    (x0 : Vec F S384x256 .f32) (xs : Vec F S2048x384 .bf16) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (out0_B x0 xs) ∗ owns (c : Thread nD τ) arg3 fullShare xs) -∗ K ⟨⟩))
      ⊢ wp frame (wpE (defs₀ (F := F)) Variants.none c none) E (cc0__emb_sum_kernel i arg1 harg1 arg2 harg2 arg3 harg3) K := by
  simp only [cc0__emb_sum_kernel_eq_skeleton]; unfold cc0__emb_sum_kernel_skel
  unfold owns
  iintro ⟨⟨%f0, %hf0, H0⟩, ⟨%d1, %f1, -, H1⟩, ⟨%fs, %hfs, HS⟩, Hk⟩
  subst hf0 hfs
  sl_exec (disch := first | exact hc0)
  sl_step
  iapply Hk
  isplitl [H0]
  · iexists f0; isplitr; · ipureintro; rfl
    iexact H0
  isplitl [H1]
  · iexists _; isplitr
    swap; · iexact H1
    ipureintro
    try dsimp only
    exact View.read_writes_eq_canon _ _ _ (cover0_B _)
  iexists fs; isplitr; · ipureintro; rfl
  iexact HS

/-! ## The body at the first point: the scratch is filled, then read -/

set_option maxHeartbeats 4000000 in
/-- Where the branch is taken: what the body's stores leave in the output's staging memref and in the scratch, as
    pieces the run finds, with the proof that from the table tile at its contents and the other two buffers at
    anything the body runs to the continuation holding the tile as it was and the two buffers with those pieces
    written. -/
noncomputable def kernelRun0_A (c : Dev nD) (i : grid0.Coords) (hc0 : cond0 i)
    (arg1 : Memref sig .tc .vmem S384x256 .f32) (harg1 : arg1.IsWhole) (arg2 : Memref sig .tc .vmem S2048x256 .f32) (harg2 : arg2.IsWhole)
    (arg3 : Memref sig .tc .vmem S2048x384 .bf16) (harg3 : arg3.IsWhole) (x0 : Vec F S384x256 .f32) :
    Σ' (L1 : List (View.Piece (Elt F) S2048x256 .f32)), { LS0 : List (View.Piece (Elt F) S2048x384 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f LS0)) -∗ K ⟨⟩))
          ⊢ wp frame (wpE (defs₀ (F := F)) Variants.none c none) E (cc0__emb_sum_kernel i arg1 harg1 arg2 harg2 arg3 harg3) K } := by
  refine ⟨?_, ?_, fun E K => ?run⟩
  case run =>
    simp only [cc0__emb_sum_kernel_eq_skeleton]; unfold cc0__emb_sum_kernel_skel
    simp only [k0_part1_eq_skeleton]; unfold k0_part1_skel
    unfold owns
    iintro ⟨⟨%f0, %hf0, H0⟩, ⟨%d1, %f1, -, H1⟩, ⟨%ds, %fs, -, HS⟩, Hk⟩
    obtain rfl := harg1.eq_unread hf0
    sl_exec (disch := first | exact hc0)
    sl_step
    iapply Hk
    isplitl [H0]
    · iexists _; isplitr; · ipureintro; exact harg1.read_unread _
      iexact H0
    isplitl [H1]; · iexists _; iexact H1
    iexists _; iexact HS

/-- The first point's pieces for the output tile it. -/
theorem cover0_A (c : Dev nD) (i : grid0.Coords) (hc0 : cond0 i)
    (arg1 : Memref sig .tc .vmem S384x256 .f32) (harg1 : arg1.IsWhole) (arg2 : Memref sig .tc .vmem S2048x256 .f32) (harg2 : arg2.IsWhole)
    (arg3 : Memref sig .tc .vmem S2048x384 .bf16) (harg3 : arg3.IsWhole) (x0 : Vec F S384x256 .f32) (y : S2048x256.Idx) :
    ∃ pc ∈ (kernelRun0_A c i hc0 arg1 harg1 arg2 harg2 arg3 harg3 x0).1, y ∈ pc.1.set :=
  View.cover_of_tiledL (kernelRun0_A c i hc0 arg1 harg1 arg2 harg2 arg3 harg3 x0).1 S2048x256.size (by sl_kernel_rfl) y

/-- What the first point leaves in the output's staging buffer. -/
def out0_A (c : Dev nD) (i : grid0.Coords) (hc0 : cond0 i)
    (arg1 : Memref sig .tc .vmem S384x256 .f32) (harg1 : arg1.IsWhole) (arg2 : Memref sig .tc .vmem S2048x256 .f32) (harg2 : arg2.IsWhole)
    (arg3 : Memref sig .tc .vmem S2048x384 .bf16) (harg3 : arg3.IsWhole) (x0 : Vec F S384x256 .f32) : Vec F S2048x256 .f32 :=
  VO0.read (Elt F) (VO0.writes (Elt F) VO0.junk (kernelRun0_A c i hc0 arg1 harg1 arg2 harg2 arg3 harg3 x0).1)

/-- The first point's pieces for the scratch tile it. -/
theorem scover0_A (c : Dev nD) (i : grid0.Coords) (hc0 : cond0 i)
    (arg1 : Memref sig .tc .vmem S384x256 .f32) (harg1 : arg1.IsWhole) (arg2 : Memref sig .tc .vmem S2048x256 .f32) (harg2 : arg2.IsWhole)
    (arg3 : Memref sig .tc .vmem S2048x384 .bf16) (harg3 : arg3.IsWhole) (x0 : Vec F S384x256 .f32) (y : S2048x384.Idx) :
    ∃ pc ∈ (kernelRun0_A c i hc0 arg1 harg1 arg2 harg2 arg3 harg3 x0).2.1, y ∈ pc.1.set :=
  View.cover_of_tiledL (kernelRun0_A c i hc0 arg1 harg1 arg2 harg2 arg3 harg3 x0).2.1 S2048x384.size (by sl_kernel_rfl) y

/-- What the first point leaves in the scratch. -/
def sout0_A (c : Dev nD) (i : grid0.Coords) (hc0 : cond0 i)
    (arg1 : Memref sig .tc .vmem S384x256 .f32) (harg1 : arg1.IsWhole) (arg2 : Memref sig .tc .vmem S2048x256 .f32) (harg2 : arg2.IsWhole)
    (arg3 : Memref sig .tc .vmem S2048x384 .bf16) (harg3 : arg3.IsWhole) (x0 : Vec F S384x256 .f32) : Vec F S2048x384 .bf16 :=
  VS0.read (Elt F) (VS0.writes (Elt F) VS0.junk (kernelRun0_A c i hc0 arg1 harg1 arg2 harg2 arg3 harg3 x0).2.1)

/-! ## What the buffers hold point by point -/

/-- The first point. -/
abbrev p0 : Fin cfg0.N := t0_0

theorem p0_val : (p0 : Fin cfg0.N).val = 0 := rfl

/-- The scratch after every point: what the first point stored. -/
def scr (c : Dev nD) : Vec F S2048x384 .bf16 :=
  sout0_A c (grid0.coords p0) ((hcond0 p0).mpr p0_val) (ms0_0 p0) (hs0_0 p0) (ms0_1 p0) (hs0_1 p0) scM0 (Memref.isWhole_whole _) (iblk0 V c 0 p0)

/-- The output's staging buffer after the body at point `t`. -/
def outAt0 (c : Dev nD) (t : Fin cfg0.N) : Vec F S2048x256 .f32 :=
  if t.val = 0 then
    out0_A c (grid0.coords p0) ((hcond0 p0).mpr p0_val) (ms0_0 p0) (hs0_0 p0) (ms0_1 p0) (hs0_1 p0) scM0 (Memref.isWhole_whole _) (iblk0 V c 0 p0)
  else out0_B (iblk0 V c 0 t) (scr V c)

/-- The region's invariant before position `n`: before the first point what the launch hands over (the scratch at
    anything); afterwards the scratch at the counts, the untouched scoped buffers, the generator register. -/
def PhiS (c : Dev nD) : (n : ℕ) → sProp 𝕄
  | 0 => Pipeline.ΦA spec0 c
  | _ + 1 => iprop(iprop(owns (c : Thread nD τ) scM0 fullShare (scr V c) ∗ others0 (F := F) c) ∗ (∃ r, prngReg c r))

theorem PhiS_pos (c : Dev nD) (n : ℕ) (hz : n ≠ 0) :
    PhiS V c n = iprop(iprop(owns (c : Thread nD τ) scM0 fullShare (scr V c) ∗ others0 (F := F) c) ∗ (∃ r, prngReg c r)) := by
  cases n with
  | zero => exact absurd rfl hz
  | succ n => rfl

/-- The proof data of this pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outAt0 V c t
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 4000000 in
/-- The body at any point: at the first the invariant hands the scratch at anything and takes it back at the counts;
    at a later one it hands the scratch at the counts and takes it back unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl,
    show (dat0 V c).Φ t.succ = PhiS V c (t.val + 1) from rfl,
    show (dat0 V c).Φ t.castSucc = PhiS V c t.val from rfl,
    PhiS_pos V c (t.val + 1) (Nat.succ_ne_zero _), after0_0, after0_1]
  by_cases hz : t.val = 0
  · obtain rfl : t = p0 := Fin.ext hz
    rw [show PhiS V c (p0 : Fin cfg0.N).val = Pipeline.ΦA spec0 c from rfl, PhiA0_eq]
    unfold outAt0 scr; rw [if_pos p0_val]; unfold out0_A sout0_A
    iintro ⟨⟨⟨HS, HR⟩, Hg⟩, Ho, ⟨%d0, H0⟩, ⟨%d1, H1⟩⟩
    iapply ((kernelRun0_A c (grid0.coords p0) ((hcond0 p0).mpr p0_val) _ _ _ _ _ _ (iblk0 V c 0 p0)).2.2 Set.univ _)
    isplitl [H0]; · iexact H0
    isplitl [H1]; · iexists _; iexact H1
    isplitl [HS]; · iexact HS
    iintro ⟨H0, ⟨%e1, H1⟩, ⟨%es, HS⟩⟩
    isplitl [HS HR Hg]
    · isplitl [HS HR]
      · isplitl [HS]
        · unfold owns; iexists _; isplitr
          swap; · iexact HS
          ipureintro; exact View.read_writes_of_cover _ _ _ _ _ (scover0_A c _ _ _ _ _ _ _ _ _)
        iexact HR
      iexact Hg
    isplitl [Ho]; · iexact Ho
    isplitl [H0]; · iexact H0
    unfold owns; iexists _; isplitr
    swap; · iexact H1
    ipureintro; exact View.read_writes_of_cover _ _ _ _ _ (cover0_A c _ _ _ _ _ _ _ _ _)
  · rw [PhiS_pos V c t.val hz]
    unfold outAt0; rw [if_neg hz]
    iintro ⟨⟨⟨HS, HR⟩, Hg⟩, Ho, ⟨%d0, H0⟩, ⟨%d1, H1⟩⟩
    iapply (sound_kernel0_B c Set.univ (grid0.coords t) (fun h => hz ((hcond0 t).mp h)) _ _ _ _ _ _ (iblk0 V c 0 t) (scr V c) _)
    isplitl [H0]; · iexact H0
    isplitl [H1]; · iexists _; iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]

/-- After the last point the invariant gives back what a region of the class returns: the scratch's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 4 := N_0; omega), PhiA0_eq]
  iintro ⟨⟨HS, HR⟩, Hg⟩
  isplitl [HS HR]
  · isplitl [HS]; · iexists _; iexact HS
    iexact HR
  iexact Hg

end Cert.Kernel.Hand

end
-- ==== Proof.BitsRegion1.lean ====
/-
  The second kernel region (the main kernel: the width-3 depthwise convolution's diagonal, the 2047·x term, the
  embedding sum and the division by 2048), at a parameter `V` — the buffer contents when the region is entered.
  Per grid point (channel tile, batch) the body loads its five input blocks whole (the x block; the embedding-sum
  block; rows 0, 1, 2 of the three middle table rows; rows 0, 1, 2 of the transposed weights; the bias row), and
  stores one whole block of the result.  So each input's staging buffer holds its block at every point, fetched
  there or not, and the output's buffer holds, after the body, the one stored value: the body's arithmetic of the
  input blocks.
-/
import proofs.«136840_j25666724560954_1_alg».proof.Proof.Gen.Kernel.Launch
import proofs.«136840_j25666724560954_1_alg».proof.Proof.Gen.Kernel.Skeleton
import proofs.«136840_j25666724560954_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it was fetched there
    (unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: every block whole, and the three rows of a three-row block. -/
abbrev rX1 : Rect S1x2048x256 := Rect.unit (s := S1x2048x256) ![0, 0, 0] S1x2048x256.size inb_S1x2048x256_S1x2048x256_0_0_0
abbrev rE1 : Rect S2048x256 := Rect.unit (s := S2048x256) ![0, 0] S2048x256.size inb_S2048x256_S2048x256_0_0
abbrev rRow0 : Rect S3x256 := Rect.unit (s := S3x256) ![0, 0] S1x256.size inb_S3x256_S1x256_0_0
abbrev rRow1 : Rect S3x256 := Rect.unit (s := S3x256) ![1, 0] S1x256.size inb_S3x256_S1x256_1_0
abbrev rRow2 : Rect S3x256 := Rect.unit (s := S3x256) ![2, 0] S1x256.size inb_S3x256_S1x256_2_0
abbrev rB1 : Rect S1x256 := Rect.unit (s := S1x256) ![0, 0] S1x256.size inb_S1x256_S1x256_0_0

/-- The one stored value, from the five input blocks. -/
def pay1 (x0 : Vec F S1x2048x256 .f32) (x1 : Vec F S2048x256 .f32) (x2 x3 : Vec F S3x256 .f32) (x4 : Vec F S1x256 .f32) : FVec F S1x2048x256 .f32 :=
  k1_pay1 (k1_pay2 (View.ld x0 rX1)) (k1_pay3 (View.ld x2 rRow1)) (k1_pay4 (View.ld x3 rRow1)) (k1_pay5 (View.ld x3 rRow2)) (k1_pay6 (View.ld x4 rB1))
    (k1_pay7 (View.ld x0 rX1) (View.ld x2 rRow1)) (k1_pay8 (View.ld x0 rX1) (View.ld x2 rRow2)) (k1_pay9 (View.ld x0 rX1) (View.ld x2 rRow0) (View.ld x3 rRow0)) (View.ld x1 rE1)

/-- The output's staging buffer after the body: its one store over the whole block. -/
def out1_5 (x0 : Vec F S1x2048x256 .f32) (x1 : Vec F S2048x256 .f32) (x2 x3 : Vec F S3x256 .f32) (x4 : Vec F S1x256 .f32) : Vec F S1x2048x256 .f32 :=
  View.canon [⟨rX1, pay1 x0 x1 x2 x3 x4⟩]

/-- The one store covers the block. -/
theorem cover1_5 (p0 : Vec F S1x2048x256 .f32) (y : S1x2048x256.Idx) :
    ∃ pc ∈ ([⟨rX1, p0⟩] : List (View.Piece (Elt F) S1x2048x256 .f32)), y ∈ pc.1.set :=
  View.cover_of_tiled [⟨rX1, p0⟩] S1x2048x256.size (by rfl) y

set_option maxHeartbeats 4000000 in
/-- The body on whole staging memrefs, the inputs' at given contents and the output's at anything, runs to the
    continuation holding the inputs' as they were and the output's at `out1_5` of the inputs'. -/
theorem sound_kernel1 (c : Dev nD) (E : Set ℕ) (i : grid1.Coords)
    (arg2 : Memref sig .tc .vmem S1x2048x256 .f32) (harg2 : arg2.IsWhole) (arg3 : Memref sig .tc .vmem S2048x256 .f32) (harg3 : arg3.IsWhole)
    (arg4 : Memref sig .tc .vmem S3x256 .f32) (harg4 : arg4.IsWhole) (arg5 : Memref sig .tc .vmem S3x256 .f32) (harg5 : arg5.IsWhole)
    (arg6 : Memref sig .tc .vmem S1x256 .f32) (harg6 : arg6.IsWhole) (arg7 : Memref sig .tc .vmem S1x2048x256 .f32) (harg7 : arg7.IsWhole)
    (x0 : Vec F S1x2048x256 .f32) (x1 : Vec F S2048x256 .f32) (x2 x3 : Vec F S3x256 .f32) (x4 : Vec F S1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__main_kernel i arg2 harg2 arg3 harg3 arg4 harg4 arg5 harg5 arg6 harg6 arg7 harg7) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

/-- The proof data of this pipeline on core `c`: the arrays as the region finds them; after the body at point `t`
    each input's buffer at its block and the output's at `out1_5` of the input blocks; nothing carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The run of the whole program: three stretches of host operations (a zero constant; the table zero-padded to 384
  rows; the three middle table rows, the transposed weights and the bias as a row), then the embedding-sum region, then
  the main region.  The buffer contents at each boundary are a fold from the launch memory: a host stretch applies
  its operations; a region leaves its output array at what its write-backs assemble and every other buffer as it
  found it.  Each region is entered from "every unscoped buffer at the boundary's contents" and left at the next
  boundary's; so every weakly fair execution terminates with every unscoped buffer at the last boundary's contents —
  in particular the four arguments as launched (no stretch and no region writes one) and the result array at what the
  main region's write-backs assemble.
-/
import proofs.«136840_j25666724560954_1_alg».proof.Proof.BitsRegion0
import proofs.«136840_j25666724560954_1_alg».proof.Proof.BitsRegion1
import proofs.«136840_j25666724560954_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at the regions' boundaries -/

/-- The embedding-sum region's entry contents (after the three host stretches), at the TensorCore's references. -/
abbrev Vin0 : (c : Dev nD) → (b : Ref sig .tc) → Buf (Elt F) ((c : Thread nD τ).loc b) := fun c b => V3 m c b

/-- At its exit: its arrays at what the pipeline leaves, every other buffer as entered. -/
def W4 (c : Dev nD) : Valuation τ sig (Elt F) :=
  Pipeline.withArrays spec0 c (V3 m c) fun w => (dat0 (Vin0 m) c).arrAt w cfg0.N
theorem W4_arr (c : Dev nD) (w : Fin cfg0.W) :
    W4 m c (Proc.devRef .tc (Pipeline.arrRef spec0 w)) = (dat0 (Vin0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = V3 m c (Proc.devRef .tc b) := by
  unfold W4; exact Pipeline.withArrays_of_ne spec0 c _ _ b hb
/-- The main region's entry contents. -/
abbrev Vin1 : (c : Dev nD) → (b : Ref sig .tc) → Buf (Elt F) ((c : Thread nD τ).loc b) := fun c b => W4 m c b
theorem hF0 (c : Dev nD) (w : Fin cfg0.W) : (dat0 (Vin0 m) c).arrAt w cfg0.N = Vin1 m c (Pipeline.arrRef spec0 w) :=
  (W4_arr m c w).symm
theorem hrest0 (c : Dev nD) : ∀ b, b ∉ Finset.univ.image (Pipeline.arrRef spec0) → Vin1 m c b = Vin0 m c b :=
  fun b hb => W4_of_ne m c b fun w e => hb (Finset.mem_image.mpr ⟨w, Finset.mem_univ _, e⟩)

/-- At the main region's exit. -/
def W5 (c : Dev nD) : Valuation τ sig (Elt F) :=
  Pipeline.withArrays spec1 c (W4 m c) fun w => (dat1 (Vin1 m) c).arrAt w cfg1.N
theorem W5_arr (c : Dev nD) (w : Fin cfg1.W) :
    W5 m c (Proc.devRef .tc (Pipeline.arrRef spec1 w)) = (dat1 (Vin1 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev Vout : (c : Dev nD) → (b : Ref sig .tc) → Buf (Elt F) ((c : Thread nD τ).loc b) := fun c b => W5 m c b
theorem hF1 (c : Dev nD) (w : Fin cfg1.W) : (dat1 (Vin1 m) c).arrAt w cfg1.N = Vout m c (Pipeline.arrRef spec1 w) :=
  (W5_arr m c w).symm
theorem hrest1 (c : Dev nD) : ∀ b, b ∉ Finset.univ.image (Pipeline.arrRef spec1) → Vout m c b = Vin1 m c b :=
  fun b hb => W5_of_ne m c b fun w e => hb (Finset.mem_image.mpr ⟨w, Finset.mem_univ _, e⟩)

/-! ## The arguments end as launched, and the result is what the main region assembles -/

theorem V3_arg (c : Dev nD) (r : Ref sig .tc) (h1 : r ∉ hostOps0_W) (h2 : r ∉ hostOps0_1_W) (h3 : r ∉ hostOps0_2_W) :
    V3 m c r = m ((c : Thread nD τ).loc r) :=
  (V3_of m c r h3).trans <| (V2_of m c r h2).trans <| (V1_of m c r h1).trans rfl

theorem W5_main_arg0 (c : Dev nD) : W5 m c (Proc.devRef .tc main_arg0) = m ((c : Thread nD τ).loc main_arg0) :=
  calc W5 m c (Proc.devRef .tc main_arg0)
    _ = W4 m c (Proc.devRef .tc main_arg0) := (W5_arr m c 0).trans (((dat1 (Vin1 m) c).arrAt_in 0 rfl _).trans (A_eq1 (Vin1 m) c 0))
    _ = V3 m c (Proc.devRef .tc main_arg0) := W4_of_ne m c main_arg0 (by decide)
    _ = m ((c : Thread nD τ).loc main_arg0) := V3_arg m c main_arg0 (by decide) (by decide) (by decide)
theorem W5_main_arg1 (c : Dev nD) : W5 m c (Proc.devRef .tc main_arg1) = m ((c : Thread nD τ).loc main_arg1) :=
  (W5_of_ne m c main_arg1 (by decide)).trans <| (W4_of_ne m c main_arg1 (by decide)).trans <| V3_arg m c main_arg1 (by decide) (by decide) (by decide)
theorem W5_main_arg2 (c : Dev nD) : W5 m c (Proc.devRef .tc main_arg2) = m ((c : Thread nD τ).loc main_arg2) :=
  (W5_of_ne m c main_arg2 (by decide)).trans <| (W4_of_ne m c main_arg2 (by decide)).trans <| V3_arg m c main_arg2 (by decide) (by decide) (by decide)
theorem W5_main_arg3 (c : Dev nD) : W5 m c (Proc.devRef .tc main_arg3) = m ((c : Thread nD τ).loc main_arg3) :=
  (W5_of_ne m c main_arg3 (by decide)).trans <| (W4_of_ne m c main_arg3 (by decide)).trans <| V3_arg m c main_arg3 (by decide) (by decide) (by decide)
theorem W5_main_v5 (c : Dev nD) : W5 m c (Proc.devRef .tc main_v5) = (dat1 (Vin1 m) c).arrAt 5 cfg1.N :=
  W5_arr m c 5

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c
abbrev 𝒱₀ : Variants := Variants.none
abbrev L : GSem nD τ sig → Finset Unit := fun _ => ∅
abbrev lv : GSem nD τ sig → Unit → ℕ := fun _ _ => 0
/-- Beside the buffers: the core's generator register at some state and its dues, at nothing. -/
abbrev R (c : Dev nD) : sProp 𝕄 := iprop((∃ r, prngReg c r) ∗ ∃ W, owes (c : Thread nD τ) (0 : CellTallies nD τ sig Unit) W)
abbrev ER : Fin 3 → Dev nD → sProp 𝕄 := fun _ c => R (F := F) c

/-! ## The regions as segments -/

set_option backward.isDefEq.respectTransparency.types false in
/-- The embedding-sum region: entered from every unscoped buffer at the contents after the host stretches, left at
    `W4`. Its arrays are split out of the unscoped buffers and put back at the exit contents; the generator register and
    the scoped rest go into the region's invariant (the scratch at anything) and come back out of it (the scratch's
    contents forgotten). -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vin1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main region: entered from every unscoped buffer at `W4`, left at `W5`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last region's exit state is the final thread state beside the core owing nothing. -/
theorem last_link (c : Dev nD) :
    (iprop(StableHlo.held (c : Thread nD τ) (Pipeline.ucRefs τ sig) (W5 m c) ∗ R c) : sProp 𝕄)
      ⊢ iprop(iprop(StableHlo.held (c : Thread nD τ) (Pipeline.ucRefs τ sig) (W5 m c) ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- From any memory with zero counters every weakly fair execution of @main terminates, nothing faulting, and every
    final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) := by
  refine Pipeline.θ_run_regions_kit_dev (pcfgs (F := F)) adm (pdats m) () cellOf_inj emb₁ defs₀ 𝒱₀ L lv m ρ main
    (segs m 𝒱₀ L lv (ER (F := F)) () (pdats m) (reg0 m) (reg1 m))
    (fun c Q => by
      rewrite [main_chain c, Seg.run_eq_chain,
        show (segs m 𝒱₀ L lv (ER (F := F)) () (pdats m) (reg0 m) (reg1 m) c).map Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W5 m c) ∗ ∃ r, prngReg c r))
    (hch := fun c => ⟨.rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_main m ρ)

/-- The run with the result named: the result array ends at what the main region's write-backs assemble, and the
    arguments as launched. -/
theorem run_result : θ_run defs (onTc (τ := τ) (main (F := F))) ⟨m, fun _ => 0, ρ⟩ (fun r => ∀ c : Dev nD,
      r.2.mem ((c.tc : Thread nD τ).loc main_v5) = (dat1 (Vin1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (W5_main_v5 m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_main m ρ)

end Cert.Kernel.Hand

end
-- ==== Proof.IdealRegion0.lean ====
/-
  The first kernel region (the embedding-sum kernel), at a parameter `V` — the buffer contents when the region is
  entered.  Its grid has four points, one per channel tile.  At the FIRST point the body fills a scratch buffer with
  the [2048, 384] matrix of counts (a function of nothing but the indices); at every point it then loads the tile of
  the zero-padded table and the scratch, and stores their matrix product as the tile of the result.  So the scratch
  is carried between points: before the first point it holds anything, and after every point it holds the counts the
  first point stored — the region's invariant says so —, and the output's staging buffer holds after the body the
  product of the point's table tile with the scratch's contents.
-/
import proofs.«136840_j25666724560954_1_alg».proof.Proof.Gen.KernelIdeal.Launch
import proofs.«136840_j25666724560954_1_alg».proof.Proof.Gen.KernelIdeal.Skeleton
import proofs.«136840_j25666724560954_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The branch on the first point -/

/-- The condition of the body's one branch, from the grid coordinate: "this is tile 0". -/
abbrev cond0 (i : grid0.Coords) : Prop := (Scalar.cmpi .ne (Scalar.extui (Scalar.cmpi .eq (BitVec.ofNat 32 (i 0).val) 0#32)) 0#32) = 1#1
/-- It holds at the first point only — decided over the four points. -/
theorem hcond0 : ∀ t : Fin cfg0.N, cond0 (grid0.coords t) ↔ t.val = 0 :=
  (by decide +kernel : ∀ t : Fin grid0.N, cond0 (grid0.coords t) ↔ t.val = 0)

/-- Each window's current staging memref at point `t`, and the scratch operand. -/
abbrev ms0_0 (t : Fin cfg0.N) : Memref sig .tc .vmem S384x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev scM0 : Memref sig .tc .vmem S2048x384 .bf16 := Memref.whole cc0_scratch0
/-- Views through which the contents of the output's staging buffer and of the scratch are stated. -/
abbrev VO0 : View sig .tc .vmem S2048x256 .f32 := (Memref.whole cc0_stg1_0 : Memref sig .tc .vmem S2048x256 .f32).view
abbrev VS0 : View sig .tc .vmem S2048x384 .bf16 := scM0.view

/-- A scoped buffer of the core at some contents. -/
abbrev someBuf (c : Dev nD) (b : Ref sig .tc) : sProp 𝕄 :=
  iprop(∃ f : Buf (Elt F) ((c : Thread nD τ).loc b), ((c : Thread nD τ).loc b) ↦{fullShare} f)
/-- The scoped buffers this region never touches: the other region's staging buffers. -/
abbrev others0 (c : Dev nD) : sProp 𝕄 :=
  iprop(someBuf (F := F) c cc1_stg0_0 ∗ someBuf (F := F) c cc1_stg0_1 ∗ someBuf (F := F) c cc1_stg1_0 ∗ someBuf (F := F) c cc1_stg2_0 ∗ someBuf (F := F) c cc1_stg3_0
    ∗ someBuf (F := F) c cc1_stg4_0 ∗ someBuf (F := F) c cc1_stg5_0 ∗ someBuf (F := F) c cc1_stg5_1)

/-- What the launch hands a region of the class: the scratch at anything, the untouched scoped buffers, the
    generator register at some state. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA; rw [scopedRest0_eq]; simp only [scM0, owns_whole]; try rfl

/-- The rectangles the body reads and writes: every buffer whole. -/
abbrev rT0 : Rect S384x256 := Rect.unit (s := S384x256) ![0, 0] S384x256.size inb_S384x256_S384x256_0_0
abbrev rS0 : Rect S2048x384 := Rect.unit (s := S2048x384) ![0, 0] S2048x384.size inb_S2048x384_S2048x384_0_0
abbrev rO0 : Rect S2048x256 := Rect.unit (s := S2048x256) ![0, 0] S2048x256.size inb_S2048x256_S2048x256_0_0

/-! ## The body at a later point: the scratch is an input -/

/-- The output's staging buffer after the body at a point that is not the first: its one store, the product of the
    table tile with the scratch's contents. -/
def out0_B (x0 : Vec F S384x256 .f32) (xs : Vec F S2048x384 .bf16) : Vec F S2048x256 .f32 :=
  View.canon [⟨rO0, k0_pay2 (View.ld x0 rT0) (View.ld xs rS0)⟩]

theorem cover0_B (p0 : Vec F S2048x256 .f32) (y : S2048x256.Idx) :
    ∃ pc ∈ ([⟨rO0, p0⟩] : List (View.Piece (Elt F) S2048x256 .f32)), y ∈ pc.1.set :=
  View.cover_of_tiled [⟨rO0, p0⟩] S2048x256.size (by rfl) y

set_option maxHeartbeats 4000000 in
/-- Where the branch is not taken the body reads the table tile and the scratch and stores their product. -/
theorem sound_kernel0_B (c : Dev nD) (E : Set ℕ) (i : grid0.Coords) (hc0 : ¬cond0 i)
    (arg1 : Memref sig .tc .vmem S384x256 .f32) (harg1 : arg1.IsWhole) (arg2 : Memref sig .tc .vmem S2048x256 .f32) (harg2 : arg2.IsWhole)
    (arg3 : Memref sig .tc .vmem S2048x384 .bf16) (harg3 : arg3.IsWhole)
    (x0 : Vec F S384x256 .f32) (xs : Vec F S2048x384 .bf16) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (out0_B x0 xs) ∗ owns (c : Thread nD τ) arg3 fullShare xs) -∗ K ⟨⟩))
      ⊢ wp frame (wpE (defs₀ (F := F)) Variants.none c none) E (cc0__emb_sum_kernel i arg1 harg1 arg2 harg2 arg3 harg3) K := by
  simp only [cc0__emb_sum_kernel_eq_skeleton]; unfold cc0__emb_sum_kernel_skel
  unfold owns
  iintro ⟨⟨%f0, %hf0, H0⟩, ⟨%d1, %f1, -, H1⟩, ⟨%fs, %hfs, HS⟩, Hk⟩
  subst hf0 hfs
  sl_exec (disch := first | exact hc0)
  sl_step
  iapply Hk
  isplitl [H0]
  · iexists f0; isplitr; · ipureintro; rfl
    iexact H0
  isplitl [H1]
  · iexists _; isplitr
    swap; · iexact H1
    ipureintro
    try dsimp only
    exact View.read_writes_eq_canon _ _ _ (cover0_B _)
  iexists fs; isplitr; · ipureintro; rfl
  iexact HS

/-! ## The body at the first point: the scratch is filled, then read -/

set_option maxHeartbeats 4000000 in
/-- Where the branch is taken: what the body's stores leave in the output's staging memref and in the scratch, as
    pieces the run finds, with the proof that from the table tile at its contents and the other two buffers at
    anything the body runs to the continuation holding the tile as it was and the two buffers with those pieces
    written. -/
noncomputable def kernelRun0_A (c : Dev nD) (i : grid0.Coords) (hc0 : cond0 i)
    (arg1 : Memref sig .tc .vmem S384x256 .f32) (harg1 : arg1.IsWhole) (arg2 : Memref sig .tc .vmem S2048x256 .f32) (harg2 : arg2.IsWhole)
    (arg3 : Memref sig .tc .vmem S2048x384 .bf16) (harg3 : arg3.IsWhole) (x0 : Vec F S384x256 .f32) :
    Σ' (L1 : List (View.Piece (Elt F) S2048x256 .f32)), { LS0 : List (View.Piece (Elt F) S2048x384 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f LS0)) -∗ K ⟨⟩))
          ⊢ wp frame (wpE (defs₀ (F := F)) Variants.none c none) E (cc0__emb_sum_kernel i arg1 harg1 arg2 harg2 arg3 harg3) K } := by
  refine ⟨?_, ?_, fun E K => ?run⟩
  case run =>
    simp only [cc0__emb_sum_kernel_eq_skeleton]; unfold cc0__emb_sum_kernel_skel
    simp only [k0_part1_eq_skeleton]; unfold k0_part1_skel
    unfold owns
    iintro ⟨⟨%f0, %hf0, H0⟩, ⟨%d1, %f1, -, H1⟩, ⟨%ds, %fs, -, HS⟩, Hk⟩
    obtain rfl := harg1.eq_unread hf0
    sl_exec (disch := first | exact hc0)
    sl_step
    iapply Hk
    isplitl [H0]
    · iexists _; isplitr; · ipureintro; exact harg1.read_unread _
      iexact H0
    isplitl [H1]; · iexists _; iexact H1
    iexists _; iexact HS

/-- The first point's pieces for the output tile it. -/
theorem cover0_A (c : Dev nD) (i : grid0.Coords) (hc0 : cond0 i)
    (arg1 : Memref sig .tc .vmem S384x256 .f32) (harg1 : arg1.IsWhole) (arg2 : Memref sig .tc .vmem S2048x256 .f32) (harg2 : arg2.IsWhole)
    (arg3 : Memref sig .tc .vmem S2048x384 .bf16) (harg3 : arg3.IsWhole) (x0 : Vec F S384x256 .f32) (y : S2048x256.Idx) :
    ∃ pc ∈ (kernelRun0_A c i hc0 arg1 harg1 arg2 harg2 arg3 harg3 x0).1, y ∈ pc.1.set :=
  View.cover_of_tiledL (kernelRun0_A c i hc0 arg1 harg1 arg2 harg2 arg3 harg3 x0).1 S2048x256.size (by sl_kernel_rfl) y

/-- What the first point leaves in the output's staging buffer. -/
def out0_A (c : Dev nD) (i : grid0.Coords) (hc0 : cond0 i)
    (arg1 : Memref sig .tc .vmem S384x256 .f32) (harg1 : arg1.IsWhole) (arg2 : Memref sig .tc .vmem S2048x256 .f32) (harg2 : arg2.IsWhole)
    (arg3 : Memref sig .tc .vmem S2048x384 .bf16) (harg3 : arg3.IsWhole) (x0 : Vec F S384x256 .f32) : Vec F S2048x256 .f32 :=
  VO0.read (Elt F) (VO0.writes (Elt F) VO0.junk (kernelRun0_A c i hc0 arg1 harg1 arg2 harg2 arg3 harg3 x0).1)

/-- The first point's pieces for the scratch tile it. -/
theorem scover0_A (c : Dev nD) (i : grid0.Coords) (hc0 : cond0 i)
    (arg1 : Memref sig .tc .vmem S384x256 .f32) (harg1 : arg1.IsWhole) (arg2 : Memref sig .tc .vmem S2048x256 .f32) (harg2 : arg2.IsWhole)
    (arg3 : Memref sig .tc .vmem S2048x384 .bf16) (harg3 : arg3.IsWhole) (x0 : Vec F S384x256 .f32) (y : S2048x384.Idx) :
    ∃ pc ∈ (kernelRun0_A c i hc0 arg1 harg1 arg2 harg2 arg3 harg3 x0).2.1, y ∈ pc.1.set :=
  View.cover_of_tiledL (kernelRun0_A c i hc0 arg1 harg1 arg2 harg2 arg3 harg3 x0).2.1 S2048x384.size (by sl_kernel_rfl) y

/-- What the first point leaves in the scratch. -/
def sout0_A (c : Dev nD) (i : grid0.Coords) (hc0 : cond0 i)
    (arg1 : Memref sig .tc .vmem S384x256 .f32) (harg1 : arg1.IsWhole) (arg2 : Memref sig .tc .vmem S2048x256 .f32) (harg2 : arg2.IsWhole)
    (arg3 : Memref sig .tc .vmem S2048x384 .bf16) (harg3 : arg3.IsWhole) (x0 : Vec F S384x256 .f32) : Vec F S2048x384 .bf16 :=
  VS0.read (Elt F) (VS0.writes (Elt F) VS0.junk (kernelRun0_A c i hc0 arg1 harg1 arg2 harg2 arg3 harg3 x0).2.1)

/-! ## What the buffers hold point by point -/

/-- The first point. -/
abbrev p0 : Fin cfg0.N := t0_0

theorem p0_val : (p0 : Fin cfg0.N).val = 0 := rfl

/-- The scratch after every point: what the first point stored. -/
def scr (c : Dev nD) : Vec F S2048x384 .bf16 :=
  sout0_A c (grid0.coords p0) ((hcond0 p0).mpr p0_val) (ms0_0 p0) (hs0_0 p0) (ms0_1 p0) (hs0_1 p0) scM0 (Memref.isWhole_whole _) (iblk0 V c 0 p0)

/-- The output's staging buffer after the body at point `t`. -/
def outAt0 (c : Dev nD) (t : Fin cfg0.N) : Vec F S2048x256 .f32 :=
  if t.val = 0 then
    out0_A c (grid0.coords p0) ((hcond0 p0).mpr p0_val) (ms0_0 p0) (hs0_0 p0) (ms0_1 p0) (hs0_1 p0) scM0 (Memref.isWhole_whole _) (iblk0 V c 0 p0)
  else out0_B (iblk0 V c 0 t) (scr V c)

/-- The region's invariant before position `n`: before the first point what the launch hands over (the scratch at
    anything); afterwards the scratch at the counts, the untouched scoped buffers, the generator register. -/
def PhiS (c : Dev nD) : (n : ℕ) → sProp 𝕄
  | 0 => Pipeline.ΦA spec0 c
  | _ + 1 => iprop(iprop(owns (c : Thread nD τ) scM0 fullShare (scr V c) ∗ others0 (F := F) c) ∗ (∃ r, prngReg c r))

theorem PhiS_pos (c : Dev nD) (n : ℕ) (hz : n ≠ 0) :
    PhiS V c n = iprop(iprop(owns (c : Thread nD τ) scM0 fullShare (scr V c) ∗ others0 (F := F) c) ∗ (∃ r, prngReg c r)) := by
  cases n with
  | zero => exact absurd rfl hz
  | succ n => rfl

/-- The proof data of this pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outAt0 V c t
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 4000000 in
/-- The body at any point: at the first the invariant hands the scratch at anything and takes it back at the counts;
    at a later one it hands the scratch at the counts and takes it back unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl,
    show (dat0 V c).Φ t.succ = PhiS V c (t.val + 1) from rfl,
    show (dat0 V c).Φ t.castSucc = PhiS V c t.val from rfl,
    PhiS_pos V c (t.val + 1) (Nat.succ_ne_zero _), after0_0, after0_1]
  by_cases hz : t.val = 0
  · obtain rfl : t = p0 := Fin.ext hz
    rw [show PhiS V c (p0 : Fin cfg0.N).val = Pipeline.ΦA spec0 c from rfl, PhiA0_eq]
    unfold outAt0 scr; rw [if_pos p0_val]; unfold out0_A sout0_A
    iintro ⟨⟨⟨HS, HR⟩, Hg⟩, Ho, ⟨%d0, H0⟩, ⟨%d1, H1⟩⟩
    iapply ((kernelRun0_A c (grid0.coords p0) ((hcond0 p0).mpr p0_val) _ _ _ _ _ _ (iblk0 V c 0 p0)).2.2 Set.univ _)
    isplitl [H0]; · iexact H0
    isplitl [H1]; · iexists _; iexact H1
    isplitl [HS]; · iexact HS
    iintro ⟨H0, ⟨%e1, H1⟩, ⟨%es, HS⟩⟩
    isplitl [HS HR Hg]
    · isplitl [HS HR]
      · isplitl [HS]
        · unfold owns; iexists _; isplitr
          swap; · iexact HS
          ipureintro; exact View.read_writes_of_cover _ _ _ _ _ (scover0_A c _ _ _ _ _ _ _ _ _)
        iexact HR
      iexact Hg
    isplitl [Ho]; · iexact Ho
    isplitl [H0]; · iexact H0
    unfold owns; iexists _; isplitr
    swap; · iexact H1
    ipureintro; exact View.read_writes_of_cover _ _ _ _ _ (cover0_A c _ _ _ _ _ _ _ _ _)
  · rw [PhiS_pos V c t.val hz]
    unfold outAt0; rw [if_neg hz]
    iintro ⟨⟨⟨HS, HR⟩, Hg⟩, Ho, ⟨%d0, H0⟩, ⟨%d1, H1⟩⟩
    iapply (sound_kernel0_B c Set.univ (grid0.coords t) (fun h => hz ((hcond0 t).mp h)) _ _ _ _ _ _ (iblk0 V c 0 t) (scr V c) _)
    isplitl [H0]; · iexact H0
    isplitl [H1]; · iexists _; iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]

/-- After the last point the invariant gives back what a region of the class returns: the scratch's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 4 := N_0; omega), PhiA0_eq]
  iintro ⟨⟨HS, HR⟩, Hg⟩
  isplitl [HS HR]
  · isplitl [HS]; · iexists _; iexact HS
    iexact HR
  iexact Hg

end Cert.KernelIdeal.Hand

end
-- ==== Proof.IdealRegion1.lean ====
/-
  The second kernel region (the main kernel: the width-3 depthwise convolution's diagonal, the 2047·x term, the
  embedding sum and the division by 2048), at a parameter `V` — the buffer contents when the region is entered.
  Per grid point (channel tile, batch) the body loads its five input blocks whole (the x block; the embedding-sum
  block; rows 0, 1, 2 of the three middle table rows; rows 0, 1, 2 of the transposed weights; the bias row), and
  stores one whole block of the result.  So each input's staging buffer holds its block at every point, fetched
  there or not, and the output's buffer holds, after the body, the one stored value: the body's arithmetic of the
  input blocks.
-/
import proofs.«136840_j25666724560954_1_alg».proof.Proof.Gen.KernelIdeal.Launch
import proofs.«136840_j25666724560954_1_alg».proof.Proof.Gen.KernelIdeal.Skeleton
import proofs.«136840_j25666724560954_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it was fetched there
    (unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: every block whole, and the three rows of a three-row block. -/
abbrev rX1 : Rect S1x2048x256 := Rect.unit (s := S1x2048x256) ![0, 0, 0] S1x2048x256.size inb_S1x2048x256_S1x2048x256_0_0_0
abbrev rE1 : Rect S2048x256 := Rect.unit (s := S2048x256) ![0, 0] S2048x256.size inb_S2048x256_S2048x256_0_0
abbrev rRow0 : Rect S3x256 := Rect.unit (s := S3x256) ![0, 0] S1x256.size inb_S3x256_S1x256_0_0
abbrev rRow1 : Rect S3x256 := Rect.unit (s := S3x256) ![1, 0] S1x256.size inb_S3x256_S1x256_1_0
abbrev rRow2 : Rect S3x256 := Rect.unit (s := S3x256) ![2, 0] S1x256.size inb_S3x256_S1x256_2_0
abbrev rB1 : Rect S1x256 := Rect.unit (s := S1x256) ![0, 0] S1x256.size inb_S1x256_S1x256_0_0

/-- The one stored value, from the five input blocks. -/
def pay1 (x0 : Vec F S1x2048x256 .f32) (x1 : Vec F S2048x256 .f32) (x2 x3 : Vec F S3x256 .f32) (x4 : Vec F S1x256 .f32) : FVec F S1x2048x256 .f32 :=
  k1_pay1 (k1_pay2 (View.ld x0 rX1)) (k1_pay3 (View.ld x2 rRow1)) (k1_pay4 (View.ld x3 rRow1)) (k1_pay5 (View.ld x3 rRow2)) (k1_pay6 (View.ld x4 rB1))
    (k1_pay7 (View.ld x0 rX1) (View.ld x2 rRow1)) (k1_pay8 (View.ld x0 rX1) (View.ld x2 rRow2)) (k1_pay9 (View.ld x0 rX1) (View.ld x2 rRow0) (View.ld x3 rRow0)) (View.ld x1 rE1)

/-- The output's staging buffer after the body: its one store over the whole block. -/
def out1_5 (x0 : Vec F S1x2048x256 .f32) (x1 : Vec F S2048x256 .f32) (x2 x3 : Vec F S3x256 .f32) (x4 : Vec F S1x256 .f32) : Vec F S1x2048x256 .f32 :=
  View.canon [⟨rX1, pay1 x0 x1 x2 x3 x4⟩]

/-- The one store covers the block. -/
theorem cover1_5 (p0 : Vec F S1x2048x256 .f32) (y : S1x2048x256.Idx) :
    ∃ pc ∈ ([⟨rX1, p0⟩] : List (View.Piece (Elt F) S1x2048x256 .f32)), y ∈ pc.1.set :=
  View.cover_of_tiled [⟨rX1, p0⟩] S1x2048x256.size (by rfl) y

set_option maxHeartbeats 4000000 in
/-- The body on whole staging memrefs, the inputs' at given contents and the output's at anything, runs to the
    continuation holding the inputs' as they were and the output's at `out1_5` of the inputs'. -/
theorem sound_kernel1 (c : Dev nD) (E : Set ℕ) (i : grid1.Coords)
    (arg2 : Memref sig .tc .vmem S1x2048x256 .f32) (harg2 : arg2.IsWhole) (arg3 : Memref sig .tc .vmem S2048x256 .f32) (harg3 : arg3.IsWhole)
    (arg4 : Memref sig .tc .vmem S3x256 .f32) (harg4 : arg4.IsWhole) (arg5 : Memref sig .tc .vmem S3x256 .f32) (harg5 : arg5.IsWhole)
    (arg6 : Memref sig .tc .vmem S1x256 .f32) (harg6 : arg6.IsWhole) (arg7 : Memref sig .tc .vmem S1x2048x256 .f32) (harg7 : arg7.IsWhole)
    (x0 : Vec F S1x2048x256 .f32) (x1 : Vec F S2048x256 .f32) (x2 x3 : Vec F S3x256 .f32) (x4 : Vec F S1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__main_kernel i arg2 harg2 arg3 harg3 arg4 harg4 arg5 harg5 arg6 harg6 arg7 harg7) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

/-- The proof data of this pipeline on core `c`: the arrays as the region finds them; after the body at point `t`
    each input's buffer at its block and the output's at `out1_5` of the input blocks; nothing carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The run of the whole program: three stretches of host operations (a zero constant; the table zero-padded to 384
  rows; the three middle table rows, the transposed weights and the bias as a row), then the embedding-sum region, then
  the main region.  The buffer contents at each boundary are a fold from the launch memory: a host stretch applies
  its operations; a region leaves its output array at what its write-backs assemble and every other buffer as it
  found it.  Each region is entered from "every unscoped buffer at the boundary's contents" and left at the next
  boundary's; so every weakly fair execution terminates with every unscoped buffer at the last boundary's contents —
  in particular the four arguments as launched (no stretch and no region writes one) and the result array at what the
  main region's write-backs assemble.
-/
import proofs.«136840_j25666724560954_1_alg».proof.Proof.IdealRegion0
import proofs.«136840_j25666724560954_1_alg».proof.Proof.IdealRegion1
import proofs.«136840_j25666724560954_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at the regions' boundaries -/

/-- The embedding-sum region's entry contents (after the three host stretches), at the TensorCore's references. -/
abbrev Vin0 : (c : Dev nD) → (b : Ref sig .tc) → Buf (Elt F) ((c : Thread nD τ).loc b) := fun c b => V3 m c b

/-- At its exit: its arrays at what the pipeline leaves, every other buffer as entered. -/
def W4 (c : Dev nD) : Valuation τ sig (Elt F) :=
  Pipeline.withArrays spec0 c (V3 m c) fun w => (dat0 (Vin0 m) c).arrAt w cfg0.N
theorem W4_arr (c : Dev nD) (w : Fin cfg0.W) :
    W4 m c (Proc.devRef .tc (Pipeline.arrRef spec0 w)) = (dat0 (Vin0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = V3 m c (Proc.devRef .tc b) := by
  unfold W4; exact Pipeline.withArrays_of_ne spec0 c _ _ b hb
/-- The main region's entry contents. -/
abbrev Vin1 : (c : Dev nD) → (b : Ref sig .tc) → Buf (Elt F) ((c : Thread nD τ).loc b) := fun c b => W4 m c b
theorem hF0 (c : Dev nD) (w : Fin cfg0.W) : (dat0 (Vin0 m) c).arrAt w cfg0.N = Vin1 m c (Pipeline.arrRef spec0 w) :=
  (W4_arr m c w).symm
theorem hrest0 (c : Dev nD) : ∀ b, b ∉ Finset.univ.image (Pipeline.arrRef spec0) → Vin1 m c b = Vin0 m c b :=
  fun b hb => W4_of_ne m c b fun w e => hb (Finset.mem_image.mpr ⟨w, Finset.mem_univ _, e⟩)

/-- At the main region's exit. -/
def W5 (c : Dev nD) : Valuation τ sig (Elt F) :=
  Pipeline.withArrays spec1 c (W4 m c) fun w => (dat1 (Vin1 m) c).arrAt w cfg1.N
theorem W5_arr (c : Dev nD) (w : Fin cfg1.W) :
    W5 m c (Proc.devRef .tc (Pipeline.arrRef spec1 w)) = (dat1 (Vin1 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev Vout : (c : Dev nD) → (b : Ref sig .tc) → Buf (Elt F) ((c : Thread nD τ).loc b) := fun c b => W5 m c b
theorem hF1 (c : Dev nD) (w : Fin cfg1.W) : (dat1 (Vin1 m) c).arrAt w cfg1.N = Vout m c (Pipeline.arrRef spec1 w) :=
  (W5_arr m c w).symm
theorem hrest1 (c : Dev nD) : ∀ b, b ∉ Finset.univ.image (Pipeline.arrRef spec1) → Vout m c b = Vin1 m c b :=
  fun b hb => W5_of_ne m c b fun w e => hb (Finset.mem_image.mpr ⟨w, Finset.mem_univ _, e⟩)

/-! ## The arguments end as launched, and the result is what the main region assembles -/

theorem V3_arg (c : Dev nD) (r : Ref sig .tc) (h1 : r ∉ hostOps0_W) (h2 : r ∉ hostOps0_1_W) (h3 : r ∉ hostOps0_2_W) :
    V3 m c r = m ((c : Thread nD τ).loc r) :=
  (V3_of m c r h3).trans <| (V2_of m c r h2).trans <| (V1_of m c r h1).trans rfl

theorem W5_main_arg0 (c : Dev nD) : W5 m c (Proc.devRef .tc main_arg0) = m ((c : Thread nD τ).loc main_arg0) :=
  calc W5 m c (Proc.devRef .tc main_arg0)
    _ = W4 m c (Proc.devRef .tc main_arg0) := (W5_arr m c 0).trans (((dat1 (Vin1 m) c).arrAt_in 0 rfl _).trans (A_eq1 (Vin1 m) c 0))
    _ = V3 m c (Proc.devRef .tc main_arg0) := W4_of_ne m c main_arg0 (by decide)
    _ = m ((c : Thread nD τ).loc main_arg0) := V3_arg m c main_arg0 (by decide) (by decide) (by decide)
theorem W5_main_arg1 (c : Dev nD) : W5 m c (Proc.devRef .tc main_arg1) = m ((c : Thread nD τ).loc main_arg1) :=
  (W5_of_ne m c main_arg1 (by decide)).trans <| (W4_of_ne m c main_arg1 (by decide)).trans <| V3_arg m c main_arg1 (by decide) (by decide) (by decide)
theorem W5_main_arg2 (c : Dev nD) : W5 m c (Proc.devRef .tc main_arg2) = m ((c : Thread nD τ).loc main_arg2) :=
  (W5_of_ne m c main_arg2 (by decide)).trans <| (W4_of_ne m c main_arg2 (by decide)).trans <| V3_arg m c main_arg2 (by decide) (by decide) (by decide)
theorem W5_main_arg3 (c : Dev nD) : W5 m c (Proc.devRef .tc main_arg3) = m ((c : Thread nD τ).loc main_arg3) :=
  (W5_of_ne m c main_arg3 (by decide)).trans <| (W4_of_ne m c main_arg3 (by decide)).trans <| V3_arg m c main_arg3 (by decide) (by decide) (by decide)
theorem W5_main_v5 (c : Dev nD) : W5 m c (Proc.devRef .tc main_v5) = (dat1 (Vin1 m) c).arrAt 5 cfg1.N :=
  W5_arr m c 5

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c
abbrev 𝒱₀ : Variants := Variants.none
abbrev L : GSem nD τ sig → Finset Unit := fun _ => ∅
abbrev lv : GSem nD τ sig → Unit → ℕ := fun _ _ => 0
/-- Beside the buffers: the core's generator register at some state and its dues, at nothing. -/
abbrev R (c : Dev nD) : sProp 𝕄 := iprop((∃ r, prngReg c r) ∗ ∃ W, owes (c : Thread nD τ) (0 : CellTallies nD τ sig Unit) W)
abbrev ER : Fin 3 → Dev nD → sProp 𝕄 := fun _ c => R (F := F) c

/-! ## The regions as segments -/

set_option backward.isDefEq.respectTransparency.types false in
/-- The embedding-sum region: entered from every unscoped buffer at the contents after the host stretches, left at
    `W4`. Its arrays are split out of the unscoped buffers and put back at the exit contents; the generator register and
    the scoped rest go into the region's invariant (the scratch at anything) and come back out of it (the scratch's
    contents forgotten). -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vin1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main region: entered from every unscoped buffer at `W4`, left at `W5`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last region's exit state is the final thread state beside the core owing nothing. -/
theorem last_link (c : Dev nD) :
    (iprop(StableHlo.held (c : Thread nD τ) (Pipeline.ucRefs τ sig) (W5 m c) ∗ R c) : sProp 𝕄)
      ⊢ iprop(iprop(StableHlo.held (c : Thread nD τ) (Pipeline.ucRefs τ sig) (W5 m c) ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- From any memory with zero counters every weakly fair execution of @main terminates, nothing faulting, and every
    final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) := by
  refine Pipeline.θ_run_regions_kit_dev (pcfgs (F := F)) adm (pdats m) () cellOf_inj emb₁ defs₀ 𝒱₀ L lv m ρ main
    (segs m 𝒱₀ L lv (ER (F := F)) () (pdats m) (reg0 m) (reg1 m))
    (fun c Q => by
      rewrite [main_chain c, Seg.run_eq_chain,
        show (segs m 𝒱₀ L lv (ER (F := F)) () (pdats m) (reg0 m) (reg1 m) c).map Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W5 m c) ∗ ∃ r, prngReg c r))
    (hch := fun c => ⟨.rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_main m ρ)

/-- The run with the result named: the result array ends at what the main region's write-backs assemble, and the
    arguments as launched. -/
theorem run_result : θ_run defs (onTc (τ := τ) (main (F := F))) ⟨m, fun _ => 0, ρ⟩ (fun r => ∀ c : Dev nD,
      r.2.mem ((c.tc : Thread nD τ).loc main_v5) = (dat1 (Vin1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (W5_main_v5 m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_main m ρ)

end Cert.KernelIdeal.Hand

end
-- ==== Proof.Spec.lean ====
/-
  The function both programs compute, stated once over the argument arrays at the extended reals, with no program in
  sight.  For a batch b, a sequence position j < 2048 and a channel d < 1024 the result is

    ( bias d + w(d,0)·L + w(d,1)·(x(b,j,d) + table(128,d)) + w(d,2)·R + 2047·x(b,j,d) + E(j,d) − table(128,d) ) / 2048

  summed left to right, where L is x(b,j−1,d) + table(127,d) for j ≥ 1 and 0 for j = 0, R is x(b,j+1,d) + table(129,d)
  for j ≤ 2046 and 0 for j = 2047 (the depthwise width-3 convolution's two neighbours, zero-padded), and
  E(j,d) = Σ_r N(j,r)·table(r,d) with N(j,r) the number of positions i < 2048 whose clamped offset
  clamp(j − i, −128, 128) + 128 is r — in closed form: 2048 − (j + 128) cut at 0 for r = 0, min(2048, j − 127) cut at 0
  for r = 256, and 1 or 0 for the single candidate i = j − (r − 128) otherwise.
-/
import Idealize.ShloMosaic.PureOps.Ideal
import Idealize.ShloMosaic.Lib.ValueIdx

noncomputable section

open scoped BigOperators

namespace Cert.Spec

open Idealize.ShloMosaic Idealize.ShloMosaic.ValueIdx

/-- The shapes of the four argument arrays and of the result. -/
abbrev SX : Shape := ⟨3, ![8, 2048, 1024]⟩
abbrev ST : Shape := ⟨2, ![257, 1024]⟩
abbrev SW : Shape := ⟨2, ![1024, 3]⟩
abbrev SB : Shape := ⟨1, ![1024]⟩

/-- How many positions `i < 2048` have `clamp(j − i, −128, 128) + 128 = r`, in closed form (for `r ≤ 256`). -/
def cntZ (j r : ℕ) : ℤ :=
  if r = 0 then max 0 (2048 - ((j : ℤ) + 128))
  else if r = 256 then max 0 (min 2048 ((j : ℤ) - 128 + 1))
  else if 0 ≤ (j : ℤ) - ((r : ℤ) - 128) ∧ (j : ℤ) - ((r : ℤ) - 128) ≤ 2047 then 1 else 0

/-- The position before `j` (only read where `1 ≤ j`). -/
def prevPos (j : Fin 2048) : Fin 2048 := ⟨j.val - 1, by omega⟩
/-- The position after `j` (only read where `j ≤ 2046`). -/
def nextPos (j : Fin 2048) : Fin 2048 := ⟨(j.val + 1) % 2048, Nat.mod_lt _ (by decide)⟩

/-- The sum over all positions of the relative-position rows of the table: `Σ_r N(j,r) · table(r,d)`. -/
def embSum (table : ST.Idx → EReal) (j : Fin 2048) (d : Fin 1024) : EReal :=
  ∑ r : Fin 257, ((cntZ j.val r.val : ℝ) : EReal) * table (ix2 r d)

/-- The left neighbour's term of the convolution, zero at the first position. -/
def leftTerm (x : SX.Idx → EReal) (table : ST.Idx → EReal) (b : Fin 8) (j : Fin 2048) (d : Fin 1024) : EReal :=
  if 1 ≤ j.val then x (ix3 b (prevPos j) d) + table (ix2 (127 : Fin 257) d) else 0
/-- The right neighbour's term of the convolution, zero at the last position. -/
def rightTerm (x : SX.Idx → EReal) (table : ST.Idx → EReal) (b : Fin 8) (j : Fin 2048) (d : Fin 1024) : EReal :=
  if j.val ≤ 2046 then x (ix3 b (nextPos j) d) + table (ix2 (129 : Fin 257) d) else 0

/-- The result at batch `b`, position `j`, channel `d`. The two float literals are 2047 and 2048, kept as their words. -/
def outAt (x : SX.Idx → EReal) (table : ST.Idx → EReal) (w : SW.Idx → EReal) (bias : SB.Idx → EReal)
    (b : Fin 8) (j : Fin 2048) (d : Fin 1024) : EReal :=
  Ideal.div
    ((((((bias (ix1 d) + w (ix2 d (0 : Fin 3)) * leftTerm x table b j d)
        + w (ix2 d (1 : Fin 3)) * (x (ix3 b j d) + table (ix2 (128 : Fin 257) d)))
        + w (ix2 d (2 : Fin 3)) * rightTerm x table b j d)
        + Ideal.ofBits .f32 0x44FFE000#32 * x (ix3 b j d))
        + embSum table j d)
        - table (ix2 (128 : Fin 257) d))
    (Ideal.ofBits .f32 0x45000000#32)

/-- The whole result array. -/
def G (x : SX.Idx → EReal) (table : ST.Idx → EReal) (w : SW.Idx → EReal) (bias : SB.Idx → EReal) : SX.Idx → EReal :=
  fun i => outAt x table w bias (i 0) (i 1) (i 2)

theorem G_ix3 (x : SX.Idx → EReal) (table : ST.Idx → EReal) (w : SW.Idx → EReal) (bias : SB.Idx → EReal)
    (b : Fin 8) (j : Fin 2048) (d : Fin 1024) : G x table w bias (ix3 b j d) = outAt x table w bias b j d := rfl

end Cert.Spec

end
-- ==== Proof.KernelWords.lean ====
/-
  Signed 32-bit words that stay in range, and the float word of 1.

  The kernels compute small integers (row and column numbers below 2048 and 384, shifted by at most 2048) with 32-bit
  words. Every such word stays far inside the signed 32-bit range, so a wrapped sum or difference is the integer sum or
  difference, the signed maximum, minimum and comparisons are the integers', and two small numbers have the same word
  exactly when they are equal. These are the facts that turn the kernels' word arithmetic into integer arithmetic.
-/
import Idealize.ShloMosaic.Lib.ValueIdx
import Idealize.ShloMosaic.PureOps.Ideal.Laws

noncomputable section

namespace Cert.KernelSide

open Idealize.ShloMosaic

/-! ## Signed 32-bit words that stay in range -/

/-- A natural number below 2³¹ read back signed from its 32-bit word is itself. -/
theorem toInt_ofNat_small (n : ℕ) (h : n < 2147483648) : (BitVec.ofNat 32 n).toInt = (n : ℤ) := by
  rw [BitVec.toInt_ofNat']; exact Int.bmod_eq_of_le (by omega) (by omega)

/-- A wrapped sum whose integer sum is in the signed range is that integer sum. -/
theorem toInt_add_small (x y : BitVec 32) (a b : ℤ) (hx : x.toInt = a) (hy : y.toInt = b)
    (h : -2147483648 ≤ a + b) (h' : a + b < 2147483648) : (IntOp.addi x y).toInt = a + b := by
  show (x + y).toInt = a + b
  rw [BitVec.toInt_add, hx, hy]; exact Int.bmod_eq_of_le (by omega) (by omega)

/-- A wrapped difference whose integer difference is in the signed range is that integer difference. -/
theorem toInt_sub_small (x y : BitVec 32) (a b : ℤ) (hx : x.toInt = a) (hy : y.toInt = b)
    (h : -2147483648 ≤ a - b) (h' : a - b < 2147483648) : (IntOp.subi x y).toInt = a - b := by
  show (x - y).toInt = a - b
  rw [BitVec.toInt_sub, hx, hy]; exact Int.bmod_eq_of_le (by omega) (by omega)

/-- The signed maximum of two words is the maximum of their integers. -/
theorem toInt_maxsi (x y : BitVec 32) : (IntOp.maxsi x y).toInt = max x.toInt y.toInt := by
  unfold IntOp.maxsi
  rw [BitVec.slt_eq_decide]
  by_cases h : y.toInt < x.toInt
  · rw [if_pos (decide_eq_true h)]; exact (max_eq_left (le_of_lt h)).symm
  · rw [if_neg (by simpa using h)]; exact (max_eq_right (not_lt.mp h)).symm

/-- The signed minimum of two words is the minimum of their integers. -/
theorem toInt_minsi (x y : BitVec 32) : (IntOp.minsi x y).toInt = min x.toInt y.toInt := by
  unfold IntOp.minsi
  rw [BitVec.slt_eq_decide]
  by_cases h : x.toInt < y.toInt
  · rw [if_pos (decide_eq_true h)]; exact (min_eq_left (le_of_lt h)).symm
  · rw [if_neg (by simpa using h)]; exact (min_eq_right (not_lt.mp h)).symm

/-- "Signed less than" as a bit. -/
theorem cmpi_slt_toInt (x y : BitVec 32) : IntOp.cmpi .slt x y = if x.toInt < y.toInt then 1#1 else 0#1 := by
  unfold IntOp.cmpi
  show BitVec.ofBool (x.slt y) = _
  rw [BitVec.slt_eq_decide]
  by_cases h : x.toInt < y.toInt
  · rw [if_pos h, decide_eq_true h]; rfl
  · rw [if_neg h, decide_eq_false h]; rfl

/-- "Signed at most" as a bit. -/
theorem cmpi_sle_toInt (x y : BitVec 32) : IntOp.cmpi .sle x y = if x.toInt ≤ y.toInt then 1#1 else 0#1 := by
  unfold IntOp.cmpi
  show BitVec.ofBool (x.sle y) = _
  rw [BitVec.sle_eq_decide]
  by_cases h : x.toInt ≤ y.toInt
  · rw [if_pos h, decide_eq_true h]; rfl
  · rw [if_neg h, decide_eq_false h]; rfl

/-- "Signed at least" as a bit. -/
theorem cmpi_sge_toInt (x y : BitVec 32) : IntOp.cmpi .sge x y = if y.toInt ≤ x.toInt then 1#1 else 0#1 := by
  unfold IntOp.cmpi
  show BitVec.ofBool (y.sle x) = _
  rw [BitVec.sle_eq_decide]
  by_cases h : y.toInt ≤ x.toInt
  · rw [if_pos h, decide_eq_true h]; rfl
  · rw [if_neg h, decide_eq_false h]; rfl

/-- Equality of two small numbers' words as a bit. -/
theorem cmpi_eq_ofNat (r c : ℕ) (hr : r < 4294967296) (hc : c < 4294967296) :
    IntOp.cmpi .eq (BitVec.ofNat 32 r) (BitVec.ofNat 32 c) = if r = c then 1#1 else 0#1 := by
  unfold IntOp.cmpi
  show BitVec.ofBool (BitVec.ofNat 32 r == BitVec.ofNat 32 c) = _
  by_cases h : r = c
  · subst h; rw [if_pos rfl, beq_self_eq_true]; rfl
  · have hne : BitVec.ofNat 32 r ≠ BitVec.ofNat 32 c := fun he => h (by
      have := congrArg BitVec.toNat he
      rw [BitVec.toNat_ofNat, BitVec.toNat_ofNat] at this
      omega)
    rw [if_neg h, beq_eq_false_iff_ne.mpr hne]; rfl

/-- The float word of 1.0 is the real 1. -/
theorem ofBits_one_f32 : Ideal.ofBits .f32 0x3F800000#32 = 1 := by
  simp [Ideal.ofBits, Ideal.ieee]
  rw [← EReal.coe_mul, ← EReal.coe_one]
  congr 1
  norm_num

end Cert.KernelSide

end
-- ==== Proof.KernelMain.lean ====
/-
  The main kernel's result, read at one entry.

  For one batch and one block of 256 channels the main kernel holds the [2048, 256] block x of the input, three table
  rows t0, t1, t2 (rows 127, 128, 129), three weight rows w0, w1, w2, the bias row and the block E of embedding sums.
  It rotates x down by one position and up by one position along the sequence axis (a rotation by 2047 is the rotation
  up by one), masks the wrapped-around first and last positions with a 0/1 factor, and combines:

    ( bias + w0·L + w1·(x + t1) + w2·R + c·x + E − t1 ) / c',

  L = mask(j ≥ 1)·(x(j−1) + t0), R = mask(j ≤ 2046)·(x(j+1) + t2), with c and c' the kernel's two float literals, kept
  as their words and never evaluated. A rotation by s along an axis of extent 2048 reads
  position (j + 2048 − s) mod 2048: position j − 1 for s = 1 when j ≥ 1, and position (j + 1) mod 2048 for s = 2047.
  The mask is the comparison's bit widened to a word and converted, the real 1 or 0; 1·y = y and 0·y = 0 hold for every
  extended real, so no finiteness is used.
-/
import proofs.«136840_j25666724560954_1_alg».proof.Proof.Spec
import proofs.«136840_j25666724560954_1_alg».proof.Proof.Gen.KernelIdeal.Skeleton
import proofs.«136840_j25666724560954_1_alg».proof.Proof.KernelWords
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelSide

open Cert.KernelIdeal Cert.KernelIdeal.Gen Idealize.ShloMosaic Idealize.ShloMosaic.ValueIdx

/-! ## The pieces that are not entrywise -/

/-- The vector of sequence positions of a [2048, 256] block. -/
theorem iota_positions :
    (iota .tc S2048x256 32 [0] iota_S2048x256_d0_w32 : IVec S2048x256 32) = fun i => BitVec.ofNat 32 (i 0).val := by
  funext i
  show BitVec.ofNat 32 (0 * S2048x256.size 0 + (i 0).val) = _
  rw [Nat.zero_mul, Nat.zero_add]

/-- A comparison's bit, widened to a word and converted signed, is the real 1 or 0. -/
theorem mask_word (b : BitVec 1) :
    FloatOps.sitofp (F := Ideal) .f32 (b.setWidth 32) = if b = 1#1 then (1 : EReal) else 0 := by
  rcases BitVec.eq_zero_or_eq_one b with h | h
  · subst h
    rw [if_neg (by decide)]
    show ((((0#1 : BitVec 1).setWidth 32).toInt : ℝ) : EReal) = 0
    rw [show ((0#1 : BitVec 1).setWidth 32).toInt = 0 from by decide]
    simp
  · subst h
    rw [if_pos rfl]
    show ((((1#1 : BitVec 1).setWidth 32).toInt : ℝ) : EReal) = 1
    rw [show ((1#1 : BitVec 1).setWidth 32).toInt = 1 from by decide]
    simp

/-- The mask of the positions that have a left neighbour. -/
theorem mask_left (j : Fin 2048) :
    FloatOps.sitofp (F := Ideal) .f32 ((IntOp.cmpi .sge (BitVec.ofNat 32 j.val) 1#32).setWidth 32)
      = if 1 ≤ j.val then (1 : EReal) else 0 := by
  rw [mask_word, cmpi_sge_toInt, toInt_ofNat_small j.val (by have := j.isLt; omega),
    show (1#32 : BitVec 32).toInt = 1 from by decide]
  by_cases h : 1 ≤ j.val
  · rw [if_pos (show (1 : ℤ) ≤ (j.val : ℤ) by omega), if_pos rfl, if_pos h]
  · rw [if_neg (show ¬ (1 : ℤ) ≤ (j.val : ℤ) by omega), if_neg (by decide), if_neg h]

/-- The mask of the positions that have a right neighbour. -/
theorem mask_right (j : Fin 2048) :
    FloatOps.sitofp (F := Ideal) .f32 ((IntOp.cmpi .sle (BitVec.ofNat 32 j.val) 2046#32).setWidth 32)
      = if j.val ≤ 2046 then (1 : EReal) else 0 := by
  rw [mask_word, cmpi_sle_toInt, toInt_ofNat_small j.val (by have := j.isLt; omega),
    show (2046#32 : BitVec 32).toInt = 2046 from by decide]
  by_cases h : j.val ≤ 2046
  · rw [if_pos (show (j.val : ℤ) ≤ 2046 by omega), if_pos rfl, if_pos h]
  · rw [if_neg (show ¬ (j.val : ℤ) ≤ 2046 by omega), if_neg (by decide), if_neg h]

/-- The block rotated by one position reads, at a position with a left neighbour, that neighbour. -/
theorem rotate_prev (x : FVec Ideal S2048x256 .f32) (j : Fin 2048) (d : Fin 256) (hj : 1 ≤ j.val) :
    dynamicRotate 0 1#32 none x rotates_S2048x256_d0 (ix2 j d) = x (ix2 (Cert.Spec.prevPos j) d) :=
  dynamicRotate_apply 0 1#32 x rotates_S2048x256_d0 (ix2 j d) (ix2 (Cert.Spec.prevPos j) d) (fun b => by
    match b with
    | ⟨0, _⟩ =>
      show j.val - 1 = (j.val + 2048 - 1 % 2048) % 2048
      have := j.isLt
      omega
    | ⟨1, _⟩ => rfl)

/-- The block rotated by 2047 positions reads the next position, around the end. -/
theorem rotate_next (x : FVec Ideal S2048x256 .f32) (j : Fin 2048) (d : Fin 256) :
    dynamicRotate 0 2047#32 none x rotates_S2048x256_d0 (ix2 j d) = x (ix2 (Cert.Spec.nextPos j) d) :=
  dynamicRotate_apply 0 2047#32 x rotates_S2048x256_d0 (ix2 j d) (ix2 (Cert.Spec.nextPos j) d) (fun b => by
    match b with
    | ⟨0, _⟩ =>
      show (j.val + 1) % 2048 = (j.val + 2048 - 2047 % 2048) % 2048
      have := j.isLt
      omega
    | ⟨1, _⟩ => rfl)

/-! ## The payloads at an entry -/

/-- The input block with its unit batch axis dropped. -/
theorem pay2_apply (v0 : Vec Ideal S1x2048x256 .f32) (j : Fin 2048) (d : Fin 256) :
    k1_pay2 (F := Ideal) v0 (ix2 j d) = v0 (ix3 (0 : Fin 1) j d) := by
  unfold k1_pay2
  exact shapeCast_1ab_ab_apply v0 shapeCasts_S1x2048x256_S2048x256 j d

/-- The four one-row payloads are the loaded rows themselves. -/
theorem pay3_eq (v : Vec Ideal S1x256 .f32) : k1_pay3 (F := Ideal) v = v := by
  unfold k1_pay3; exact shapeCast_self v _
theorem pay4_eq (v : Vec Ideal S1x256 .f32) : k1_pay4 (F := Ideal) v = v := by
  unfold k1_pay4; exact shapeCast_self v _
theorem pay5_eq (v : Vec Ideal S1x256 .f32) : k1_pay5 (F := Ideal) v = v := by
  unfold k1_pay5; exact shapeCast_self v _
theorem pay6_eq (v : Vec Ideal S1x256 .f32) : k1_pay6 (F := Ideal) v = v := by
  unfold k1_pay6; exact shapeCast_self v _

/-- The middle term: the entry plus the middle table row. -/
theorem pay7_apply (v0 : Vec Ideal S1x2048x256 .f32) (v15 : Vec Ideal S1x256 .f32) (j : Fin 2048) (d : Fin 256) :
    k1_pay7 (F := Ideal) v0 v15 (ix2 j d) = v0 (ix3 (0 : Fin 1) j d) + v15 (ix2 (0 : Fin 1) d) := by
  unfold k1_pay7
  rw [pay3_eq]
  show k1_pay2 (F := Ideal) v0 (ix2 j d) + broadcastTo S2048x256 v15 broadcasts_S1x256_S2048x256 (ix2 j d) = _
  rw [pay2_apply, broadcastTo_1b_ab_apply]

/-- The right neighbour's term: zero at the last position. -/
theorem pay8_apply (v0 : Vec Ideal S1x2048x256 .f32) (v17 : Vec Ideal S1x256 .f32) (j : Fin 2048) (d : Fin 256) :
    k1_pay8 (F := Ideal) v0 v17 (ix2 j d)
      = if j.val ≤ 2046 then v0 (ix3 (0 : Fin 1) (Cert.Spec.nextPos j) d) + v17 (ix2 (0 : Fin 1) d) else 0 := by
  unfold k1_pay8
  rw [shapeCast_self, iota_positions]
  show FloatOps.sitofp (F := Ideal) .f32 ((IntOp.cmpi .sle (BitVec.ofNat 32 j.val) 2046#32).setWidth 32)
      * (dynamicRotate 0 2047#32 none (k1_pay2 (F := Ideal) v0) rotates_S2048x256_d0 (ix2 j d)
        + broadcastTo S2048x256 v17 broadcasts_S1x256_S2048x256 (ix2 j d)) = _
  rw [mask_right, rotate_next, pay2_apply, broadcastTo_1b_ab_apply]
  by_cases h : j.val ≤ 2046
  · rw [if_pos h, if_pos h, one_mul]
  · rw [if_neg h, if_neg h, zero_mul]

/-- The left neighbour's term, times its weight: zero at the first position. -/
theorem pay9_apply (v0 : Vec Ideal S1x2048x256 .f32) (v13 v19 : Vec Ideal S1x256 .f32) (j : Fin 2048) (d : Fin 256) :
    k1_pay9 (F := Ideal) v0 v13 v19 (ix2 j d)
      = v19 (ix2 (0 : Fin 1) d)
        * (if 1 ≤ j.val then v0 (ix3 (0 : Fin 1) (Cert.Spec.prevPos j) d) + v13 (ix2 (0 : Fin 1) d) else 0) := by
  unfold k1_pay9
  rw [shapeCast_self, shapeCast_self, iota_positions]
  show broadcastTo S2048x256 v19 broadcasts_S1x256_S2048x256 (ix2 j d)
      * (FloatOps.sitofp (F := Ideal) .f32 ((IntOp.cmpi .sge (BitVec.ofNat 32 j.val) 1#32).setWidth 32)
        * (dynamicRotate 0 1#32 none (k1_pay2 (F := Ideal) v0) rotates_S2048x256_d0 (ix2 j d)
          + broadcastTo S2048x256 v13 broadcasts_S1x256_S2048x256 (ix2 j d))) = _
  rw [mask_left, broadcastTo_1b_ab_apply, broadcastTo_1b_ab_apply]
  by_cases h : 1 ≤ j.val
  · rw [if_pos h, if_pos h, one_mul, rotate_prev _ _ _ h, pay2_apply]
  · rw [if_neg h, if_neg h, zero_mul]

/-- The closing combination over the parts' results. -/
theorem pay1_apply (v1 : FVec Ideal S2048x256 .f32) (v16 v22 v24 v26 : FVec Ideal S1x256 .f32)
    (v31 v34 v36 : FVec Ideal S2048x256 .f32) (v48 : Vec Ideal S2048x256 .f32) (z : Fin 1) (j : Fin 2048) (d : Fin 256) :
    k1_pay1 (F := Ideal) v1 v16 v22 v24 v26 v31 v34 v36 v48 (ix3 z j d)
      = Ideal.div ((((((v26 (ix2 (0 : Fin 1) d) + v36 (ix2 j d))
            + v22 (ix2 (0 : Fin 1) d) * v31 (ix2 j d))
            + v24 (ix2 (0 : Fin 1) d) * v34 (ix2 j d))
            + Ideal.ofBits .f32 0x44FFE000#32 * v1 (ix2 j d))
            + v48 (ix2 j d))
            - v16 (ix2 (0 : Fin 1) d))
          (Ideal.ofBits .f32 0x45000000#32) := by
  unfold k1_pay1
  rw [shapeCast_ab_1ab_apply, shapeCast_self]
  show Ideal.div ((((((broadcastTo S2048x256 v26 broadcasts_S1x256_S2048x256 (ix2 j d) + v36 (ix2 j d))
            + broadcastTo S2048x256 v22 broadcasts_S1x256_S2048x256 (ix2 j d) * v31 (ix2 j d))
            + broadcastTo S2048x256 v24 broadcasts_S1x256_S2048x256 (ix2 j d) * v34 (ix2 j d))
            + Ideal.ofBits .f32 0x44FFE000#32 * v1 (ix2 j d))
            + v48 (ix2 j d))
            - broadcastTo S2048x256 v16 broadcasts_S1x256_S2048x256 (ix2 j d))
          (Ideal.ofBits .f32 0x45000000#32) = _
  rw [broadcastTo_1b_ab_apply, broadcastTo_1b_ab_apply, broadcastTo_1b_ab_apply, broadcastTo_1b_ab_apply]

/-- Entry (0, j, d) of the block the main kernel stores, over the loaded block, table rows, weight rows, bias row and
    embedding-sum block. -/
theorem main_apply (v0 : Vec Ideal S1x2048x256 .f32) (v13 v15 v17 v19 v21 v23 v25 : Vec Ideal S1x256 .f32)
    (v48 : Vec Ideal S2048x256 .f32) (j : Fin 2048) (d : Fin 256) :
    k1_pay1 (F := Ideal) (k1_pay2 v0) (k1_pay3 v15) (k1_pay4 v21) (k1_pay5 v23) (k1_pay6 v25) (k1_pay7 v0 v15)
        (k1_pay8 v0 v17) (k1_pay9 v0 v13 v19) v48 (ix3 (0 : Fin 1) j d)
      = Ideal.div ((((((v25 (ix2 (0 : Fin 1) d)
              + v19 (ix2 (0 : Fin 1) d)
                * (if 1 ≤ j.val then v0 (ix3 (0 : Fin 1) (Cert.Spec.prevPos j) d) + v13 (ix2 (0 : Fin 1) d) else 0))
            + v21 (ix2 (0 : Fin 1) d) * (v0 (ix3 (0 : Fin 1) j d) + v15 (ix2 (0 : Fin 1) d)))
            + v23 (ix2 (0 : Fin 1) d)
                * (if j.val ≤ 2046 then v0 (ix3 (0 : Fin 1) (Cert.Spec.nextPos j) d) + v17 (ix2 (0 : Fin 1) d) else 0))
            + Ideal.ofBits .f32 0x44FFE000#32 * v0 (ix3 (0 : Fin 1) j d))
            + v48 (ix2 j d))
            - v15 (ix2 (0 : Fin 1) d))
          (Ideal.ofBits .f32 0x45000000#32) := by
  rw [pay1_apply, pay9_apply, pay7_apply, pay8_apply, pay2_apply, pay3_eq, pay4_eq, pay5_eq, pay6_eq]

end Cert.KernelSide

end
-- ==== Proof.MainArray.lean ====
/-
  The main region's result array as ONE function of the five arrays the region reads.  The grid has 32 points, a
  channel tile dt < 4 and a batch b < 8 each; at the point (dt, b) the pipeline hands the body the x block
  x[b, :, 256·dt .. 256·dt+255], the embedding-sum block [:, 256·dt ..], and the same 256 columns of the three middle
  table rows, of the transposed weights and of the bias row; the body's one store is written back as the block
  [b, :, 256·dt ..] of the result.  A block's coordinate is always (block index)·(block size) + (coordinate inside the
  block), so what point t writes back is block t of the function below, and the 32 blocks cover the result array.
-/
import proofs.«136840_j25666724560954_1_alg».proof.Proof.IdealRegion1
import proofs.«136840_j25666724560954_1_alg».proof.Proof.KernelMain
import proofs.«136840_j25666724560954_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2' : (![0, 0] : Fin 2 → Nat) = fun _ => 0 := funext fun a => by fin_cases a <;> rfl

/-- The result at batch b, position j, channel d, from the x array, the embedding-sum array, the three middle table
    rows, the transposed weights and the bias row. -/
def mainAt (X : S8x2048x1024.Idx → EReal) (EM : S2048x1024.Idx → EReal) (TM WT : S3x1024.Idx → EReal) (BR : S1x1024.Idx → EReal)
    (b : Fin 8) (j : Fin 2048) (d : Fin 1024) : EReal :=
  Ideal.div
    ((((((BR (ix2 (0 : Fin 1) d) + WT (ix2 (0 : Fin 3) d) * (if 1 ≤ j.val then X (ix3 b (Cert.Spec.prevPos j) d) + TM (ix2 (0 : Fin 3) d) else 0))
        + WT (ix2 (1 : Fin 3) d) * (X (ix3 b j d) + TM (ix2 (1 : Fin 3) d)))
        + WT (ix2 (2 : Fin 3) d) * (if j.val ≤ 2046 then X (ix3 b (Cert.Spec.nextPos j) d) + TM (ix2 (2 : Fin 3) d) else 0))
        + Ideal.ofBits .f32 0x44FFE000#32 * X (ix3 b j d))
        + EM (ix2 j d))
        - TM (ix2 (1 : Fin 3) d))
    (Ideal.ofBits .f32 0x45000000#32)

/-- The whole result array. -/
def mainOut (X : S8x2048x1024.Idx → EReal) (EM : S2048x1024.Idx → EReal) (TM WT : S3x1024.Idx → EReal) (BR : S1x1024.Idx → EReal) :
    S8x2048x1024.Idx → EReal :=
  fun i => mainAt X EM TM WT BR (i 0) (i 1) (i 2)

/-- The printed index maps, decided over the 32 points: every input window moves with the output window (the batch
    axis and the channel-tile axis), and the output's block indices stay in their ranges. -/
theorem idx_facts1 : ∀ t : Fin cfg1.N,
    win1_0.index t (0 : Fin 3) = win1_5.index t (0 : Fin 3) ∧ win1_0.index t (1 : Fin 3) = 0 ∧ win1_0.index t (2 : Fin 3) = win1_5.index t (2 : Fin 3)
    ∧ win1_1.index t (0 : Fin 2) = 0 ∧ win1_1.index t (1 : Fin 2) = win1_5.index t (2 : Fin 3)
    ∧ win1_2.index t (0 : Fin 2) = 0 ∧ win1_2.index t (1 : Fin 2) = win1_5.index t (2 : Fin 3)
    ∧ win1_3.index t (0 : Fin 2) = 0 ∧ win1_3.index t (1 : Fin 2) = win1_5.index t (2 : Fin 3)
    ∧ win1_4.index t (0 : Fin 2) = 0 ∧ win1_4.index t (1 : Fin 2) = win1_5.index t (2 : Fin 3)
    ∧ win1_5.index t (0 : Fin 3) ≤ 7 ∧ win1_5.index t (1 : Fin 3) = 0 ∧ win1_5.index t (2 : Fin 3) ≤ 3 :=
  (by decide +kernel : ∀ t : Fin grid1.N, _)

/-- Every block of the result is some point's. -/
theorem idx_onto1 : ∀ (q0 : Fin 8) (q2 : Fin 4), ∃ t : Fin cfg1.N, win1_5.index t = ![q0.val, 0, q2.val] :=
  (by decide +kernel : ∀ (q0 : Fin 8) (q2 : Fin 4), ∃ t : Fin grid1.N, win1_5.index t = ![q0.val, 0, q2.val])

/-! ## Reading a row of a three-row block -/

theorem ld_row0 (x : Vec Ideal S3x256 .f32) (z : Fin 1) (d : Fin 256) : View.ld x rRow0 (ix2 z d) = x (ix2 (0 : Fin 3) d) := by
  show x (rRow0.emb (ix2 z d)) = x (ix2 (0 : Fin 3) d)
  refine congrArg x (funext fun a => Fin.ext ?_)
  have hz : z.val = 0 := by omega
  match a with
  | ⟨0, _⟩ => show 0 + 1 * z.val = 0; omega
  | ⟨1, _⟩ => show 0 + 1 * d.val = d.val; omega
theorem ld_row1 (x : Vec Ideal S3x256 .f32) (z : Fin 1) (d : Fin 256) : View.ld x rRow1 (ix2 z d) = x (ix2 (1 : Fin 3) d) := by
  show x (rRow1.emb (ix2 z d)) = x (ix2 (1 : Fin 3) d)
  refine congrArg x (funext fun a => Fin.ext ?_)
  have hz : z.val = 0 := by omega
  match a with
  | ⟨0, _⟩ => show 1 + 1 * z.val = 1; omega
  | ⟨1, _⟩ => show 0 + 1 * d.val = d.val; omega
theorem ld_row2 (x : Vec Ideal S3x256 .f32) (z : Fin 1) (d : Fin 256) : View.ld x rRow2 (ix2 z d) = x (ix2 (2 : Fin 3) d) := by
  show x (rRow2.emb (ix2 z d)) = x (ix2 (2 : Fin 3) d)
  refine congrArg x (funext fun a => Fin.ext ?_)
  have hz : z.val = 0 := by omega
  match a with
  | ⟨0, _⟩ => show 2 + 1 * z.val = 2; omega
  | ⟨1, _⟩ => show 0 + 1 * d.val = d.val; omega

/-! ## The stored value at an index, over any five blocks -/

theorem pay1_at (x0 : Vec Ideal S1x2048x256 .f32) (x1 : Vec Ideal S2048x256 .f32) (x2 x3 : Vec Ideal S3x256 .f32) (x4 : Vec Ideal S1x256 .f32)
    (j : Fin 2048) (d : Fin 256) :
    pay1 x0 x1 x2 x3 x4 (ix3 (0 : Fin 1) j d)
      = Ideal.div
        ((((((x4 (ix2 (0 : Fin 1) d) + x3 (ix2 (0 : Fin 3) d) * (if 1 ≤ j.val then x0 (ix3 (0 : Fin 1) (Cert.Spec.prevPos j) d) + x2 (ix2 (0 : Fin 3) d) else 0))
            + x3 (ix2 (1 : Fin 3) d) * (x0 (ix3 (0 : Fin 1) j d) + x2 (ix2 (1 : Fin 3) d)))
            + x3 (ix2 (2 : Fin 3) d) * (if j.val ≤ 2046 then x0 (ix3 (0 : Fin 1) (Cert.Spec.nextPos j) d) + x2 (ix2 (2 : Fin 3) d) else 0))
            + Ideal.ofBits .f32 0x44FFE000#32 * x0 (ix3 (0 : Fin 1) j d))
            + x1 (ix2 j d))
            - x2 (ix2 (1 : Fin 3) d))
        (Ideal.ofBits .f32 0x45000000#32) := by
  unfold pay1
  rw [Cert.KernelSide.main_apply]
  have e0 : ∀ y, View.ld x0 rX1 y = x0 y := fun y => congrFun (View.ld_unit_zero (S := S1x2048x256) hz3 _ x0) y
  have e1 : ∀ y, View.ld x1 rE1 y = x1 y := fun y => congrFun (View.ld_unit_zero (S := S2048x256) hz2' _ x1) y
  have e4 : ∀ y, View.ld x4 rB1 y = x4 y := fun y => congrFun (View.ld_unit_zero (S := S1x256) hz2' _ x4) y
  rw [ld_row0 x3 0 d, ld_row0 x2 0 d, ld_row1 x3 0 d, ld_row1 x2 0 d, ld_row2 x3 0 d, ld_row2 x2 0 d]
  simp only [e0, e1, e4]

/-! ## The input blocks at a point, read at an index -/

section Point

variable (c : Dev nD) (t : Fin cfg1.N) (B : Fin 8) (hB : B.val = win1_5.index t (0 : Fin 3))
  (d : Fin 256) (D : Fin 1024) (hD : D.val = win1_5.index t (2 : Fin 3) * 256 + d.val)

include hB hD

theorem xblk_at (jj : Fin 2048) :
    iblk1 V c 0 t (ix3 (0 : Fin 1) jj d) = (V c main_arg0 : S8x2048x1024.Idx → EReal) (ix3 B jj D) := by
  obtain ⟨e00, e01, e02, -⟩ := idx_facts1 t
  show V c main_arg0 (((cfg1.win 0).blk t).view.emb (ix3 (0 : Fin 1) jj d)) = V c main_arg0 (ix3 B jj D)
  refine congrArg (V c main_arg0) (funext fun a => Fin.ext ?_)
  match a with
  | ⟨0, _⟩ => show win1_0.index t (0 : Fin 3) * 1 + 1 * (0 : Fin 1).val = B.val; simp only [Fin.val_zero]; omega
  | ⟨1, _⟩ => show win1_0.index t (1 : Fin 3) * 2048 + 1 * jj.val = jj.val; omega
  | ⟨2, _⟩ => show win1_0.index t (2 : Fin 3) * 256 + 1 * d.val = D.val; omega

theorem eblk_at (j : Fin 2048) :
    iblk1 V c 1 t (ix2 j d) = (V c main_v4 : S2048x1024.Idx → EReal) (ix2 j D) := by
  obtain ⟨-, -, -, e10, e11, -⟩ := idx_facts1 t
  show V c main_v4 (((cfg1.win 1).blk t).view.emb (ix2 j d)) = V c main_v4 (ix2 j D)
  refine congrArg (V c main_v4) (funext fun a => Fin.ext ?_)
  match a with
  | ⟨0, _⟩ => show win1_1.index t (0 : Fin 2) * 2048 + 1 * j.val = j.val; omega
  | ⟨1, _⟩ => show win1_1.index t (1 : Fin 2) * 256 + 1 * d.val = D.val; omega

theorem tblk_at (k : Fin 3) :
    iblk1 V c 2 t (ix2 k d) = (V c main_v1 : S3x1024.Idx → EReal) (ix2 k D) := by
  obtain ⟨-, -, -, -, -, e20, e21, -⟩ := idx_facts1 t
  show V c main_v1 (((cfg1.win 2).blk t).view.emb (ix2 k d)) = V c main_v1 (ix2 k D)
  refine congrArg (V c main_v1) (funext fun a => Fin.ext ?_)
  match a with
  | ⟨0, _⟩ => show win1_2.index t (0 : Fin 2) * 3 + 1 * k.val = k.val; omega
  | ⟨1, _⟩ => show win1_2.index t (1 : Fin 2) * 256 + 1 * d.val = D.val; omega

theorem wblk_at (k : Fin 3) :
    iblk1 V c 3 t (ix2 k d) = (V c main_v2 : S3x1024.Idx → EReal) (ix2 k D) := by
  obtain ⟨-, -, -, -, -, -, -, e30, e31, -⟩ := idx_facts1 t
  show V c main_v2 (((cfg1.win 3).blk t).view.emb (ix2 k d)) = V c main_v2 (ix2 k D)
  refine congrArg (V c main_v2) (funext fun a => Fin.ext ?_)
  match a with
  | ⟨0, _⟩ => show win1_3.index t (0 : Fin 2) * 3 + 1 * k.val = k.val; omega
  | ⟨1, _⟩ => show win1_3.index t (1 : Fin 2) * 256 + 1 * d.val = D.val; omega

theorem bblk_at (z : Fin 1) :
    iblk1 V c 4 t (ix2 z d) = (V c main_v3 : S1x1024.Idx → EReal) (ix2 z D) := by
  obtain ⟨-, -, -, -, -, -, -, -, -, e40, e41, -⟩ := idx_facts1 t
  show V c main_v3 (((cfg1.win 4).blk t).view.emb (ix2 z d)) = V c main_v3 (ix2 z D)
  refine congrArg (V c main_v3) (funext fun a => Fin.ext ?_)
  match a with
  | ⟨0, _⟩ => show win1_4.index t (0 : Fin 2) * 1 + 1 * z.val = z.val; omega
  | ⟨1, _⟩ => show win1_4.index t (1 : Fin 2) * 256 + 1 * d.val = D.val; omega

theorem oblk_at (j : Fin 2048) :
    ((cfg1.win 5).blk t).view.emb (ix3 (0 : Fin 1) j d) = (ix3 B j D : S8x2048x1024.Idx) := by
  obtain ⟨-, -, -, -, -, -, -, -, -, -, -, l0, e51, l2⟩ := idx_facts1 t
  refine funext fun a => Fin.ext ?_
  match a with
  | ⟨0, _⟩ => show win1_5.index t (0 : Fin 3) * 1 + 1 * (0 : Fin 1).val = B.val; simp only [Fin.val_zero]; omega
  | ⟨1, _⟩ => show win1_5.index t (1 : Fin 3) * 2048 + 1 * j.val = j.val; omega
  | ⟨2, _⟩ => show win1_5.index t (2 : Fin 3) * 256 + 1 * d.val = D.val; omega

end Point

/-! ## What a point writes back, the cover, the final array -/

/-- What point `t` writes back is block `t` of `mainOut` of the five arrays as the region finds them. -/
theorem flushed5_eq (c : Dev nD) (t : Fin cfg1.N) :
    (dat1 V c).flushed 5 t = ((cfg1.win 5).blk t).view.read (Elt Ideal)
      (mainOut (V c main_arg0) (V c main_v4) (V c main_v1) (V c main_v2) (V c main_v3)) := by
  show (cfg1.win 5).cut (grid1.coords t) ((dat1 V c).after 5 t) = _
  rw [after1_5]
  unfold out1_5
  rw [View.canon_unit_zero hz3]
  obtain ⟨-, -, -, -, -, -, -, -, -, -, -, l0, e51, l2⟩ := idx_facts1 t
  funext y
  obtain ⟨z, j, d, rfl⟩ : ∃ (z : Fin 1) (j : Fin 2048) (d : Fin 256), y = ix3 z j d := ⟨y 0, y 1, y 2, eq_ix3 y⟩
  obtain rfl : z = 0 := Subsingleton.elim _ _
  refine (pay1_at _ _ _ _ _ j d).trans ?_
  have hB : (⟨win1_5.index t (0 : Fin 3), by omega⟩ : Fin 8).val = win1_5.index t (0 : Fin 3) := rfl
  have hD : (⟨win1_5.index t (2 : Fin 3) * 256 + d.val, by have := d.isLt; omega⟩ : Fin 1024).val = win1_5.index t (2 : Fin 3) * 256 + d.val := rfl
  rw [xblk_at V c t _ hB d _ hD j, xblk_at V c t _ hB d _ hD (Cert.Spec.prevPos j), xblk_at V c t _ hB d _ hD (Cert.Spec.nextPos j),
    eblk_at V c t _ hB d _ hD j, tblk_at V c t _ hB d _ hD 0, tblk_at V c t _ hB d _ hD 1, tblk_at V c t _ hB d _ hD 2,
    wblk_at V c t _ hB d _ hD 0, wblk_at V c t _ hB d _ hD 1, wblk_at V c t _ hB d _ hD 2, bblk_at V c t _ hB d _ hD 0]
  show _ = mainOut _ _ _ _ _ (((cfg1.win 5).blk t).view.emb (ix3 (0 : Fin 1) j d))
  rw [oblk_at t _ hB d _ hD j]
  rfl

/-- An index of the result is in point `t`'s block iff each coordinate is in the block's range on its axis. -/
theorem mem_blk5 (t : Fin cfg1.N) (i : S8x2048x1024.Idx) :
    i ∈ ((cfg1.win 5).blk t).view.set ↔ ∀ a : Fin 3, win1_5.index t a * S1x2048x256.size a ≤ (i a).val ∧ (i a).val < win1_5.index t a * S1x2048x256.size a + S1x2048x256.size a := by
  show i ∈ ((View.whole main_v5).slice (win1_5.rect t)).set ↔ _
  rw [View.set_slice_whole, Rect.mem_set_unit]
  exact Iff.rfl

/-- Every index of the result lies in the block of the point (channel tile = d / 256, batch = b). -/
theorem cover5 (i : S8x2048x1024.Idx) :
    ∃ t : Fin cfg1.N, (cfg1.win 5).flush t = true ∧ i ∈ ((cfg1.win 5).blk t).view.set := by
  have hi0 : (i 0).val < 8 := (i 0).isLt
  have hi1 : (i 1).val < 2048 := (i 1).isLt
  have hi2 : (i 2).val < 1024 := (i 2).isLt
  obtain ⟨t, ht⟩ := idx_onto1 ⟨(i 0).val, hi0⟩ ⟨(i 2).val / 256, by omega⟩
  have q0 : win1_5.index t (0 : Fin 3) = (i 0).val := congrFun ht 0
  have q1 : win1_5.index t (1 : Fin 3) = 0 := congrFun ht 1
  have q2 : win1_5.index t (2 : Fin 3) = (i 2).val / 256 := congrFun ht 2
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 2048 ≤ (i 1).val ∧ (i 1).val < win1_5.index t (1 : Fin 3) * 2048 + 2048; omega
  | ⟨2, _⟩ => show win1_5.index t (2 : Fin 3) * 256 ≤ (i 2).val ∧ (i 2).val < win1_5.index t (2 : Fin 3) * 256 + 256; omega

/-- The result array after the region: `mainOut` of the five arrays the region reads, as it finds them. -/
theorem final5 (c : Dev nD) :
    (dat1 V c).arrAt 5 cfg1.N = mainOut (V c main_arg0) (V c main_v4) (V c main_v1) (V c main_v2) (V c main_v3) :=
  (dat1 V c).arrAt_eq_of_cover 5 _ (fun t _ => flushed5_eq V c t) (cover5)

end Cert.KernelIdeal.Hand

end
-- ==== Proof.KernelEmb.lean ====
/-
  The embedding-sum kernel's product, read at one output entry.

  The first kernel multiplies the [2048, 384] matrix of counts by the [384, 256] block of table rows on the matrix
  unit, into a zero accumulator. At the extended reals the narrowing of the table block to the shorter float format
  is the identity, the zero accumulator adds nothing, and the contraction over the one shared axis is the plain sum
  over its 384 positions: entry (j, d) of the product is the sum over r of counts (j, r) times table (r, d).
-/
import proofs.«136840_j25666724560954_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelSide

open Cert.KernelIdeal Cert.KernelIdeal.Gen Idealize.ShloMosaic Idealize.ShloMosaic.ValueIdx

/-- On the row axis of the left operand the operand index is the output's row. -/
theorem emb_lhs_0 (i : S2048x256.Idx) (q : dot_S2048x384_S384x256_S2048x256_1_0_0_1_n_n.contr.Idx) :
    (dot_S2048x384_S384x256_S2048x256_1_0_0_1_n_n.lhsIdx i q 0).val = (i 0).val := by
  unfold DotDims.lhsIdx
  rw [dif_neg (show ¬(0 : Fin S2048x384.rank) ∈ dot_S2048x384_S384x256_S2048x256_1_0_0_1_n_n.lhsBatch by decide),
    dif_pos (show (0 : Fin S2048x384.rank) ∈ dot_S2048x384_S384x256_S2048x256_1_0_0_1_n_n.lhsNonContracting by decide)]
  rfl

/-- On the contracted axis of the left operand the operand index is the contraction position. -/
theorem emb_lhs_1 (i : S2048x256.Idx) (q : dot_S2048x384_S384x256_S2048x256_1_0_0_1_n_n.contr.Idx) :
    (dot_S2048x384_S384x256_S2048x256_1_0_0_1_n_n.lhsIdx i q 1).val = (q ⟨0, by decide⟩).val :=
  dot_S2048x384_S384x256_S2048x256_1_0_0_1_n_n.lhsIdx_val_of_single rfl i q

/-- On the contracted axis of the right operand the operand index is the contraction position. -/
theorem emb_rhs_0 (i : S2048x256.Idx) (q : dot_S2048x384_S384x256_S2048x256_1_0_0_1_n_n.contr.Idx) :
    (dot_S2048x384_S384x256_S2048x256_1_0_0_1_n_n.rhsIdx i q 0).val = (q ⟨0, by decide⟩).val :=
  dot_S2048x384_S384x256_S2048x256_1_0_0_1_n_n.rhsIdx_val_of_single rfl i q

/-- On the column axis of the right operand the operand index is the output's column. -/
theorem emb_rhs_1 (i : S2048x256.Idx) (q : dot_S2048x384_S384x256_S2048x256_1_0_0_1_n_n.contr.Idx) :
    (dot_S2048x384_S384x256_S2048x256_1_0_0_1_n_n.rhsIdx i q 1).val = (i 1).val := by
  unfold DotDims.rhsIdx
  rw [dif_neg (show ¬(1 : Fin S384x256.rank) ∈ dot_S2048x384_S384x256_S2048x256_1_0_0_1_n_n.rhsBatch by decide),
    dif_pos (show (1 : Fin S384x256.rank) ∈ dot_S2048x384_S384x256_S2048x256_1_0_0_1_n_n.rhsNonContracting by decide)]
  rfl

/-- Entry (j, d) of the first kernel's product: the sum over the 384 padded table rows r of the count at (j, r) times
    the table block's entry at (r, d). -/
theorem emb_apply (v3 : Vec Ideal S384x256 .f32) (v6 : Vec Ideal S2048x384 .bf16) (j : Fin 2048) (d : Fin 256) :
    k0_pay2 (F := Ideal) v3 v6 (ix2 j d) = ∑ r : Fin 384, v6 (ix2 j r) * v3 (ix2 r d) := by
  unfold k0_pay2
  simp only [matmul]
  rw [Ideal.matmul_constant_zero_apply,
    ← Equiv.sum_comp (contrEquiv1 dot_S2048x384_S384x256_S2048x256_1_0_0_1_n_n 384 rfl rfl).symm]
  refine Finset.sum_congr rfl fun k _ => ?_
  have hk := contrEquiv1_symm_val dot_S2048x384_S384x256_S2048x256_1_0_0_1_n_n 384 rfl rfl k
  have el : dot_S2048x384_S384x256_S2048x256_1_0_0_1_n_n.lhsIdx (ix2 j d)
      ((contrEquiv1 dot_S2048x384_S384x256_S2048x256_1_0_0_1_n_n 384 rfl rfl).symm k) = ix2 j k :=
    funext fun a => Fin.ext (by
      match a with
      | ⟨0, _⟩ => exact emb_lhs_0 _ _
      | ⟨1, _⟩ => exact (emb_lhs_1 _ _).trans hk)
  have er : dot_S2048x384_S384x256_S2048x256_1_0_0_1_n_n.rhsIdx (ix2 j d)
      ((contrEquiv1 dot_S2048x384_S384x256_S2048x256_1_0_0_1_n_n 384 rfl rfl).symm k) = ix2 k d :=
    funext fun a => Fin.ext (by
      match a with
      | ⟨0, _⟩ => exact (emb_rhs_0 _ _).trans hk
      | ⟨1, _⟩ => exact emb_rhs_1 _ _)
  rw [el, er, truncf_apply, shapeCast_self]

end Cert.KernelSide

end
-- ==== Proof.EmbArray.lean ====
/-
  The embedding-sum region's result array, as one function of the padded table.

  The region has four points, one per tile of 256 channels. The first point stores the [2048, 384] matrix of counts
  into the scratch buffer whole and reads it back; every point stores, whole, the product of the counts with its tile
  of the padded table. So the scratch holds the counts after every point, what point t writes back is the product of
  the counts with tile t of the table, and — the four tiles lying side by side along the channel axis — the result
  array is the product of the counts with the whole padded table: entry (j, d) is the sum over the 384 padded rows r
  of count (j, r) times table (r, d). A block's coordinate in its array is its tile number times the tile's extent plus
  the coordinate inside the tile.
-/
import proofs.«136840_j25666724560954_1_alg».proof.Proof.IdealRegion0
import proofs.«136840_j25666724560954_1_alg».proof.Proof.KernelEmb
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

/-! ## What the first point's stores leave, and what every point writes -/

section AnyInstance
variable {F : FTy → Type} [FloatOps F]

/-- Offsets (0, 0), as the constant function. -/
theorem zero_offsets2 : (![0, 0] : Fin 2 → Nat) = fun _ => 0 := funext fun a => by fin_cases a <;> rfl

/-- The first point leaves the counts in the scratch: its one store there is whole. -/
theorem sout0_A_eq (c : Dev nD) (i : grid0.Coords) (hc0 : cond0 i)
    (arg1 : Memref sig .tc .vmem S384x256 .f32) (harg1 : arg1.IsWhole) (arg2 : Memref sig .tc .vmem S2048x256 .f32) (harg2 : arg2.IsWhole)
    (arg3 : Memref sig .tc .vmem S2048x384 .bf16) (harg3 : arg3.IsWhole) (x0 : Vec F S384x256 .f32) :
    sout0_A c i hc0 arg1 harg1 arg2 harg2 arg3 harg3 x0 = k0_pay1 (k0_pay3 (F := F)) := by
  unfold sout0_A
  rw [View.read_writes_eq_canon _ _ _ (scover0_A c i hc0 arg1 harg1 arg2 harg2 arg3 harg3 x0)]
  unfold kernelRun0_A
  dsimp only
  sl_unfold_words
  rw [View.canon_unit_zero zero_offsets2]

/-- The first point leaves in the output's staging buffer the product of the counts it has just stored and read back
    with the table tile. -/
theorem out0_A_eq (c : Dev nD) (i : grid0.Coords) (hc0 : cond0 i)
    (arg1 : Memref sig .tc .vmem S384x256 .f32) (harg1 : arg1.IsWhole) (arg2 : Memref sig .tc .vmem S2048x256 .f32) (harg2 : arg2.IsWhole)
    (arg3 : Memref sig .tc .vmem S2048x384 .bf16) (harg3 : arg3.IsWhole) (x0 : Vec F S384x256 .f32) :
    out0_A c i hc0 arg1 harg1 arg2 harg2 arg3 harg3 x0 = k0_pay2 x0 (k0_pay1 (k0_pay3 (F := F))) := by
  unfold out0_A
  rw [View.read_writes_eq_canon _ _ _ (cover0_A c i hc0 arg1 harg1 arg2 harg2 arg3 harg3 x0)]
  unfold kernelRun0_A
  dsimp only
  sl_unfold_words
  rw [View.canon_unit_zero zero_offsets2, View.readCov_unit_zero _ zero_offsets2, View.readAt_eq_ld, harg1.read_unread,
    View.ld_unit_zero (S := S384x256) zero_offsets2]

/-- A later point's one whole store leaves the product of the scratch's contents with the table tile. -/
theorem out0_B_eq (x0 : Vec F S384x256 .f32) (xs : Vec F S2048x384 .bf16) : out0_B x0 xs = k0_pay2 x0 xs := by
  unfold out0_B
  rw [View.canon_unit_zero zero_offsets2, View.ld_unit_zero (S := S384x256) zero_offsets2,
    View.ld_unit_zero (S := S2048x384) zero_offsets2]

variable (V : (c : Dev nD) → (b : Ref sig .tc) → Buf (Elt F) ((c : Thread nD τ).loc b))

/-- The scratch holds the counts after every point. -/
theorem scr_eq (c : Dev nD) : scr V c = k0_pay1 (k0_pay3 (F := F)) := by
  unfold scr
  exact sout0_A_eq c (grid0.coords p0) ((hcond0 p0).mpr p0_val) (ms0_0 p0) (hs0_0 p0) (ms0_1 p0) (hs0_1 p0) scM0
    (Memref.isWhole_whole _) (iblk0 V c 0 p0)

/-- At every point the output's staging buffer ends holding the product of the counts with the point's table tile. -/
theorem outAt0_eq (c : Dev nD) (t : Fin cfg0.N) :
    outAt0 V c t = k0_pay2 (iblk0 V c 0 t) (k0_pay1 (k0_pay3 (F := F))) := by
  unfold outAt0
  by_cases hz : t.val = 0
  · obtain rfl : t = p0 := Fin.ext hz
    rw [if_pos p0_val]
    exact out0_A_eq c (grid0.coords p0) ((hcond0 p0).mpr p0_val) (ms0_0 p0) (hs0_0 p0) (ms0_1 p0) (hs0_1 p0) scM0
      (Memref.isWhole_whole _) (iblk0 V c 0 p0)
  · rw [if_neg hz]
    exact (out0_B_eq (iblk0 V c 0 t) (scr V c)).trans (congrArg (k0_pay2 (iblk0 V c 0 t)) (scr_eq V c))

end AnyInstance

/-! ## The result array at the extended reals -/

/-- Entry (j, d) of the product of the counts with the padded table. -/
def embAt (T : S384x1024.Idx → EReal) (j : Fin 2048) (d : Fin 1024) : EReal :=
  ∑ r : Fin 384, k0_pay1 (F := Ideal) (k0_pay3 (F := Ideal)) (ix2 j r) * T (ix2 r d)

/-- The product at an entry of a tile, the entry given as an index of the tile. -/
theorem pay2_at (X : Vec Ideal S384x256 .f32) (C : Vec Ideal S2048x384 .bf16) (y : S2048x256.Idx) :
    k0_pay2 (F := Ideal) X C y
      = ∑ r : Fin 384, C (ix2 (⟨(y 0).val, (y 0).isLt⟩ : Fin 2048) r) * X (ix2 r (⟨(y 1).val, (y 1).isLt⟩ : Fin 256)) := by
  obtain ⟨j, d, rfl⟩ : ∃ (j : Fin 2048) (d : Fin 256), y = ix2 j d := ⟨y 0, y 1, eq_ix2 y⟩
  exact Cert.KernelSide.emb_apply X C j d

/-- The two windows' tile numbers, decided over the four points: both windows take all rows, and move together along
    the channel axis, tile t at point t. -/
theorem tile_index_facts : ∀ t : Fin cfg0.N, win0_0.index t (0 : Fin 2) = 0
    ∧ win0_0.index t (1 : Fin 2) = win0_1.index t (1 : Fin 2)
    ∧ win0_1.index t (0 : Fin 2) = 0
    ∧ win0_1.index t (1 : Fin 2) ≤ 3 :=
  (by decide +kernel : ∀ t : Fin grid0.N, _)

/-- Every channel tile of the result is some point's. -/
theorem tile_index_onto : ∀ q : Fin 4, ∃ t : Fin cfg0.N, win0_1.index t = ![0, q.val] :=
  (by decide +kernel : ∀ q : Fin 4, ∃ t : Fin grid0.N, win0_1.index t = ![0, q.val])

/-- An index of the result array is in point t's tile iff each coordinate is in the tile's range on its axis. -/
theorem mem_tile (t : Fin cfg0.N) (i : S2048x1024.Idx) :
    i ∈ ((cfg0.win 1).blk t).view.set ↔ ∀ a : Fin 2, win0_1.index t a * S2048x256.size a ≤ (i a).val
      ∧ (i a).val < win0_1.index t a * S2048x256.size a + S2048x256.size a := by
  show i ∈ ((View.whole main_v4).slice (win0_1.rect t)).set ↔ _
  rw [View.set_slice_whole, Rect.mem_set_unit]
  exact Iff.rfl

/-- The four tiles cover the result array. -/
theorem tiles_cover (i : S2048x1024.Idx) :
    ∃ t : Fin cfg0.N, (cfg0.win 1).flush t = true ∧ i ∈ ((cfg0.win 1).blk t).view.set := by
  have hi0 : (i 0).val < 2048 := (i 0).isLt
  have hi1 : (i 1).val < 1024 := (i 1).isLt
  obtain ⟨t, ht⟩ := tile_index_onto ⟨(i 1).val / 256, by omega⟩
  have q0 : win0_1.index t (0 : Fin 2) = 0 := congrFun ht 0
  have q1 : win0_1.index t (1 : Fin 2) = (i 1).val / 256 := congrFun ht 1
  refine ⟨t, flush0_1 t, ?_⟩
  rw [mem_tile]
  intro a
  match a with
  | ⟨0, _⟩ =>
    show win0_1.index t (0 : Fin 2) * 2048 ≤ (i 0).val ∧ (i 0).val < win0_1.index t (0 : Fin 2) * 2048 + 2048
    omega
  | ⟨1, _⟩ =>
    show win0_1.index t (1 : Fin 2) * 256 ≤ (i 1).val ∧ (i 1).val < win0_1.index t (1 : Fin 2) * 256 + 256
    omega

variable (V : (c : Dev nD) → (b : Ref sig .tc) → Buf (Elt Ideal) ((c : Thread nD τ).loc b))

/-- What point t writes back is tile t of the product of the counts with the padded table as the region finds it. -/
theorem flushed_emb (c : Dev nD) (t : Fin cfg0.N) :
    (dat0 V c).flushed 1 t
      = ((cfg0.win 1).blk t).view.read (Elt Ideal) (fun i : S2048x1024.Idx => embAt (V c main_v0) (i 0) (i 1)) := by
  show (cfg0.win 1).cut (grid0.coords t) ((dat0 V c).after 1 t) = _
  rw [after0_1, outAt0_eq]
  obtain ⟨e0, e1, e2, e3⟩ := tile_index_facts t
  funext y
  show k0_pay2 (F := Ideal) (iblk0 V c 0 t) (k0_pay1 (k0_pay3 (F := Ideal))) y
    = embAt (V c main_v0) ((((cfg0.win 1).blk t).view.emb y) 0) ((((cfg0.win 1).blk t).view.emb y) 1)
  refine (pay2_at (iblk0 V c 0 t) (k0_pay1 (k0_pay3 (F := Ideal))) y).trans ?_
  unfold embAt
  refine Finset.sum_congr rfl fun r _ => ?_
  have hJ : (⟨(y 0).val, (y 0).isLt⟩ : Fin 2048) = (((cfg0.win 1).blk t).view.emb y) 0 := Fin.ext (by
    show (y 0).val = win0_1.index t (0 : Fin 2) * 2048 + 1 * (y 0).val
    omega)
  have hD : ((cfg0.win 0).blk t).view.emb (ix2 r (⟨(y 1).val, (y 1).isLt⟩ : Fin 256))
      = ix2 r ((((cfg0.win 1).blk t).view.emb y) 1) := by
    funext a; apply Fin.ext
    match a with
    | ⟨0, _⟩ =>
      show win0_0.index t (0 : Fin 2) * 384 + 1 * r.val = r.val
      omega
    | ⟨1, _⟩ =>
      show win0_0.index t (1 : Fin 2) * 256 + 1 * (y 1).val = win0_1.index t (1 : Fin 2) * 256 + 1 * (y 1).val
      omega
  show k0_pay1 (F := Ideal) (k0_pay3 (F := Ideal)) (ix2 (⟨(y 0).val, (y 0).isLt⟩ : Fin 2048) r)
      * (V c main_v0 : S384x1024.Idx → EReal) (((cfg0.win 0).blk t).view.emb (ix2 r (⟨(y 1).val, (y 1).isLt⟩ : Fin 256)))
    = k0_pay1 (F := Ideal) (k0_pay3 (F := Ideal)) (ix2 ((((cfg0.win 1).blk t).view.emb y) 0) r)
      * (V c main_v0 : S384x1024.Idx → EReal) (ix2 r ((((cfg0.win 1).blk t).view.emb y) 1))
  rw [hJ, hD]
  rfl

/-- The result array after the region: the product of the counts with the padded table, entry by entry. -/
theorem emb_final (c : Dev nD) :
    (dat0 V c).arrAt 1 cfg0.N = fun i : S2048x1024.Idx => embAt (V c main_v0) (i 0) (i 1) :=
  (dat0 V c).arrAt_eq_of_cover 1 _ (fun t _ => flushed_emb V c t) tiles_cover

end Cert.KernelIdeal.Hand

end
-- ==== Proof.HostArrays.lean ====
/-
  What the host operations prepare before the two kernel regions, read at an index.

  Before its kernels the program pads the table of relative-position rows from 257 to 384 rows with zeros, cuts the
  table's three middle rows 127, 128, 129 out, transposes the convolution weights from [1024, 3] to [3, 1024], and
  lays the bias out as one row [1, 1024]. None of these operations computes anything: each result entry is one entry
  of an argument array, or the padding value, the integer zero converted to a float, which at the extended reals is
  the real number 0. The batch array itself is written by no host operation.
-/
import proofs.«136840_j25666724560954_1_alg».proof.Proof.Gen.KernelIdeal.Regions
import Idealize.ShloMosaic.Lib.Pipeline.Value
import Idealize.ShloMosaic.Lib.ValueLayout
import Idealize.ShloMosaic.Lib.ValueIdx
import Idealize.ShloMosaic.Lib.KernelVsHost
import Idealize.ShloMosaic.PureOps.Ideal.Laws

noncomputable section

namespace Cert.KernelIdeal.HostSide

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-! ## Each prepared array as its operations' term -/

/-- The padded table is the pad of the table argument by the converted integer zero. -/
theorem v0_term : (V3 (F := Ideal) m c main_v0 : S384x1024.Idx → EReal)
    = pad S384x1024 ![0, 0] ![127, 0] ![0, 0] (m ((c : Thread nD τ).loc main_arg1) : S257x1024.Idx → EReal)
        (sitofp (F := Ideal) .f32 (constantI S_ 32 0#32)) pads_S257x1024_S384x1024_01270_000 h_S_ := by
  dsimp only [V3, V2, V1, V0]
  after_results
  rfl

/-- The middle rows are the slice of the table argument from row 127. -/
theorem v1_term : (V3 (F := Ideal) m c main_v1 : S3x1024.Idx → EReal)
    = extractStridedSlice S3x1024 ![127, 0] (m ((c : Thread nD τ).loc main_arg1) : S257x1024.Idx → EReal)
        slices_S257x1024_S3x1024_127_0 := by
  dsimp only [V3, V2, V1, V0]
  after_results

/-- The transposed weights are the transpose of the weight argument. -/
theorem v2_term : (V3 (F := Ideal) m c main_v2 : S3x1024.Idx → EReal)
    = transpose S3x1024 [1, 0] (m ((c : Thread nD τ).loc main_arg2) : S1024x3.Idx → EReal)
        transposes_S1024x3_S3x1024_1_0 := by
  dsimp only [V3, V2, V1, V0]
  after_results

/-- The bias row is the bias argument laid along the second axis. -/
theorem v3_term : (V3 (F := Ideal) m c main_v3 : S1x1024.Idx → EReal)
    = broadcastInDim S1x1024 ![1] bcast_S1024_S1x1024_1 (m ((c : Thread nD τ).loc main_arg3) : S1024.Idx → EReal) := by
  dsimp only [V3, V2, V1, V0]
  after_results

/-! ## The prepared arrays at an index -/

/-- The padding value: the integer zero, converted, is the real number zero. -/
theorem padValue (i : S_.Idx) : (sitofp (F := Ideal) .f32 (constantI S_ 32 0#32) : S_.Idx → EReal) i = 0 := by
  show (((0#32 : BitVec 32).toInt : ℝ) : EReal) = 0
  simp

/-- Row r of the padded table is row r of the table for r < 257 and zero on the 127 rows below. -/
theorem padded (r : Fin 384) (d : Fin 1024) :
    (V3 (F := Ideal) m c main_v0 : S384x1024.Idx → EReal) (ix2 r d)
      = (if h : r.val < 257 then
          (m ((c : Thread nD τ).loc main_arg1) : S257x1024.Idx → EReal) (ix2 (⟨r.val, h⟩ : Fin 257) d)
        else 0 : EReal) := by
  rw [v0_term]
  by_cases h : r.val < 257
  · rw [dif_pos h]
    exact pad_apply_of_inside _ _ _ _ _ pads_S257x1024_S384x1024_01270_000 h_S_ _ _ (fun a =>
      match a with
      | ⟨0, _⟩ => by show r.val = 0 + r.val * (0 + 1); omega
      | ⟨1, _⟩ => by show d.val = 0 + d.val * (0 + 1); omega)
  · rw [dif_neg h]
    refine (pad_apply_of_not_inside _ _ _ _ _ pads_S257x1024_S384x1024_01270_000 h_S_ _ (0 : Fin 2) ?_).trans
      (padValue _)
    show ¬(0 ≤ r.val ∧ (r.val - 0) % (0 + 1) = 0 ∧ (r.val - 0) / (0 + 1) < 257)
    omega

/-- Row k of the middle rows is row 127 + k of the table. -/
theorem midrows (k : Fin 3) (d : Fin 1024) :
    (V3 (F := Ideal) m c main_v1 : S3x1024.Idx → EReal) (ix2 k d)
      = (m ((c : Thread nD τ).loc main_arg1) : S257x1024.Idx → EReal) (ix2 (⟨127 + k.val, by omega⟩ : Fin 257) d) := by
  rw [v1_term]
  exact slice2_axis0_apply 127 _ slices_S257x1024_S3x1024_127_0 k d _ rfl

/-- Entry (k, d) of the transposed weights is entry (d, k) of the weights. -/
theorem weightsT (k : Fin 3) (d : Fin 1024) :
    (V3 (F := Ideal) m c main_v2 : S3x1024.Idx → EReal) (ix2 k d)
      = (m ((c : Thread nD τ).loc main_arg2) : S1024x3.Idx → EReal) (ix2 d k) := by
  rw [v2_term]
  exact transpose_ix2_apply _ transposes_S1024x3_S3x1024_1_0 k d

/-- Entry (0, d) of the bias row is entry d of the bias. -/
theorem biasRow (z : Fin 1) (d : Fin 1024) :
    (V3 (F := Ideal) m c main_v3 : S1x1024.Idx → EReal) (ix2 z d)
      = (m ((c : Thread nD τ).loc main_arg3) : S1024.Idx → EReal) (ix1 d) := by
  rw [v3_term]
  exact broadcastInDim_apply _ bcast_S1024_S1x1024_1 _ _ _ (fun a => match a with | ⟨0, _⟩ => rfl)

/-- No host operation writes the batch array. -/
theorem xkept : V3 (F := Ideal) m c main_arg0 = m ((c : Thread nD τ).loc main_arg0) :=
  (V3_of m c main_arg0 (by decide)).trans <| (V2_of m c main_arg0 (by decide)).trans <|
    (V1_of m c main_arg0 (by decide)).trans rfl

end Cert.KernelIdeal.HostSide

end
-- ==== Proof.KernelCounts.lean ====
/-
  The counts matrix of the embedding-sum kernel, read at one entry.

  The first kernel builds, from the row number j < 2048 and the column number r < 384 of a [2048, 384] matrix, the
  number of positions i < 2048 whose clamped offset clamp(j − i, −128, 128) + 128 equals r: column 0 collects the
  left-clipped positions, 2048 − (j + 128) of them cut at 0; column 256 the right-clipped ones, min(2048, j − 127) cut
  at 0; a column strictly between has the single candidate i = j − (r − 128), counted when it lies in [0, 2047]; the
  padding columns 257 … 383 hold 0. Every word that occurs is below 4096 in absolute value, so the word arithmetic is
  integer arithmetic, and the signed conversion to a float is the integer itself as a real.
-/
import proofs.«136840_j25666724560954_1_alg».proof.Proof.Spec
import proofs.«136840_j25666724560954_1_alg».proof.Proof.Gen.KernelIdeal.Skeleton
import proofs.«136840_j25666724560954_1_alg».proof.Proof.KernelWords
import Idealize.ShloMosaic.Lib.Pipeline.Value
import Idealize.ShloMosaic.Lib.ValueIdx
import Idealize.ShloMosaic.PureOps.Ideal.Laws

noncomputable section

namespace Cert.KernelSide

open Cert.KernelIdeal Cert.KernelIdeal.Gen Idealize.ShloMosaic Idealize.ShloMosaic.ValueIdx

/-- The vector of column numbers of the [2048, 384] matrix. -/
theorem iota_cols :
    (iota .tc S2048x384 32 [1] iota_S2048x384_d1_w32 : IVec S2048x384 32) = fun i => BitVec.ofNat 32 (i 1).val := by
  funext i
  show BitVec.ofNat 32 (0 * S2048x384.size 1 + (i 1).val) = _
  rw [Nat.zero_mul, Nat.zero_add]

/-- The vector of row numbers of the [2048, 384] matrix. -/
theorem iota_rows :
    (iota .tc S2048x384 32 [0] iota_S2048x384_d0_w32 : IVec S2048x384 32) = fun i => BitVec.ofNat 32 (i 0).val := by
  funext i
  show BitVec.ofNat 32 (0 * S2048x384.size 0 + (i 0).val) = _
  rw [Nat.zero_mul, Nat.zero_add]

/-- At the extended reals the signed conversion of a word is its integer as a real. -/
theorem sitofp_ideal (w : BitVec 32) : FloatOps.sitofp (F := Ideal) .f32 w = ((w.toInt : ℝ) : EReal) := rfl

/-- The count as the kernel's words compute it from the row number `j` and the column number `r`: the closed form
    of the number of positions whose clamped offset lands in column `r`, and 0 in the padding columns. -/
theorem count_word (j r : ℕ) (hj : j < 2048) (hr : r < 384) :
    Scalar.select (IntOp.cmpi .slt (BitVec.ofNat 32 r) 257#32)
      (Scalar.select (IntOp.cmpi .eq (BitVec.ofNat 32 r) 0#32)
        (FloatOps.sitofp (F := Ideal) .f32
          (IntOp.maxsi 0#32 (IntOp.subi 2048#32 (IntOp.addi (BitVec.ofNat 32 j) 128#32))))
        (Scalar.select (IntOp.cmpi .eq (BitVec.ofNat 32 r) 256#32)
          (FloatOps.sitofp (F := Ideal) .f32
            (IntOp.maxsi 0#32 (IntOp.minsi 2048#32 (IntOp.addi (IntOp.subi (BitVec.ofNat 32 j) 128#32) 1#32))))
          (Scalar.select
            (IntOp.andi
              (IntOp.cmpi .sge (IntOp.subi (BitVec.ofNat 32 j) (IntOp.subi (BitVec.ofNat 32 r) 128#32)) 0#32)
              (IntOp.cmpi .sle (IntOp.subi (BitVec.ofNat 32 j) (IntOp.subi (BitVec.ofNat 32 r) 128#32)) 2047#32))
            (Ideal.ofBits .f32 0x3F800000#32) (Ideal.ofBits .f32 0x00000000#32))))
      (Ideal.ofBits .f32 0x00000000#32)
    = if r < 257 then ((Cert.Spec.cntZ j r : ℝ) : EReal) else 0 := by
  have hJ := toInt_ofNat_small j (by omega)
  have hR := toInt_ofNat_small r (by omega)
  have h0 : (0#32 : BitVec 32).toInt = 0 := by decide
  have h1 : (1#32 : BitVec 32).toInt = 1 := by decide
  have h128 : (128#32 : BitVec 32).toInt = 128 := by decide
  have h257 : (257#32 : BitVec 32).toInt = 257 := by decide
  have h2047 : (2047#32 : BitVec 32).toInt = 2047 := by decide
  have h2048 : (2048#32 : BitVec 32).toInt = 2048 := by decide
  -- the three tests on the column number
  have elt : IntOp.cmpi .slt (BitVec.ofNat 32 r) 257#32 = if r < 257 then 1#1 else 0#1 := by
    rw [cmpi_slt_toInt, hR, h257]; exact if_congr (by omega) rfl rfl
  have e0 : IntOp.cmpi .eq (BitVec.ofNat 32 r) 0#32 = if r = 0 then 1#1 else 0#1 :=
    cmpi_eq_ofNat r 0 (by omega) (by omega)
  have e256 : IntOp.cmpi .eq (BitVec.ofNat 32 r) 256#32 = if r = 256 then 1#1 else 0#1 :=
    cmpi_eq_ofNat r 256 (by omega) (by omega)
  -- the left-clipped count
  have hc0 : (IntOp.maxsi 0#32 (IntOp.subi 2048#32 (IntOp.addi (BitVec.ofNat 32 j) 128#32))).toInt
      = max 0 (2048 - ((j : ℤ) + 128)) := by
    rw [toInt_maxsi, h0, toInt_sub_small _ _ _ _ h2048
      (toInt_add_small _ _ _ _ hJ h128 (by omega) (by omega)) (by omega) (by omega)]
  -- the right-clipped count
  have hcl : (IntOp.maxsi 0#32 (IntOp.minsi 2048#32 (IntOp.addi (IntOp.subi (BitVec.ofNat 32 j) 128#32) 1#32))).toInt
      = max 0 (min 2048 ((j : ℤ) - 128 + 1)) := by
    rw [toInt_maxsi, h0, toInt_minsi, h2048, toInt_add_small _ _ _ _
      (toInt_sub_small _ _ _ _ hJ h128 (by omega) (by omega)) h1 (by omega) (by omega)]
  -- the single candidate position of a middle column
  have hrel : (IntOp.subi (BitVec.ofNat 32 j) (IntOp.subi (BitVec.ofNat 32 r) 128#32)).toInt
      = (j : ℤ) - ((r : ℤ) - 128) :=
    toInt_sub_small _ _ _ _ hJ (toInt_sub_small _ _ _ _ hR h128 (by omega) (by omega)) (by omega) (by omega)
  have hgen : IntOp.andi
        (IntOp.cmpi .sge (IntOp.subi (BitVec.ofNat 32 j) (IntOp.subi (BitVec.ofNat 32 r) 128#32)) 0#32)
        (IntOp.cmpi .sle (IntOp.subi (BitVec.ofNat 32 j) (IntOp.subi (BitVec.ofNat 32 r) 128#32)) 2047#32)
      = if 0 ≤ (j : ℤ) - ((r : ℤ) - 128) ∧ (j : ℤ) - ((r : ℤ) - 128) ≤ 2047 then 1#1 else 0#1 := by
    rw [cmpi_sge_toInt, cmpi_sle_toInt, hrel, h0, h2047]
    by_cases ha : 0 ≤ (j : ℤ) - ((r : ℤ) - 128)
    · by_cases hb : (j : ℤ) - ((r : ℤ) - 128) ≤ 2047
      · rw [if_pos ha, if_pos hb, if_pos ⟨ha, hb⟩]; decide
      · rw [if_pos ha, if_neg hb, if_neg (fun h => hb h.2)]; decide
    · by_cases hb : (j : ℤ) - ((r : ℤ) - 128) ≤ 2047
      · rw [if_neg ha, if_pos hb, if_neg (fun h => ha h.1)]; decide
      · rw [if_neg ha, if_neg hb, if_neg (fun h => ha h.1)]; decide
  rw [elt, e0, e256, hgen]
  by_cases hlt : r < 257
  · rw [if_pos hlt, if_pos hlt, select_one]
    by_cases hr0 : r = 0
    · rw [if_pos hr0, select_one, sitofp_ideal, hc0]
      unfold Cert.Spec.cntZ
      rw [if_pos hr0]
    · rw [if_neg hr0, select_zero]
      by_cases hr256 : r = 256
      · rw [if_pos hr256, select_one, sitofp_ideal, hcl]
        unfold Cert.Spec.cntZ
        rw [if_neg hr0, if_pos hr256]
      · rw [if_neg hr256, select_zero]
        unfold Cert.Spec.cntZ
        rw [if_neg hr0, if_neg hr256]
        by_cases hc : 0 ≤ (j : ℤ) - ((r : ℤ) - 128) ∧ (j : ℤ) - ((r : ℤ) - 128) ≤ 2047
        · rw [if_pos hc, if_pos hc, select_one, ofBits_one_f32]; simp
        · rw [if_neg hc, if_neg hc, select_zero, Ideal.ofBits_zero_f32]; simp
  · rw [if_neg hlt, if_neg hlt, select_zero, Ideal.ofBits_zero_f32]

/-- Entry (j, r) of the counts matrix the first kernel stores: the number of positions whose clamped offset is `r`
    for the 257 table rows, and 0 in the padding columns. -/
theorem counts_apply (j : Fin 2048) (r : Fin 384) :
    k0_pay1 (F := Ideal) (k0_pay3 (F := Ideal)) (ix2 j r)
      = if r.val < 257 then ((Cert.Spec.cntZ j.val r.val : ℝ) : EReal) else 0 := by
  unfold k0_pay1
  rw [shapeCast_self]
  unfold k0_pay3
  rw [iota_cols, iota_rows]
  exact count_word j.val r.val j.isLt r.isLt

end Cert.KernelSide

end
-- ==== Proof.PadSum.lean ====
/-
  A sum over the 384 padded table rows whose last 127 terms vanish is the sum over the 257 true rows.

  The first kernel pads the 257-row table with 127 zero rows up to 384 = 257 + 127 (a multiple of the lane tile); the
  counts matrix is zero in the padding columns as well. Splitting the index range 0 … 383 into 0 … 256 and 257 … 383,
  the second part contributes zeros only.
-/
import Idealize.ShloMosaic.PureOps.Ideal

noncomputable section

open scoped BigOperators

namespace Cert.KernelSide

/-- If `f` agrees with `g` on the first 257 indices and vanishes on the remaining 127, their sums agree. -/
theorem sum_pad (f : Fin 384 → EReal) (g : Fin 257 → EReal)
    (h : ∀ r : Fin 384, f r = if h : r.val < 257 then g ⟨r.val, h⟩ else 0) :
    ∑ r : Fin 384, f r = ∑ r : Fin 257, g r := by
  have h1 : ∀ i : Fin 257, f (Fin.castAdd 127 i) = g i := fun i => by
    rw [h, dif_pos (show (Fin.castAdd 127 i).val < 257 from i.isLt)]
    rfl
  have h2 : ∀ i : Fin 127, f (Fin.natAdd 257 i) = 0 := fun i => by
    rw [h, dif_neg (show ¬ (Fin.natAdd 257 i).val < 257 from by
      show ¬ (257 + i.val < 257)
      omega)]
  show ∑ r : Fin (257 + 127), f r = _
  rw [Fin.sum_univ_add]
  simp only [h1, h2, Finset.sum_const_zero, add_zero]

end Cert.KernelSide

end
-- ==== Proof.KernelValue.lean ====
/-
  The idealized kernel's result array is the specified function of the four argument arrays.  The main region's
  result is `mainOut` of the arrays it reads as it finds them; of those, x is the argument itself (nothing before
  the region writes it), the three middle table rows, the transposed weights and the bias row are what the host
  stretches prepared, and the embedding-sum array is what the first region assembled: at (j, d) the sum over the 384
  padded rows r of count(j, r) · paddedTable(r, d).  The counts vanish for r ≥ 257 (and so does the padded table), so
  that sum is the sum over the table's 257 rows of N(j, r) · table(r, d).  Everything else matches term by term.
-/
import proofs.«136840_j25666724560954_1_alg».proof.Proof.IdealRun
import proofs.«136840_j25666724560954_1_alg».proof.Proof.MainArray
import proofs.«136840_j25666724560954_1_alg».proof.Proof.EmbArray
import proofs.«136840_j25666724560954_1_alg».proof.Proof.HostArrays
import proofs.«136840_j25666724560954_1_alg».proof.Proof.KernelCounts
import proofs.«136840_j25666724560954_1_alg».proof.Proof.PadSum
import proofs.«136840_j25666724560954_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (c : Dev nD)

/-! ## What the main region finds in the arrays it reads -/

theorem found_x : Vin1 m c main_arg0 = m ((c : Thread nD τ).loc main_arg0) :=
  (W4_of_ne m c main_arg0 (by decide)).trans (V3_arg m c main_arg0 (by decide) (by decide) (by decide))
theorem found_rows : Vin1 m c main_v1 = V3 m c main_v1 := W4_of_ne m c main_v1 (by decide)
theorem found_weights : Vin1 m c main_v2 = V3 m c main_v2 := W4_of_ne m c main_v2 (by decide)
theorem found_bias : Vin1 m c main_v3 = V3 m c main_v3 := W4_of_ne m c main_v3 (by decide)
theorem found_emb : Vin1 m c main_v4 = (dat0 (Vin0 m) c).arrAt 1 cfg0.N := W4_arr m c 1

/-- The embedding-sum array at (j, d): the sum over the table's rows of N(j, r) · table(r, d). -/
theorem emb_at (j : Fin 2048) (d : Fin 1024) :
    (Vin1 m c main_v4 : S2048x1024.Idx → EReal) (ix2 j d) = Cert.Spec.embSum (m ((c : Thread nD τ).loc main_arg1)) j d := by
  rw [found_emb, emb_final (Vin0 m) c]
  show embAt (V3 m c main_v0) j d = _
  unfold embAt Cert.Spec.embSum
  refine Cert.KernelSide.sum_pad _ _ (fun r => ?_)
  rw [Cert.KernelSide.counts_apply, Cert.KernelIdeal.HostSide.padded]
  by_cases h : r.val < 257
  · rw [if_pos h, dif_pos h, dif_pos h]
  · rw [if_neg h, dif_neg h, dif_neg h, zero_mul]

/-- The result array the main region assembles is the specified function of the arguments. -/
theorem kernel_result :
    (dat1 (Vin1 m) c).arrAt 5 cfg1.N
      = Cert.Spec.G (m ((c : Thread nD τ).loc main_arg0)) (m ((c : Thread nD τ).loc main_arg1)) (m ((c : Thread nD τ).loc main_arg2)) (m ((c : Thread nD τ).loc main_arg3)) := by
  rw [final5 (Vin1 m) c]
  funext i
  obtain ⟨b, j, d, rfl⟩ : ∃ (b : Fin 8) (j : Fin 2048) (d : Fin 1024), i = ix3 b j d := ⟨i 0, i 1, i 2, eq_ix3 i⟩
  show mainAt _ _ _ _ _ b j d = Cert.Spec.outAt _ _ _ _ b j d
  unfold mainAt Cert.Spec.outAt Cert.Spec.leftTerm Cert.Spec.rightTerm
  rw [emb_at m c j d, found_x, found_rows, found_weights, found_bias]
  rw [Cert.KernelIdeal.HostSide.midrows m c 0 d, Cert.KernelIdeal.HostSide.midrows m c 1 d, Cert.KernelIdeal.HostSide.midrows m c 2 d,
    Cert.KernelIdeal.HostSide.weightsT m c 0 d, Cert.KernelIdeal.HostSide.weightsT m c 1 d, Cert.KernelIdeal.HostSide.weightsT m c 2 d,
    Cert.KernelIdeal.HostSide.biasRow m c 0 d]
  rfl

end Cert.KernelIdeal.Hand

end
-- ==== Proof.SignedWords.lean ====
/-
  32-bit words read as signed integers: the integer operations of the position arithmetic (difference, clamp, shift of the
  origin, comparison with a bound) computed on small numbers agree with the same operations on the integers, because no
  intermediate value leaves the signed range.
-/
import Idealize.ShloMosaic.PureOps.Ideal
import Idealize.ShloMosaic.Lib.ValueIdx

namespace Cert.RefSide

open Idealize.ShloMosaic

/-- An integer offset clamped to [-128, 128] and moved to [0, 256]: the row of the table a pair of positions reads. -/
def relPos (z : ℤ) : ℤ := min 128 (max (-128) z) + 128

theorem relPos_nonneg (z : ℤ) : 0 ≤ relPos z := by unfold relPos; omega
theorem relPos_le (z : ℤ) : relPos z ≤ 256 := by unfold relPos; omega

/-- The balanced remainder modulo 2³² of a number in the signed range is the number. -/
theorem bmod_small (a : ℤ) (h1 : -2147483648 ≤ a) (h2 : a < 2147483648) : a.bmod (2 ^ 32) = a := by
  rw [Int.bmod_def]; norm_num; omega

theorem toInt_ofNat_small (n : ℕ) (h : n < 2147483648) : (BitVec.ofNat 32 n).toInt = (n : ℤ) := by
  rw [BitVec.toInt_ofNat']; exact bmod_small _ (by omega) (by omega)

theorem toInt_addi (x y : BitVec 32) (h1 : -2147483648 ≤ x.toInt + y.toInt) (h2 : x.toInt + y.toInt < 2147483648) :
    (IntOp.addi x y).toInt = x.toInt + y.toInt := by
  unfold IntOp.addi; rw [BitVec.toInt_add]; exact bmod_small _ h1 h2

theorem toInt_subi (x y : BitVec 32) (h1 : -2147483648 ≤ x.toInt - y.toInt) (h2 : x.toInt - y.toInt < 2147483648) :
    (IntOp.subi x y).toInt = x.toInt - y.toInt := by
  unfold IntOp.subi; rw [BitVec.toInt_sub]; exact bmod_small _ h1 h2

theorem toInt_maxsi (x y : BitVec 32) : (IntOp.maxsi x y).toInt = max x.toInt y.toInt := by
  unfold IntOp.maxsi
  by_cases h : y.slt x = true
  · rw [if_pos h]; rw [BitVec.slt_iff_toInt_lt] at h; omega
  · rw [if_neg h]; rw [BitVec.slt_iff_toInt_lt] at h; omega

theorem toInt_minsi (x y : BitVec 32) : (IntOp.minsi x y).toInt = min x.toInt y.toInt := by
  unfold IntOp.minsi
  by_cases h : x.slt y = true
  · rw [if_pos h]; rw [BitVec.slt_iff_toInt_lt] at h; omega
  · rw [if_neg h]; rw [BitVec.slt_iff_toInt_lt] at h; omega

theorem cmpi_slt (x y : BitVec 32) : IntOp.cmpi .slt x y = if x.toInt < y.toInt then 1#1 else 0#1 := by
  unfold IntOp.cmpi
  by_cases h : x.toInt < y.toInt
  · rw [if_pos h]; rw [← BitVec.slt_iff_toInt_lt] at h; simp [h]
  · rw [if_neg h]; rw [← BitVec.slt_iff_toInt_lt] at h; simp [h]

theorem cmpi_sge (x y : BitVec 32) : IntOp.cmpi .sge x y = if y.toInt ≤ x.toInt then 1#1 else 0#1 := by
  unfold IntOp.cmpi
  by_cases h : y.toInt ≤ x.toInt
  · rw [if_pos h]; rw [← BitVec.sle_iff_toInt_le] at h; simp [h]
  · rw [if_neg h]; rw [← BitVec.sle_iff_toInt_le] at h; simp [h]

theorem toInt_zero : (0#32 : BitVec 32).toInt = 0 := by decide
theorem toInt_128 : (128#32 : BitVec 32).toInt = 128 := by decide
theorem toInt_neg128 : (4294967168#32 : BitVec 32).toInt = -128 := by decide
theorem toInt_257 : (257#32 : BitVec 32).toInt = 257 := by decide
theorem toInt_2048 : (2048#32 : BitVec 32).toInt = 2048 := by decide
theorem toInt_neg1 : (4294967295#32 : BitVec 32).toInt = -1 := by decide
theorem toInt_1 : (1#32 : BitVec 32).toInt = 1 := by decide

/-- A position word, passed through the wrap of a negative index (which a position never is), is the position. -/
theorem toInt_wrapped_position (n : ℕ) (h : n < 2048) :
    (Scalar.select (IntOp.cmpi .slt (BitVec.ofNat 32 n) 0#32) (IntOp.addi (BitVec.ofNat 32 n) 2048#32)
      (BitVec.ofNat 32 n)).toInt = (n : ℤ) := by
  have h0 := toInt_ofNat_small n (by omega)
  rw [cmpi_slt, h0, toInt_zero, if_neg (by omega), ValueIdx.select_zero]
  exact h0

/-- The word of the clamped, shifted difference of two positions, passed through the wrap of a negative index (which it
    never is), is the integer `relPos (j − i)`. -/
theorem toInt_wrapped_relPos (i j : ℕ) (hi : i < 2048) (hj : j < 2048) :
    (Scalar.select
      (IntOp.cmpi .slt (IntOp.addi (IntOp.minsi 128#32 (IntOp.maxsi 4294967168#32
        (IntOp.subi (BitVec.ofNat 32 j) (BitVec.ofNat 32 i)))) 128#32) 0#32)
      (IntOp.addi (IntOp.addi (IntOp.minsi 128#32 (IntOp.maxsi 4294967168#32
        (IntOp.subi (BitVec.ofNat 32 j) (BitVec.ofNat 32 i)))) 128#32) 257#32)
      (IntOp.addi (IntOp.minsi 128#32 (IntOp.maxsi 4294967168#32
        (IntOp.subi (BitVec.ofNat 32 j) (BitVec.ofNat 32 i)))) 128#32)).toInt = relPos ((j : ℤ) - (i : ℤ)) := by
  have hi0 := toInt_ofNat_small i (by omega)
  have hj0 := toInt_ofNat_small j (by omega)
  have hd : (IntOp.subi (BitVec.ofNat 32 j) (BitVec.ofNat 32 i)).toInt = (j : ℤ) - (i : ℤ) := by
    rw [toInt_subi _ _ (by omega) (by omega), hi0, hj0]
  have hc : (IntOp.minsi 128#32 (IntOp.maxsi 4294967168#32
      (IntOp.subi (BitVec.ofNat 32 j) (BitVec.ofNat 32 i)))).toInt = min 128 (max (-128) ((j : ℤ) - (i : ℤ))) := by
    rw [toInt_minsi, toInt_maxsi, hd, toInt_128, toInt_neg128]
  have he : (IntOp.addi (IntOp.minsi 128#32 (IntOp.maxsi 4294967168#32
      (IntOp.subi (BitVec.ofNat 32 j) (BitVec.ofNat 32 i)))) 128#32).toInt = relPos ((j : ℤ) - (i : ℤ)) := by
    rw [toInt_addi _ _ (by rw [hc, toInt_128]; omega) (by rw [hc, toInt_128]; omega), hc, toInt_128]; rfl
  rw [cmpi_slt, he, toInt_zero, if_neg (by have := relPos_nonneg ((j : ℤ) - (i : ℤ)); omega), ValueIdx.select_zero]
  exact he

/-- The in-range test of a position moved by an offset in {-1, 0, 1}: the conjunction of the two signed comparisons is
    the bit of `0 ≤ n + z < 2048`. -/
theorem inRange_word (n : ℕ) (hn : n < 2048) (c : BitVec 32) (z : ℤ) (hc : c.toInt = z) (hz1 : -1 ≤ z) (hz2 : z ≤ 1) :
    IntOp.andi (IntOp.cmpi .sge (IntOp.addi (BitVec.ofNat 32 n) c) 0#32)
      (IntOp.cmpi .slt (IntOp.addi (BitVec.ofNat 32 n) c) 2048#32)
      = if 0 ≤ (n : ℤ) + z ∧ (n : ℤ) + z < 2048 then 1#1 else 0#1 := by
  have h0 := toInt_ofNat_small n (by omega)
  have ha : (IntOp.addi (BitVec.ofNat 32 n) c).toInt = (n : ℤ) + z := by
    rw [toInt_addi _ _ (by rw [h0, hc]; omega) (by rw [h0, hc]; omega), h0, hc]
  rw [cmpi_sge, cmpi_slt, ha, toInt_zero, toInt_2048]
  by_cases h1 : 0 ≤ (n : ℤ) + z
  · by_cases h2 : (n : ℤ) + z < 2048
    · rw [if_pos h1, if_pos h2, if_pos ⟨h1, h2⟩]; decide
    · rw [if_pos h1, if_neg h2, if_neg (fun h => h2 h.2)]; decide
  · by_cases h2 : (n : ℤ) + z < 2048
    · rw [if_neg h1, if_pos h2, if_neg (fun h => h1 h.1)]; decide
    · rw [if_neg h1, if_neg h2, if_neg (fun h => h1 h.1)]; decide

/-- A condition's bit converted to a float is one where the condition holds and zero where it does not. -/
theorem uitofp_bit (P : Prop) [Decidable P] :
    FloatOps.uitofp (F := Ideal) .f32 (if P then 1#1 else 0#1 : BitVec 1) = (if P then (1 : EReal) else 0) := by
  by_cases h : P
  · rw [if_pos h, if_pos h]; show (((1#1 : BitVec 1).toNat : ℝ) : EReal) = 1; simp
  · rw [if_neg h, if_neg h]; show (((0#1 : BitVec 1).toNat : ℝ) : EReal) = 0; simp

/-- The float word of one is the real number one. -/
theorem ofBits_one_f32 : Ideal.ofBits .f32 0x3F800000#32 = 1 := by
  simp [Ideal.ofBits, Ideal.ieee, -EReal.coe_mul]; norm_num

end Cert.RefSide
-- ==== Proof.ZeroPadded.lean ====
/-
  The array padded by one position before and one after along the position axis, read at an index: inside, it is the
  array one position earlier; at the first and at the last padded position it is the padding value.
-/
import proofs.«136840_j25666724560954_1_alg».proof.Proof.Gen.ReferenceIdeal
import Idealize.ShloMosaic.Lib.KernelVsHost
open Cert.ReferenceIdeal Cert.ReferenceIdeal.Gen Idealize.ShloMosaic Idealize.ShloMosaic.ValueIdx
namespace Cert.RefSide
variable {α : Type}

theorem pad_inside (x : S8x2048x1024.Idx → α) (v : S_.Idx → α)
    (h : S8x2048x1024.Pads (![0, 1, 0] : Fin 3 → ℕ) ![0, 1, 0] ![0, 0, 0] S8x2050x1024) (hu : 0 < S_.numel)
    (i : S8x2050x1024.Idx) (k : S8x2048x1024.Idx) (h0 : (i 0).val = (k 0).val) (h1 : (i 1).val = (k 1).val + 1)
    (h2 : (i 2).val = (k 2).val) :
    pad S8x2050x1024 ![0, 1, 0] ![0, 1, 0] ![0, 0, 0] x v h hu i = x k := by
  refine pad_apply_of_inside _ _ _ x v h hu i k (fun a => ?_)
  match a with
  | ⟨0, _⟩ => show (i 0).val = 0 + (k 0).val * (0 + 1); omega
  | ⟨1, _⟩ => show (i 1).val = 1 + (k 1).val * (0 + 1); omega
  | ⟨2, _⟩ => show (i 2).val = 0 + (k 2).val * (0 + 1); omega

theorem pad_outside (x : S8x2048x1024.Idx → α) (v : S_.Idx → α)
    (h : S8x2048x1024.Pads (![0, 1, 0] : Fin 3 → ℕ) ![0, 1, 0] ![0, 0, 0] S8x2050x1024) (hu : 0 < S_.numel)
    (i : S8x2050x1024.Idx) (hi : (i 1).val = 0 ∨ (i 1).val = 2049) :
    pad S8x2050x1024 ![0, 1, 0] ![0, 1, 0] ![0, 0, 0] x v h hu i = v (Shape.Idx.first hu) := by
  refine pad_apply_of_not_inside _ _ _ x v h hu i (1 : Fin 3) ?_
  show ¬(1 ≤ (i 1).val ∧ ((i 1).val - 1) % (0 + 1) = 0 ∧ ((i 1).val - 1) / (0 + 1) < 2048)
  omega
end Cert.RefSide
-- ==== Proof.Coordinates.lean ====
/-
  An index of a literal shape is determined by the values of its coordinates.
-/
import Idealize.ShloMosaic.Lib.ValueIdx

namespace Cert.RefSide

open Idealize.ShloMosaic Idealize.ShloMosaic.ValueIdx

theorem eq_ix1_of_val {n : ℕ} (k : (⟨1, ![n]⟩ : Shape).Idx) (a : Fin n) (h : (k 0).val = a.val) : k = ix1 a := by
  funext c
  match c with
  | ⟨0, _⟩ => exact Fin.ext h

theorem eq_ix2_of_val {n0 n1 : ℕ} (k : (⟨2, ![n0, n1]⟩ : Shape).Idx) (a : Fin n0) (b : Fin n1)
    (h0 : (k 0).val = a.val) (h1 : (k 1).val = b.val) : k = ix2 a b := by
  funext c
  match c with
  | ⟨0, _⟩ => exact Fin.ext h0
  | ⟨1, _⟩ => exact Fin.ext h1

theorem eq_ix3_of_val {n0 n1 n2 : ℕ} (k : (⟨3, ![n0, n1, n2]⟩ : Shape).Idx) (a : Fin n0) (b : Fin n1) (c : Fin n2)
    (h0 : (k 0).val = a.val) (h1 : (k 1).val = b.val) (h2 : (k 2).val = c.val) : k = ix3 a b c := by
  funext e
  match e with
  | ⟨0, _⟩ => exact Fin.ext h0
  | ⟨1, _⟩ => exact Fin.ext h1
  | ⟨2, _⟩ => exact Fin.ext h2

end Cert.RefSide
-- ==== Proof.ConvRead.lean ====
/-
  The three taps of the width-3 convolution along the position axis, read at an index. The zero-padded array sliced at
  offsets 0, 1, 2 is the array at the previous, the same and the next position (zero outside); each tap adds the table
  row 127, 128, 129 times the bit of "the neighbour is inside", and is scaled by the channel's weight.
-/
import proofs.«136840_j25666724560954_1_alg».proof.Proof.Gen.ReferenceIdeal.Read
import proofs.«136840_j25666724560954_1_alg».proof.Proof.Spec
import proofs.«136840_j25666724560954_1_alg».proof.Proof.SignedWords
import proofs.«136840_j25666724560954_1_alg».proof.Proof.ZeroPadded
import proofs.«136840_j25666724560954_1_alg».proof.Proof.Coordinates

namespace Cert.RefSide

open Cert.ReferenceIdeal Cert.ReferenceIdeal.Gen Idealize.ShloMosaic Idealize.ShloMosaic.ValueIdx Cert.Spec

/-! ## The bits of "the neighbour is inside" -/

theorem mask_prev (k : S2048.Idx) :
    Read.val_main_v39 (F := Ideal) k = if 1 ≤ (k 0).val then (1 : EReal) else 0 := by
  rw [Read.val_main_v39_apply, Read.val_main_v38_apply, Read.val_main_v33_apply, Read.val_main_v37_apply, Read.val_main_v31_apply, Read.val_main_v35_apply, Read.val_main_v32_apply, Read.val_main_v36_apply, Read.val_main_v30_apply, Read.val_main_v34_apply,
    Read.val_main_c_8_apply, Read.val_main_c_9_apply, Read.val_main_c_10_apply, Read.val_main_c_11_apply, Read.val_main_v0_apply,
    inRange_word _ (k 0).isLt _ (-1) toInt_neg1 (by omega) (by omega), uitofp_bit]
  have hk : (k 0).val < 2048 := (k 0).isLt
  by_cases h : 1 ≤ (k 0).val
  · rw [if_pos h, if_pos (by omega)]
  · rw [if_neg h, if_neg (by omega)]

theorem mask_self (k : S2048.Idx) : Read.val_main_v66 (F := Ideal) k = 1 := by
  rw [Read.val_main_v66_apply, Read.val_main_v65_apply, Read.val_main_v60_apply, Read.val_main_v64_apply, Read.val_main_v58_apply, Read.val_main_v62_apply, Read.val_main_v59_apply, Read.val_main_v63_apply, Read.val_main_v57_apply, Read.val_main_v61_apply,
    Read.val_main_c_12_apply, Read.val_main_c_13_apply, Read.val_main_c_14_apply, Read.val_main_c_15_apply, Read.val_main_v0_apply,
    inRange_word _ (k 0).isLt _ (0) toInt_zero (by omega) (by omega), uitofp_bit]
  have hk : (k 0).val < 2048 := (k 0).isLt
  rw [if_pos (by omega)]

theorem mask_next (k : S2048.Idx) :
    Read.val_main_v92 (F := Ideal) k = if (k 0).val ≤ 2046 then (1 : EReal) else 0 := by
  rw [Read.val_main_v92_apply, Read.val_main_v91_apply, Read.val_main_v86_apply, Read.val_main_v90_apply, Read.val_main_v84_apply, Read.val_main_v88_apply, Read.val_main_v85_apply, Read.val_main_v89_apply, Read.val_main_v83_apply, Read.val_main_v87_apply,
    Read.val_main_c_16_apply, Read.val_main_c_17_apply, Read.val_main_c_18_apply, Read.val_main_c_19_apply, Read.val_main_v0_apply,
    inRange_word _ (k 0).isLt _ (1) toInt_1 (by omega) (by omega), uitofp_bit]
  have hk : (k 0).val < 2048 := (k 0).isLt
  by_cases h : (k 0).val ≤ 2046
  · rw [if_pos h, if_pos (by omega)]
  · rw [if_neg h, if_neg (by omega)]

/-! ## The padded array's three slices -/

theorem pad_value (hu : 0 < S_.numel) : Read.val_main_call1_v0 (F := Ideal) (Shape.Idx.first hu) = 0 := by
  rw [Read.val_main_call1_v0_apply, Read.val_main_c_7_apply]
  show ((((0#32 : BitVec 32).toInt : ℤ) : ℝ) : EReal) = 0
  simp

theorem left_slice (x : (⟨S8x2048x1024, .f32⟩ : BufTy).Contents (Elt Ideal)) (b : Fin 8) (j : Fin 2048) (d : Fin 1024) :
    Read.val_main_v40 (F := Ideal) x (ix3 b j d) = if 1 ≤ j.val then x (ix3 b (prevPos j) d) else 0 := by
  rw [Read.val_main_v40_apply]
  unfold Read.val_main_v28
  by_cases h : 1 ≤ j.val
  · rw [if_pos h]
    exact pad_inside x _ _ _ _ (ix3 b (prevPos j) d) rfl (by show j.val = (j.val - 1) + 1; omega) rfl
  · rw [if_neg h]
    exact (pad_outside x _ _ _ _ (Or.inl (by show j.val = 0; omega))).trans (pad_value _)

theorem mid_slice (x : (⟨S8x2048x1024, .f32⟩ : BufTy).Contents (Elt Ideal)) (b : Fin 8) (j : Fin 2048) (d : Fin 1024) :
    Read.val_main_v67 (F := Ideal) x (ix3 b j d) = x (ix3 b j d) := by
  rw [Read.val_main_v67_apply]
  unfold Read.val_main_v28
  exact pad_inside x _ _ _ _ (ix3 b j d) rfl (by show 1 + j.val = j.val + 1; omega) rfl

theorem right_slice (x : (⟨S8x2048x1024, .f32⟩ : BufTy).Contents (Elt Ideal)) (b : Fin 8) (j : Fin 2048) (d : Fin 1024) :
    Read.val_main_v93 (F := Ideal) x (ix3 b j d) = if j.val ≤ 2046 then x (ix3 b (nextPos j) d) else 0 := by
  have hj : j.val < 2048 := j.isLt
  rw [Read.val_main_v93_apply]
  unfold Read.val_main_v28
  by_cases h : j.val ≤ 2046
  · rw [if_pos h]
    exact pad_inside x _ _ _ _ (ix3 b (nextPos j) d) rfl (by show 2 + j.val = (j.val + 1) % 2048 + 1; omega) rfl
  · rw [if_neg h]
    exact (pad_outside x _ _ _ _ (Or.inr (by show 2 + j.val = 2049; omega))).trans (pad_value _)

/-! ## The table's three rows, the weights' three columns and the bias, along the channels -/

theorem row127 (table : (⟨S257x1024, .f32⟩ : BufTy).Contents (Elt Ideal)) (i : S1x2048x1024.Idx) :
    Read.val_main_v46 (F := Ideal) table i
      = table (ix2 (127 : Fin 257) (⟨(i 2).val, (i 2).isLt⟩ : Fin 1024)) := by
  rw [Read.val_main_v46_apply, Read.val_main_v44_apply, Read.val_main_v43_apply, Read.val_main_v42_apply]
  exact congrArg table (eq_ix2_of_val _ _ _ rfl (Nat.mod_eq_of_lt (show (i 2).val < 1024 from (i 2).isLt)))

theorem row128 (table : (⟨S257x1024, .f32⟩ : BufTy).Contents (Elt Ideal)) (i : S1x2048x1024.Idx) :
    Read.val_main_v73 (F := Ideal) table i
      = table (ix2 (128 : Fin 257) (⟨(i 2).val, (i 2).isLt⟩ : Fin 1024)) := by
  rw [Read.val_main_v73_apply, Read.val_main_v71_apply, Read.val_main_v70_apply, Read.val_main_v69_apply]
  exact congrArg table (eq_ix2_of_val _ _ _ rfl (Nat.mod_eq_of_lt (show (i 2).val < 1024 from (i 2).isLt)))

theorem row129 (table : (⟨S257x1024, .f32⟩ : BufTy).Contents (Elt Ideal)) (i : S1x2048x1024.Idx) :
    Read.val_main_v99 (F := Ideal) table i
      = table (ix2 (129 : Fin 257) (⟨(i 2).val, (i 2).isLt⟩ : Fin 1024)) := by
  rw [Read.val_main_v99_apply, Read.val_main_v97_apply, Read.val_main_v96_apply, Read.val_main_v95_apply]
  exact congrArg table (eq_ix2_of_val _ _ _ rfl (Nat.mod_eq_of_lt (show (i 2).val < 1024 from (i 2).isLt)))

theorem center_read (table : (⟨S257x1024, .f32⟩ : BufTy).Contents (Elt Ideal)) (i : S8x2048x1024.Idx) :
    Read.val_main_v118 (F := Ideal) table i
      = table (ix2 (128 : Fin 257) (⟨(i 2).val, (i 2).isLt⟩ : Fin 1024)) := by
  rw [Read.val_main_v118_apply, Read.val_main_v117_apply, Read.val_main_v116_apply, Read.val_main_v115_apply]
  exact congrArg table (eq_ix2_of_val _ _ _ rfl (Nat.mod_eq_of_lt (show (i 2).val < 1024 from (i 2).isLt)))

theorem w0_read (w : (⟨S1024x3, .f32⟩ : BufTy).Contents (Elt Ideal)) (i : S8x2048x1024.Idx) :
    Read.val_main_v53 (F := Ideal) w i = w (ix2 (⟨(i 2).val, (i 2).isLt⟩ : Fin 1024) (0 : Fin 3)) := by
  rw [Read.val_main_v53_apply, Read.val_main_v52_apply, Read.val_main_v51_apply, Read.val_main_v50_apply]
  exact congrArg w (eq_ix2_of_val _ _ _ (Nat.div_one _) rfl)

theorem w1_read (w : (⟨S1024x3, .f32⟩ : BufTy).Contents (Elt Ideal)) (i : S8x2048x1024.Idx) :
    Read.val_main_v80 (F := Ideal) w i = w (ix2 (⟨(i 2).val, (i 2).isLt⟩ : Fin 1024) (1 : Fin 3)) := by
  rw [Read.val_main_v80_apply, Read.val_main_v79_apply, Read.val_main_v78_apply, Read.val_main_v77_apply]
  exact congrArg w (eq_ix2_of_val _ _ _ (Nat.div_one _) rfl)

theorem w2_read (w : (⟨S1024x3, .f32⟩ : BufTy).Contents (Elt Ideal)) (i : S8x2048x1024.Idx) :
    Read.val_main_v106 (F := Ideal) w i = w (ix2 (⟨(i 2).val, (i 2).isLt⟩ : Fin 1024) (2 : Fin 3)) := by
  rw [Read.val_main_v106_apply, Read.val_main_v105_apply, Read.val_main_v104_apply, Read.val_main_v103_apply]
  exact congrArg w (eq_ix2_of_val _ _ _ (Nat.div_one _) rfl)

theorem bias_read (bias : (⟨S1024, .f32⟩ : BufTy).Contents (Elt Ideal)) (i : S8x2048x1024.Idx) :
    Read.val_main_v55 (F := Ideal) bias i = bias (ix1 (⟨(i 2).val, (i 2).isLt⟩ : Fin 1024)) := by
  rw [Read.val_main_v55_apply, Read.val_main_v29_apply]
  exact congrArg bias (eq_ix1_of_val _ _ rfl)

/-! ## The three taps -/

theorem left_read (x : (⟨S8x2048x1024, .f32⟩ : BufTy).Contents (Elt Ideal)) (table : (⟨S257x1024, .f32⟩ : BufTy).Contents (Elt Ideal)) (b : Fin 8) (j : Fin 2048) (d : Fin 1024) :
    Read.val_main_v49 (F := Ideal) x table (ix3 b j d) = leftTerm x table b j d := by
  rw [Read.val_main_v49_apply, left_slice, Read.val_main_v48_apply, Read.val_main_v47_apply, Read.val_main_v45_apply,
    Read.val_main_v41_apply, mask_prev, row127]
  show (if 1 ≤ j.val then x (ix3 b (prevPos j) d) else 0)
      + (if 1 ≤ j.val then (1 : EReal) else 0) * table (ix2 (127 : Fin 257) d) = leftTerm x table b j d
  unfold leftTerm
  by_cases h : 1 ≤ j.val
  · rw [if_pos h, if_pos h, if_pos h, one_mul]
  · rw [if_neg h, if_neg h, if_neg h, zero_mul, add_zero]

theorem mid_read (x : (⟨S8x2048x1024, .f32⟩ : BufTy).Contents (Elt Ideal)) (table : (⟨S257x1024, .f32⟩ : BufTy).Contents (Elt Ideal)) (b : Fin 8) (j : Fin 2048) (d : Fin 1024) :
    Read.val_main_v76 (F := Ideal) x table (ix3 b j d) = x (ix3 b j d) + table (ix2 (128 : Fin 257) d) := by
  rw [Read.val_main_v76_apply, mid_slice, Read.val_main_v75_apply, Read.val_main_v74_apply, Read.val_main_v72_apply,
    Read.val_main_v68_apply, mask_self, row128]
  show x (ix3 b j d) + (1 : EReal) * table (ix2 (128 : Fin 257) d) = _
  rw [one_mul]

theorem right_read (x : (⟨S8x2048x1024, .f32⟩ : BufTy).Contents (Elt Ideal)) (table : (⟨S257x1024, .f32⟩ : BufTy).Contents (Elt Ideal)) (b : Fin 8) (j : Fin 2048) (d : Fin 1024) :
    Read.val_main_v102 (F := Ideal) x table (ix3 b j d) = rightTerm x table b j d := by
  rw [Read.val_main_v102_apply, right_slice, Read.val_main_v101_apply, Read.val_main_v100_apply, Read.val_main_v98_apply,
    Read.val_main_v94_apply, mask_next, row129]
  show (if j.val ≤ 2046 then x (ix3 b (nextPos j) d) else 0)
      + (if j.val ≤ 2046 then (1 : EReal) else 0) * table (ix2 (129 : Fin 257) d) = rightTerm x table b j d
  unfold rightTerm
  by_cases h : j.val ≤ 2046
  · rw [if_pos h, if_pos h, if_pos h, one_mul]
  · rw [if_neg h, if_neg h, if_neg h, zero_mul, add_zero]

end Cert.RefSide
-- ==== Proof.OffsetCount.lean ====
/-
  Counting positions by their clamped offset: among the 2048 positions `i`, how many have `relPos (j − i) = r`. At the two
  ends of the clamp the answer is the length of a tail or of an initial segment of the positions, and in between it is one
  or none — the closed form the specification names `cntZ`.
-/
import proofs.«136840_j25666724560954_1_alg».proof.Proof.Spec
import proofs.«136840_j25666724560954_1_alg».proof.Proof.SignedWords

open scoped BigOperators

namespace Cert.RefSide

open Cert.Spec

/-- How many positions below 2048 are at least `m`. -/
theorem card_ge (m : ℕ) : (Finset.univ.filter fun i : Fin 2048 => m ≤ i.val).card = 2048 - min 2048 m := by
  have h := Finset.card_filter_add_card_filter_not (s := (Finset.univ : Finset (Fin 2048)))
    (fun i : Fin 2048 => i.val < m)
  rw [Fin.card_filter_val_lt, Finset.card_univ, Fintype.card_fin] at h
  have e : (Finset.univ.filter fun i : Fin 2048 => m ≤ i.val) = Finset.univ.filter fun i : Fin 2048 => ¬ i.val < m :=
    Finset.filter_congr fun i _ => by omega
  rw [e]; omega

/-- How many positions below 2048 equal `k`. -/
theorem card_eq (k : ℕ) : (Finset.univ.filter fun i : Fin 2048 => i.val = k).card = if k < 2048 then 1 else 0 := by
  split
  · next h =>
    rw [Finset.card_eq_one]
    refine ⟨⟨k, h⟩, ?_⟩
    ext i
    simp [Fin.ext_iff]
  · next h =>
    rw [Finset.card_eq_zero, Finset.filter_eq_empty_iff]
    intro i _ hi
    have := i.isLt
    omega

/-- The number of positions `i` whose clamped, shifted offset from `j` is `r`, in closed form. -/
theorem card_relPos (j : Fin 2048) (r : Fin 257) :
    ((Finset.univ.filter fun i : Fin 2048 => relPos ((j.val : ℤ) - (i.val : ℤ)) = (r.val : ℤ)).card : ℤ)
      = cntZ j.val r.val := by
  have hj := j.isLt
  have hr := r.isLt
  unfold cntZ
  by_cases h0 : r.val = 0
  · rw [if_pos h0]
    have e : (Finset.univ.filter fun i : Fin 2048 => relPos ((j.val : ℤ) - (i.val : ℤ)) = (r.val : ℤ))
        = Finset.univ.filter fun i : Fin 2048 => j.val + 128 ≤ i.val :=
      Finset.filter_congr fun i _ => by unfold relPos; omega
    rw [e, card_ge]; omega
  · rw [if_neg h0]
    by_cases h1 : r.val = 256
    · rw [if_pos h1]
      have e : (Finset.univ.filter fun i : Fin 2048 => relPos ((j.val : ℤ) - (i.val : ℤ)) = (r.val : ℤ))
          = Finset.univ.filter fun i : Fin 2048 => i.val < j.val - 127 :=
        Finset.filter_congr fun i _ => by unfold relPos; omega
      rw [e, Fin.card_filter_val_lt]; omega
    · rw [if_neg h1]
      by_cases hk : r.val ≤ j.val + 128
      · have e : (Finset.univ.filter fun i : Fin 2048 => relPos ((j.val : ℤ) - (i.val : ℤ)) = (r.val : ℤ))
            = Finset.univ.filter fun i : Fin 2048 => i.val = j.val + 128 - r.val :=
          Finset.filter_congr fun i _ => by unfold relPos; omega
        rw [e, card_eq]
        by_cases hb : j.val + 128 - r.val < 2048
        · rw [if_pos hb, if_pos (by omega)]; rfl
        · rw [if_neg hb, if_neg (by omega)]; rfl
      · have e : (Finset.univ.filter fun i : Fin 2048 => relPos ((j.val : ℤ) - (i.val : ℤ)) = (r.val : ℤ)) = ∅ :=
          Finset.filter_eq_empty_iff.2 fun i _ => by unfold relPos; omega
        rw [e, if_neg (by omega)]; rfl

end Cert.RefSide
-- ==== Proof.ScatterIndex.lean ====
/-
  Where an update of the accumulating scatter lands. The scatter has no window axes, both operand axes are inserted, and
  the index vector lies along the last axis of the index array: update `(i, j')` reads its two start coordinates at
  `(i, j', 0)` and `(i, j', 1)` and lands on that pair of coordinates when it lies inside the operand.
-/
import proofs.«136840_j25666724560954_1_alg».proof.Proof.Gen.ReferenceIdeal
import Idealize.ShloMosaic.Lib.ValueIdx

namespace Cert.RefSide

open Cert.ReferenceIdeal Cert.ReferenceIdeal.Gen Idealize.ShloMosaic Idealize.ShloMosaic.ValueIdx

local notation "dS" => scatter_S2048x257_S2048x2048x2_S2048x2048_n_01_01_2

theorem siIdx0 (u : S2048x2048.Idx) (c : Fin (dS).scatterDimsToOperandDims.length) :
    ((dS).siIdx u c 0).val = (u 0).val := by rfl
theorem siIdx1 (u : S2048x2048.Idx) (c : Fin (dS).scatterDimsToOperandDims.length) :
    ((dS).siIdx u c 1).val = (u 1).val := by rfl
theorem siIdx2 (u : S2048x2048.Idx) (c : Fin (dS).scatterDimsToOperandDims.length) :
    ((dS).siIdx u c 2).val = c.val := by rfl

theorem window_zero (u : S2048x2048.Idx) (a : Fin 2) : (dS).window u a = 0 := by
  have e : (dS).sKept = [] := by decide
  unfold ScatterDims.window
  rw [dif_neg (by rw [e]; exact List.not_mem_nil)]

theorem start0 (u : S2048x2048.Idx) (idx : IVec S2048x2048x2 32) :
    (dS).start u idx 0 = (idx ((dS).siIdx u ⟨0, by decide⟩)).toInt := by
  unfold ScatterDims.start
  rw [dif_pos (by decide)]
  rfl
theorem start1 (u : S2048x2048.Idx) (idx : IVec S2048x2048x2 32) :
    (dS).start u idx 1 = (idx ((dS).siIdx u ⟨1, by decide⟩)).toInt := by
  unfold ScatterDims.start
  rw [dif_pos (by decide)]
  rfl

theorem resultIdx_some (u : S2048x2048.Idx) (idx : IVec S2048x2048x2 32) (p : S2048x257.Idx)
    (h0 : (idx ((dS).siIdx u ⟨0, by decide⟩)).toInt = ((u 1).val : ℤ))
    (z : ℤ) (h1 : (idx ((dS).siIdx u ⟨1, by decide⟩)).toInt = z) (hz0 : 0 ≤ z) (hz1 : z < 257) :
    (dS).resultIdx? u idx = some p ↔ ((p 0).val = (u 1).val ∧ ((p 1).val : ℤ) = z) := by
  have hu1 : (u 1).val < 2048 := (u 1).isLt
  have hs0 : (dS).start u idx 0 = ((u 1).val : ℤ) := (start0 u idx).trans h0
  have hs1 : (dS).start u idx 1 = z := (start1 u idx).trans h1
  have hw0 := window_zero u 0
  have hw1 := window_zero u 1
  have hin : ∀ a, 0 ≤ (dS).start u idx a + (dS).window u a ∧ (dS).start u idx a + (dS).window u a < S2048x257.size a := by
    intro a
    match a with
    | ⟨0, _⟩ =>
      show 0 ≤ (dS).start u idx 0 + ((dS).window u 0 : ℤ) ∧ (dS).start u idx 0 + ((dS).window u 0 : ℤ) < 2048
      rw [hs0, hw0]; omega
    | ⟨1, _⟩ =>
      show 0 ≤ (dS).start u idx 1 + ((dS).window u 1 : ℤ) ∧ (dS).start u idx 1 + ((dS).window u 1 : ℤ) < 257
      rw [hs1, hw1]; omega
  unfold ScatterDims.resultIdx?
  rw [dif_pos hin, Option.some.injEq]
  constructor
  · intro h
    have e0 : ((dS).start u idx 0 + ((dS).window u 0 : ℤ)).toNat = (p 0).val :=
      congrArg (fun q : S2048x257.Idx => (q 0).val) h
    have e1 : ((dS).start u idx 1 + ((dS).window u 1 : ℤ)).toNat = (p 1).val :=
      congrArg (fun q : S2048x257.Idx => (q 1).val) h
    rw [hs0, hw0] at e0
    rw [hs1, hw1] at e1
    constructor <;> omega
  · rintro ⟨e0, e1⟩
    funext a
    match a with
    | ⟨0, _⟩ =>
      apply Fin.ext
      show ((dS).start u idx 0 + ((dS).window u 0 : ℤ)).toNat = (p 0).val
      rw [hs0, hw0]; omega
    | ⟨1, _⟩ =>
      apply Fin.ext
      show ((dS).start u idx 1 + ((dS).window u 1 : ℤ)).toNat = (p 1).val
      rw [hs1, hw1]; omega

end Cert.RefSide
-- ==== Proof.CountsRead.lean ====
/-
  The accumulating scatter of ones, read at an index. Update `(i, j')` carries the index pair
  `(j', relPos (j' − i))` (each passed through the wrap of a negative index, which never fires) and the value one, into an
  array of zeros; so entry `(j, r)` of the result is the number of positions `i` with `relPos (j − i) = r`.
-/
import proofs.«136840_j25666724560954_1_alg».proof.Proof.Gen.ReferenceIdeal.Read
import proofs.«136840_j25666724560954_1_alg».proof.Proof.OffsetCount
import proofs.«136840_j25666724560954_1_alg».proof.Proof.ScatterIndex

open scoped BigOperators

namespace Cert.RefSide

open Cert.ReferenceIdeal Cert.ReferenceIdeal.Gen Idealize.ShloMosaic Idealize.ShloMosaic.ValueIdx

local notation "dS" => scatter_S2048x257_S2048x2048x2_S2048x2048_n_01_01_2

/-- The column position, as a word. -/
theorem col_word (i : S2048x2048.Idx) : Read.val_main_v10 (F := Ideal) i = BitVec.ofNat 32 (i 1).val :=
  (Read.val_main_v10_apply i).trans ((Read.val_main_v9_apply _).trans (Read.val_main_v0_apply _))

/-- The difference of the column and the row position, as a word. -/
theorem diff_word (i : S2048x2048.Idx) :
    Read.val_main_v5 (F := Ideal) i = IntOp.subi (BitVec.ofNat 32 (i 1).val) (BitVec.ofNat 32 (i 0).val) := by
  rw [Read.val_main_v5_apply]
  exact congrArg₂ IntOp.subi
    ((Read.val_main_v3_apply i).trans ((Read.val_main_v1_apply _).trans (Read.val_main_v0_apply _)))
    ((Read.val_main_v4_apply i).trans ((Read.val_main_v2_apply _).trans (Read.val_main_v0_apply _)))

/-- The clamped difference moved to the table's rows, as a word. -/
theorem shifted_word (i : S2048x2048.Idx) :
    Read.val_main_v8 (F := Ideal) i = IntOp.addi (IntOp.minsi 128#32 (IntOp.maxsi 4294967168#32
      (IntOp.subi (BitVec.ofNat 32 (i 1).val) (BitVec.ofNat 32 (i 0).val)))) 128#32 := by
  rw [Read.val_main_v8_apply, Read.val_main_v6_apply, Read.val_main_call0_v4_apply, Read.val_main_call0_v3_apply,
    Read.val_main_c_0_apply, Read.val_main_call0_v2_apply, Read.val_main_call0_v1_apply, Read.val_main_call0_v0_apply,
    Read.val_main_c_apply, Read.val_main_v7_apply, Read.val_main_c_1_apply, diff_word]

/-- The first index component of an update is its column position. -/
theorem wrapped_col (i : S2048x2048.Idx) : (Read.val_main_v16 (F := Ideal) i).toInt = ((i 1).val : ℤ) := by
  rw [Read.val_main_v16_apply, Read.val_main_v13_apply, Read.val_main_v15_apply, Read.val_main_v12_apply,
    Read.val_main_v14_apply, Read.val_main_c_2_apply, Read.val_main_c_3_apply, col_word]
  exact toInt_wrapped_position _ (i 1).isLt

/-- The second index component of an update is the table row of its two positions. -/
theorem wrapped_row (i : S2048x2048.Idx) :
    (Read.val_main_v21 (F := Ideal) i).toInt = relPos (((i 1).val : ℤ) - ((i 0).val : ℤ)) := by
  rw [Read.val_main_v21_apply, Read.val_main_v18_apply, Read.val_main_v20_apply, Read.val_main_v17_apply,
    Read.val_main_c_4_apply, Read.val_main_v19_apply, Read.val_main_c_5_apply, shifted_word]
  exact toInt_wrapped_relPos _ _ (i 0).isLt (i 1).isLt

/-- The index array at an update's first component. -/
theorem indices_col (u : S2048x2048.Idx) :
    (Read.val_main_v24 (F := Ideal) ((dS).siIdx u ⟨0, by decide⟩)).toInt = ((u 1).val : ℤ) := by
  have e := concatenate_pair_apply_left (t := S2048x2048x2) (s₁ := S2048x2048x1) (s₂ := S2048x2048x1) (2 : Fin 3)
    (Read.val_main_v22 (F := Ideal)) (Read.val_main_v23 (F := Ideal))
    concatenates_S2048x2048x1_S2048x2048x1_S2048x2048x2_d2 ((dS).siIdx u ⟨0, by decide⟩) rfl
    (ix3 (⟨(u 0).val, (u 0).isLt⟩ : Fin 2048) (⟨(u 1).val, (u 1).isLt⟩ : Fin 2048) (0 : Fin 1)) (fun b => by
      match b with
      | ⟨0, _⟩ => rfl
      | ⟨1, _⟩ => rfl
      | ⟨2, _⟩ => rfl)
  refine (congrArg BitVec.toInt e).trans ?_
  rw [Read.val_main_v22_apply, wrapped_col]
  try rfl

/-- The index array at an update's second component. -/
theorem indices_row (u : S2048x2048.Idx) :
    (Read.val_main_v24 (F := Ideal) ((dS).siIdx u ⟨1, by decide⟩)).toInt
      = relPos (((u 1).val : ℤ) - ((u 0).val : ℤ)) := by
  have e := concatenate_pair_apply_right (t := S2048x2048x2) (s₁ := S2048x2048x1) (s₂ := S2048x2048x1) (2 : Fin 3)
    (Read.val_main_v22 (F := Ideal)) (Read.val_main_v23 (F := Ideal))
    concatenates_S2048x2048x1_S2048x2048x1_S2048x2048x2_d2 ((dS).siIdx u ⟨1, by decide⟩) rfl rfl
    (ix3 (⟨(u 0).val, (u 0).isLt⟩ : Fin 2048) (⟨(u 1).val, (u 1).isLt⟩ : Fin 2048) (0 : Fin 1)) (fun b hb => by
      match b with
      | ⟨0, _⟩ => rfl
      | ⟨1, _⟩ => rfl
      | ⟨2, _⟩ => exact absurd rfl hb) rfl
  refine (congrArg BitVec.toInt e).trans ?_
  rw [Read.val_main_v23_apply, wrapped_row]
  try rfl

/-- Where update `u` lands. -/
theorem lands_iff (u : S2048x2048.Idx) (p : S2048x257.Idx) :
    (dS).resultIdx? u (Read.val_main_v24 (F := Ideal)) = some p
      ↔ ((p 0).val = (u 1).val ∧ ((p 1).val : ℤ) = relPos (((u 1).val : ℤ) - ((u 0).val : ℤ))) :=
  resultIdx_some u _ p (indices_col u) _ (indices_row u) (relPos_nonneg _)
    (by have := relPos_le (((u 1).val : ℤ) - ((u 0).val : ℤ)); omega)

/-- The updates landing on `(j, r)` are as many as the positions `i` with `relPos (j − i) = r`. -/
theorem card_landing (j : Fin 2048) (r : Fin 257) :
    (Finset.univ.filter fun u : S2048x2048.Idx =>
        (dS).resultIdx? u (Read.val_main_v24 (F := Ideal)) = some (ix2 j r)).card
      = (Finset.univ.filter fun i : Fin 2048 => relPos ((j.val : ℤ) - (i.val : ℤ)) = (r.val : ℤ)).card := by
  refine Finset.card_bij (fun u _ => (⟨(u 0).val, (u 0).isLt⟩ : Fin 2048)) ?_ ?_ ?_
  · intro u hu
    rw [Finset.mem_filter] at hu ⊢
    obtain ⟨h0, h1⟩ := (lands_iff u (ix2 j r)).1 hu.2
    refine ⟨Finset.mem_univ _, ?_⟩
    have h0' : j.val = (u 1).val := h0
    have h1' : (r.val : ℤ) = relPos (((u 1).val : ℤ) - ((u 0).val : ℤ)) := h1
    show relPos ((j.val : ℤ) - ((u 0).val : ℤ)) = (r.val : ℤ)
    rw [h0', h1']
  · intro u₁ hu₁ u₂ hu₂ h
    rw [Finset.mem_filter] at hu₁ hu₂
    have a₁ : j.val = (u₁ 1).val := ((lands_iff u₁ (ix2 j r)).1 hu₁.2).1
    have a₂ : j.val = (u₂ 1).val := ((lands_iff u₂ (ix2 j r)).1 hu₂.2).1
    have h' : (u₁ 0).val = (u₂ 0).val := congrArg Fin.val h
    funext c
    match c with
    | ⟨0, _⟩ => exact Fin.ext h'
    | ⟨1, _⟩ => exact Fin.ext (a₁.symm.trans a₂)
  · intro i hi
    rw [Finset.mem_filter] at hi
    refine ⟨ix2 i j, ?_, Fin.ext rfl⟩
    rw [Finset.mem_filter]
    refine ⟨Finset.mem_univ _, (lands_iff (ix2 i j) (ix2 j r)).2 ⟨rfl, ?_⟩⟩
    show (r.val : ℤ) = relPos ((j.val : ℤ) - (i.val : ℤ))
    exact hi.2.symm

/-- The scattered counts at `(j, r)`. -/
theorem counts_read (j : Fin 2048) (r : Fin 257) :
    Read.val_main_v26 (F := Ideal) (ix2 j r) = ((Cert.Spec.cntZ j.val r.val : ℝ) : EReal) := by
  have hx : Read.val_main_v11 (F := Ideal) (ix2 j r) = 0 := by
    rw [Read.val_main_v11_apply, Read.val_main_cst_apply]; exact Ideal.ofBits_zero_f32
  have hu : ∀ u, Read.val_main_v25 (F := Ideal) u = 1 := fun u => by
    rw [Read.val_main_v25_apply, Read.val_main_cst_6_apply]; exact ofBits_one_f32
  show Read.val_main_v11 (F := Ideal) (ix2 j r)
      + ∑ u ∈ Finset.univ.filter (fun u : S2048x2048.Idx =>
          (dS).resultIdx? u (Read.val_main_v24 (F := Ideal)) = some (ix2 j r)), Read.val_main_v25 (F := Ideal) u = _
  rw [hx, zero_add, Finset.sum_congr rfl (fun u _ => hu u), Finset.sum_const, nsmul_one, card_landing,
    ← card_relPos j r, Int.cast_natCast, EReal.coe_natCast]

/-- The scattered counts at any index, by its coordinates. -/
theorem counts_read' (p : S2048x257.Idx) :
    Read.val_main_v26 (F := Ideal) p = ((Cert.Spec.cntZ (p 0).val (p 1).val : ℝ) : EReal) :=
  (congrArg (Read.val_main_v26 (F := Ideal)) (eq_ix2 p)).trans (counts_read (p 0) (p 1))

end Cert.RefSide
-- ==== Proof.EmbRead.lean ====
/-
  The product of the scattered counts with the table, read at an index: row `j`, channel `d` is the sum over the
  table's rows `r` of the count `N(j, r)` times `table(r, d)`.
-/
import proofs.«136840_j25666724560954_1_alg».proof.Proof.CountsRead
import proofs.«136840_j25666724560954_1_alg».proof.Proof.Coordinates

open scoped BigOperators

namespace Cert.RefSide

open Cert.ReferenceIdeal Cert.ReferenceIdeal.Gen Idealize.ShloMosaic Idealize.ShloMosaic.ValueIdx Cert.Spec

theorem emb_read (table : (⟨S257x1024, .f32⟩ : BufTy).Contents (Elt Ideal)) (b : Fin 8) (j : Fin 2048) (d : Fin 1024) :
    Read.val_main_v113 (F := Ideal) table (ix3 b j d) = embSum table j d := by
  rw [Read.val_main_v113_apply, Read.val_main_v112_apply, Read.val_main_v27_apply]
  unfold embSum
  refine Finset.sum_congr rfl (fun k _ => ?_)
  rw [counts_read']
  exact congrArg₂ (· * ·) rfl (congrArg table (eq_ix2_of_val _ _ _ rfl rfl))

end Cert.RefSide
-- ==== Proof.RefResult.lean ====
/-
  The reference's result is the specified function: bias plus the three weighted taps, plus 2047 times the input, plus the
  summed relative-position rows, minus the centre row, all divided by 2048 — summed in the reference's own order, which is
  the specification's.
-/
import proofs.«136840_j25666724560954_1_alg».proof.Proof.ConvRead
import proofs.«136840_j25666724560954_1_alg».proof.Proof.EmbRead

namespace Cert.RefSide

open Cert.ReferenceIdeal Cert.ReferenceIdeal.Gen Idealize.ShloMosaic Idealize.ShloMosaic.ValueIdx Cert.Spec

theorem result_eq (x : (⟨S8x2048x1024, .f32⟩ : BufTy).Contents (Elt Ideal)) (table : (⟨S257x1024, .f32⟩ : BufTy).Contents (Elt Ideal))
    (w : (⟨S1024x3, .f32⟩ : BufTy).Contents (Elt Ideal)) (bias : (⟨S1024, .f32⟩ : BufTy).Contents (Elt Ideal)) :
    Cert.ReferenceIdeal.Read.val_main_v121 (F := Ideal) x table w bias = Cert.Spec.G x table w bias := by
  funext i
  obtain ⟨b, j, d, rfl⟩ : ∃ (b : Fin 8) (j : Fin 2048) (d : Fin 1024), i = ix3 b j d := ⟨i 0, i 1, i 2, eq_ix3 i⟩
  rw [Cert.Spec.G_ix3]
  rw [Read.val_main_v121_apply, Read.val_main_v119_apply, Read.val_main_v114_apply, Read.val_main_v111_apply,
    Read.val_main_v108_apply, Read.val_main_v82_apply, Read.val_main_v56_apply, Read.val_main_v54_apply,
    Read.val_main_v81_apply, Read.val_main_v107_apply, Read.val_main_v110_apply, left_read, mid_read, right_read,
    emb_read, center_read, bias_read, w0_read, w1_read, w2_read, Read.val_main_v109_apply, Read.val_main_cst_20_apply,
    Read.val_main_v120_apply, Read.val_main_cst_21_apply]
  rfl

end Cert.RefSide
-- ==== Proof.lean ====
/-
  The claim: the word-level kernel, its idealization and the idealized reference each run to the end from any memory,
  faulting nowhere and leaving the four argument arrays as launched; the idealization rewrote nothing; and at the
  extended reals the idealized kernel and the idealized reference, run from memories that agree on the arguments, end
  with the same result array.

  Both compute, for batch b, position j and channel d,
      ( bias d + w(d,0)·L + w(d,1)·(x(b,j,d) + table(128,d)) + w(d,2)·R + 2047·x(b,j,d) + E(j,d) − table(128,d) ) / 2048,
  L and R the zero-padded neighbours' terms of the width-3 depthwise convolution and E(j,d) = Σ_r N(j,r)·table(r,d)
  the sum over all positions of the relative-position rows of the table (Spec.lean).  The kernel builds the counts
  N(j,r) in closed form from the indices, in a scratch buffer filled at the first grid point of its first region and
  kept for the other three, and multiplies them with the zero-padded table tile by tile; its second region combines
  the x block, its two rotations masked at the ends, the three middle table rows, the weights and the bias.  The
  reference scatters ones into a [2048, 257] array to get the same counts, multiplies with the table, and forms the
  neighbours by zero-padding x and slicing.  No law beyond 0·y = 0, 1·y = y and 0 + y = y on the extended reals joins
  the two sides, so the precondition (finite inputs) is never opened.

  The two kernel programs' runs are RegionRuns of two pipelines after three stretches of host operations (…Run.lean over
  …Region0.lean and …Region1.lean, the same text at both float instances); the reference's run is its generated one.
-/
import proofs.«136840_j25666724560954_1_alg».proof.Defs
import proofs.«136840_j25666724560954_1_alg».proof.Proof.Gen.Kernel
import proofs.«136840_j25666724560954_1_alg».proof.Proof.Gen.Kernel.Skeleton
import proofs.«136840_j25666724560954_1_alg».proof.Proof.Gen.Kernel.Launch
import proofs.«136840_j25666724560954_1_alg».proof.Proof.Gen.Kernel.Regions
import proofs.«136840_j25666724560954_1_alg».proof.Proof.Gen.Kernel.Points
import proofs.«136840_j25666724560954_1_alg».proof.Proof.Gen.KernelIdeal
import proofs.«136840_j25666724560954_1_alg».proof.Proof.Gen.KernelIdeal.Skeleton
import proofs.«136840_j25666724560954_1_alg».proof.Proof.Gen.KernelIdeal.Launch
import proofs.«136840_j25666724560954_1_alg».proof.Proof.Gen.KernelIdeal.Regions
import proofs.«136840_j25666724560954_1_alg».proof.Proof.Gen.KernelIdeal.Points
import proofs.«136840_j25666724560954_1_alg».proof.Proof.Gen.ReferenceIdeal
import proofs.«136840_j25666724560954_1_alg».proof.Proof.Gen.ReferenceIdeal.Run
import proofs.«136840_j25666724560954_1_alg».proof.Proof.Gen.ReferenceIdeal.Read
import proofs.«136840_j25666724560954_1_alg».proof.Proof.Gen.Pre_finite_inputs
import proofs.«136840_j25666724560954_1_alg».proof.Proof.BitsRun
import proofs.«136840_j25666724560954_1_alg».proof.Proof.IdealRun
import proofs.«136840_j25666724560954_1_alg».proof.Proof.KernelValue
import proofs.«136840_j25666724560954_1_alg».proof.Proof.RefResult
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals the kernel's result array ends at the specified function of the arguments (its run, then
    `kernel_result`), and so does the reference's (its run, then `result_eq`), the arguments agreeing. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_result m c), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v121_eq, Cert.RefSide.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
